-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) (main_arg6 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1700000 : Shape := ⟨1, ![1700000]⟩
abbrev S1700000x1 : Shape := ⟨2, ![1700000, 1]⟩
abbrev S2000x64 : Shape := ⟨2, ![2000, 64]⟩
abbrev S1700000x64 : Shape := ⟨2, ![1700000, 64]⟩
abbrev S1x64 : Shape := ⟨2, ![1, 64]⟩
abbrev S1x1 : Shape := ⟨2, ![1, 1]⟩

abbrev nBuf : Space → Nat
  | .hbm => 88
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1600000, .i1⟩
  | .hbm, ⟨12, _⟩ => ⟨S_, .f32⟩
  | .hbm, ⟨13, _⟩ => ⟨S_, .f32⟩
  | .hbm, ⟨14, _⟩ => ⟨S1600000, .f32⟩
  | .hbm, ⟨15, _⟩ => ⟨S1600000, .f32⟩
  | .hbm, ⟨16, _⟩ => ⟨S1600000, .f32⟩
  | .hbm, ⟨17, _⟩ => ⟨S1600000, .f32⟩
  | .hbm, ⟨18, _⟩ => ⟨S100000, .i32⟩
  | .hbm, ⟨19, _⟩ => ⟨S1700000, .i32⟩
  | .hbm, ⟨20, _⟩ => ⟨S1700000, .i32⟩
  | .hbm, ⟨21, _⟩ => ⟨S_, .f32⟩
  | .hbm, ⟨22, _⟩ => ⟨S100000, .f32⟩
  | .hbm, ⟨23, _⟩ => ⟨S1700000, .f32⟩
  | .hbm, ⟨24, _⟩ => ⟨S_, .f32⟩
  | .hbm, ⟨25, _⟩ => ⟨S100000, .f32⟩
  | .hbm, ⟨26, _⟩ => ⟨S1700000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S64x64, .f32⟩
  | .hbm, ⟨57, _⟩ => ⟨S100000x64, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x64, .f32⟩
  | .hbm, ⟨67, _⟩ => ⟨S1700000x1, .f32⟩
  | .hbm, ⟨68, _⟩ => ⟨S1700000x64, .f32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S_, .f32⟩
  | .hbm, ⟨78, _⟩ => ⟨S1x64, .f32⟩
  | .hbm, ⟨79, _⟩ => ⟨S1x64, .f32⟩
  | .hbm, ⟨80, _⟩ => ⟨S_, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1, .f32⟩
  | .local _ .vmem, ⟨20, _⟩ => ⟨S2000x64, .f32⟩
  | .local _ .vmem, ⟨21, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51_0 : Ref sig .tc := ⟨.hbm, 75, rfl⟩
abbrev main_v51_1 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  transposes_S64x64_S64x64_1_0 : S64x64.Transposes [1, 0] S64x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S2000x64_S2000x64 : S2000x64.ShapeCasts S2000x64
  broadcasts_S1x64_S2000x64 : S1x64.Broadcasts S2000x64
  reduces_S2000x64_S64 : S2000x64.Reduces [0] S64
  bcast_S_S1x64 : S_.BroadcastsInDim S1x64 (![] : Fin 0 → Fin S1x64.rank)
  inb_S1_S1_0 : ∀ a, (![0] : Fin 1 → Nat) a + S1.size a ≤ S1.size a
  h_S1 : 0 < S1.numel
  shapeCasts_S1_S1x1 : S1.ShapeCasts S1x1
  broadcasts_S1x1_S2000x64 : S1x1.Broadcasts S2000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x64_S64x64_S2000x64_1_0_0_1_n_n_wf : DotDims.WF S2000x64 S64x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1.size a ≤ S1.size a
  hwx2_6 : ∀ i : grid2.Coords, EltTy.bits .f32 = 32 ∨ (Rect.block (s := S1) S1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x64.size a ≤ S100000x64.size a
  hwx2_7 : ∀ i : grid2.Coords, EltTy.bits .f32 = 32 ∨ (Rect.block (s := S100000x64) S2000x64.size (cc2_transform_7 i) (hinb2_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v49) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg6) S1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S2000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1700000 : Shape := ⟨1, ![1700000]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1600000, .i1⟩
  | .hbm, ⟨12, _⟩ => ⟨S_, .f32⟩
  | .hbm, ⟨13, _⟩ => ⟨S_, .f32⟩
  | .hbm, ⟨14, _⟩ => ⟨S1600000, .f32⟩
  | .hbm, ⟨15, _⟩ => ⟨S1600000, .f32⟩
  | .hbm, ⟨16, _⟩ => ⟨S1600000, .f32⟩
  | .hbm, ⟨17, _⟩ => ⟨S1600000, .f32⟩
  | .hbm, ⟨18, _⟩ => ⟨S100000, .i32⟩
  | .hbm, ⟨19, _⟩ => ⟨S1700000, .i32⟩
  | .hbm, ⟨20, _⟩ => ⟨S1700000, .i32⟩
  | .hbm, ⟨21, _⟩ => ⟨S_, .f32⟩
  | .hbm, ⟨22, _⟩ => ⟨S100000, .f32⟩
  | .hbm, ⟨23, _⟩ => ⟨S1700000, .f32⟩
  | .hbm, ⟨24, _⟩ => ⟨S_, .f32⟩
  | .hbm, ⟨25, _⟩ => ⟨S100000, .f32⟩
  | .hbm, ⟨26, _⟩ => ⟨S1700000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S64x64, .f32⟩
  | .hbm, ⟨57, _⟩ => ⟨S100000x64, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x64, .f32⟩
  | .hbm, ⟨67, _⟩ => ⟨S1700000x1, .f32⟩
  | .hbm, ⟨68, _⟩ => ⟨S1700000x64, .f32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | .hbm, ⟨104, _⟩ => ⟨S1x64, .f32⟩
  | .hbm, ⟨105, _⟩ => ⟨S100000x64, .f32⟩
  | .hbm, ⟨106, _⟩ => ⟨S100000x64, .f32⟩
  | .hbm, ⟨107, _⟩ => ⟨S_, .f32⟩
  | .hbm, ⟨108, _⟩ => ⟨S_, .f32⟩
  | .hbm, ⟨109, _⟩ => ⟨S100000x64, .f32⟩
  | .hbm, ⟨110, _⟩ => ⟨S100000x64, .i1⟩
  | .hbm, ⟨111, _⟩ => ⟨S100000x64, .f32⟩
  | .hbm, ⟨112, _⟩ => ⟨S100000x64, .f32⟩
  | .hbm, ⟨113, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_cst_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_cst_14 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  transposes_S64x64_S64x64_1_0 : S64x64.Transposes [1, 0] S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  shapeCasts_S1_S_ : S1.ShapeCasts S_
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.BF0.lean ====
/-
  The first kernel region: the linear layer, one block of 2000 rows per grid point.

  At grid point `t` the pipeline stages rows `2000·t … 2000·t + 1999` of the input (window 0), the whole 64×64
  weight (window 1, fetched once) and an output block of the same rows (window 2). The body loads both inputs,
  multiplies them (into a zero accumulator) and stores the product over the whole output block; so after the body
  the output's staging buffer holds the product of the two staged blocks, and the inputs' buffers are as fetched.
  Stated here: that run of the body from whole staging memrefs, the pipeline's proof data built on it (the arrays
  as the region finds them; what each buffer holds after the body at each point; nothing carried from point to
  point), and the body's obligation to the pipeline at every point.
-/
import proofs.«177960_j69157563400217_1_alg».proof.Proof.Gen.Kernel.Launch
import proofs.«177960_j69157563400217_1_alg».proof.Proof.Gen.Kernel.Skeleton
import proofs.«177960_j69157563400217_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref whole -/

abbrev rX : Rect S2000x64 := Rect.unit (s := S2000x64) ![0, 0] S2000x64.size inb_S2000x64_S2000x64_0_0
abbrev rW : Rect S64x64 := Rect.unit (s := S64x64) ![0, 0] S64x64.size inb_S64x64_S64x64_0_0

/-- The output block after the body: its one store, of the product of the two loaded blocks. -/
def out0_2 (x0 : Vec F S2000x64 .f32) (x1 : Vec F S64x64 .f32) : Vec F S2000x64 .f32 :=
  View.canon [⟨rX, k0_pay1 (View.ld x0 rX) (View.ld x1 rW)⟩]

/-- The one store covers the block. -/
theorem cover0_2 (p0 : Vec F S2000x64 .f32) (y : S2000x64.Idx) :
    ∃ pc ∈ ([⟨rX, p0⟩] : List (View.Piece (Elt F) S2000x64 .f32)), y ∈ pc.1.set :=
  View.cover_of_tiled [⟨rX, p0⟩] S2000x64.size (by rfl) y

/-! ## The body's run -/

set_option maxHeartbeats 4000000 in
/-- From the two input memrefs whole at `x0`, `x1` and the output memref whole at anything, the body runs to its return
    with the inputs as they were and the output at `out0_2 x0 x1`. -/
theorem sound_kernel0 (c : Dev nD) (E : Set ℕ) (i : grid0.Coords) (arg1 : Memref sig .tc .vmem S2000x64 .f32) (harg1 : arg1.IsWhole)
    (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at point `t`
    each input's buffer at its block and the output's at the product of the two input blocks; the invariant the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BF1a.lean ====
/-
  The second kernel region — column sums and column sums of squares of (aggregated features + bias), accumulated over
  the fifty row blocks — part one: the body's two runs.

  At grid point `t` the pipeline stages rows `2000·t … 2000·t + 1999` of the aggregated features (window 0) and the
  bias as a 1×64 row (window 1, fetched once); windows 2 and 3 are the two 1×64 results, whose blocks do not move with
  `t` and are written back after the last point only. The kernel keeps two 1×64 accumulators of its own between
  points. At the first point the body first stores zeros into both accumulators; at every point it adds the block's
  column sums (of `v` and of `v·v`, `v` the block plus the bias row) to the accumulators and copies them into the two
  result buffers. So there are two control cases, "first point" and "later point"; in each the body is run once from
  whole memrefs, and what its stores leave in the two results and the two accumulators is kept as the list of pieces
  that run finds.
-/
import proofs.«177960_j69157563400217_1_alg».proof.Proof.Gen.Kernel.Launch
import proofs.«177960_j69157563400217_1_alg».proof.Proof.Gen.Kernel.Skeleton
import proofs.«177960_j69157563400217_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch: taken at the first point only -/

/-- The condition of the body's one conditional, from the grid coordinate. -/
abbrev cond1 (i : grid1.Coords) : Prop := (Scalar.cmpi .ne (Scalar.extui (Scalar.cmpi .eq (BitVec.ofNat 32 (i 0).val) 0#32)) 0#32) = 1#1
/-- It holds at point 0 and nowhere else — decided over the fifty points. -/
theorem hcond1 : ∀ t : Fin cfg1.N, cond1 (grid1.coords t) ↔ t.val = 0 :=
  (by decide +kernel : ∀ t : Fin grid1.N, cond1 (grid1.coords t) ↔ t.val = 0)

/-- No window is idle at any point: the body reads both inputs and stores into both results everywhere. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The memrefs the body is called with -/

abbrev ms1_0 (t : Fin cfg1.N) : Memref sig .tc .vmem S2000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
/-- The two accumulators: whole scoped buffers of the kernel's own. -/
abbrev scM1_0 : Memref sig .tc .vmem S1x64 .f32 := Memref.whole cc1_scratch0
abbrev scM1_1 : Memref sig .tc .vmem S1x64 .f32 := Memref.whole cc1_scratch1
abbrev VS1_0 : View sig .tc .vmem S1x64 .f32 := scM1_0.view
abbrev VS1_1 : View sig .tc .vmem S1x64 .f32 := scM1_1.view
/-- One staging buffer of each result window, through which its contents are stated. -/
abbrev VO1_2 : View sig .tc .vmem S1x64 .f32 := (Memref.whole cc1_stg2_0 : Memref sig .tc .vmem S1x64 .f32).view
abbrev VO1_3 : View sig .tc .vmem S1x64 .f32 := (Memref.whole cc1_stg3_0 : Memref sig .tc .vmem S1x64 .f32).view

/-- Everything scoped that is neither a staging buffer of this region nor one of its two accumulators, at some contents. -/
abbrev others1 (c : Dev nD) : sProp 𝕄 :=
  Pipeline.scopedRestBut (Ix := Unit) (Name := ℕ) (U := UR sig nD τ) (Lvl := ℕ) (Val := Elt F) spec1 c [cc1_scratch0, cc1_scratch1]

/-- The untouched-rest invariant with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ others1 c) ∗ (∃ r, prngReg c r)) := by
  unfold Pipeline.ΦA
  rw [Pipeline.scopedRest_split_of_list spec1 c [cc1_scratch0, cc1_scratch1] (by decide) (by decide)]
  simp only [scM1_0, scM1_1, owns_whole]; try rfl

/-! ## The body's two runs -/

set_option maxHeartbeats 8000000 in
/-- The first point: the two inputs at their blocks, the two results and the two accumulators at anything. -/
noncomputable def kernelRun1_A (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__reduce_kernel i arg1 harg1 arg2 harg2 arg3 harg3 arg4 harg4 arg5 harg5 arg6 harg6) K } := by
  refine ⟨?_, ?_, ?_, ?_, fun E K => ?run⟩
  case run =>
    simp only [cc1__reduce_kernel_eq_skeleton]; unfold cc1__reduce_kernel_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg1.eq_unread hf0; obtain rfl := harg2.eq_unread hf1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

set_option maxHeartbeats 8000000 in
/-- A later point: the two inputs at their blocks, the two results at anything, the two accumulators at what the point
    before left in them. -/
noncomputable def kernelRun1_B (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__reduce_kernel i arg1 harg1 arg2 harg2 arg3 harg3 arg4 harg4 arg5 harg5 arg6 harg6) K } := by
  refine ⟨?_, ?_, ?_, ?_, fun E K => ?run⟩
  case run =>
    simp only [cc1__reduce_kernel_eq_skeleton]; unfold cc1__reduce_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.BF1.lean ====
/-
  The second kernel region, part two: what the two results and the two accumulators hold after each grid point, the
  invariant that carries the accumulators from point to point, the pipeline's proof data and the body's obligation.

  After point `0` each buffer holds what the first-point run's pieces leave; after point `n + 1` what the later-point
  run's pieces leave when the accumulators entered at their contents after point `n`. Between two points the
  invariant owns the two accumulators at exactly those contents (before the first point: at anything), beside every
  other scoped buffer and the generator register, which the body never touches.
-/
import proofs.«177960_j69157563400217_1_alg».proof.Proof.Gen.Kernel.Launch
import proofs.«177960_j69157563400217_1_alg».proof.Proof.Gen.Kernel.Skeleton
import proofs.«177960_j69157563400217_1_alg».proof.Proof.Gen.Kernel.Points
import proofs.«177960_j69157563400217_1_alg».proof.Proof.BF1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces cover their buffers -/

theorem cover1_A_2 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) (y : S1x64.Idx) :
    ∃ pc ∈ (kernelRun1_A c i arg1 harg1 arg2 harg2 arg3 harg3 arg4 harg4 arg5 harg5 arg6 harg6 hc x0 x1).1, y ∈ pc.1.set :=
  View.cover_of_tiledL (kernelRun1_A c i arg1 harg1 arg2 harg2 arg3 harg3 arg4 harg4 arg5 harg5 arg6 harg6 hc x0 x1).1 S1x64.size (by sl_kernel_rfl) y
theorem cover1_A_3 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) (y : S1x64.Idx) :
    ∃ pc ∈ (kernelRun1_A c i arg1 harg1 arg2 harg2 arg3 harg3 arg4 harg4 arg5 harg5 arg6 harg6 hc x0 x1).2.1, y ∈ pc.1.set :=
  View.cover_of_tiledL (kernelRun1_A c i arg1 harg1 arg2 harg2 arg3 harg3 arg4 harg4 arg5 harg5 arg6 harg6 hc x0 x1).2.1 S1x64.size (by sl_kernel_rfl) y
theorem scover1_A_0 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) (y : S1x64.Idx) :
    ∃ pc ∈ (kernelRun1_A c i arg1 harg1 arg2 harg2 arg3 harg3 arg4 harg4 arg5 harg5 arg6 harg6 hc x0 x1).2.2.1, y ∈ pc.1.set :=
  View.cover_of_tiledL (kernelRun1_A c i arg1 harg1 arg2 harg2 arg3 harg3 arg4 harg4 arg5 harg5 arg6 harg6 hc x0 x1).2.2.1 S1x64.size (by sl_kernel_rfl) y
theorem scover1_A_1 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) (y : S1x64.Idx) :
    ∃ pc ∈ (kernelRun1_A c i arg1 harg1 arg2 harg2 arg3 harg3 arg4 harg4 arg5 harg5 arg6 harg6 hc x0 x1).2.2.2.1, y ∈ pc.1.set :=
  View.cover_of_tiledL (kernelRun1_A c i arg1 harg1 arg2 harg2 arg3 harg3 arg4 harg4 arg5 harg5 arg6 harg6 hc x0 x1).2.2.2.1 S1x64.size (by sl_kernel_rfl) y
theorem cover1_B_2 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) (y : S1x64.Idx) :
    ∃ pc ∈ (kernelRun1_B c i arg1 harg1 arg2 harg2 arg3 harg3 arg4 harg4 arg5 harg5 arg6 harg6 hc x0 x1 xs0 xs1).1, y ∈ pc.1.set :=
  View.cover_of_tiledL (kernelRun1_B c i arg1 harg1 arg2 harg2 arg3 harg3 arg4 harg4 arg5 harg5 arg6 harg6 hc x0 x1 xs0 xs1).1 S1x64.size (by sl_kernel_rfl) y
theorem cover1_B_3 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) (y : S1x64.Idx) :
    ∃ pc ∈ (kernelRun1_B c i arg1 harg1 arg2 harg2 arg3 harg3 arg4 harg4 arg5 harg5 arg6 harg6 hc x0 x1 xs0 xs1).2.1, y ∈ pc.1.set :=
  View.cover_of_tiledL (kernelRun1_B c i arg1 harg1 arg2 harg2 arg3 harg3 arg4 harg4 arg5 harg5 arg6 harg6 hc x0 x1 xs0 xs1).2.1 S1x64.size (by sl_kernel_rfl) y
theorem scover1_B_0 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) (y : S1x64.Idx) :
    ∃ pc ∈ (kernelRun1_B c i arg1 harg1 arg2 harg2 arg3 harg3 arg4 harg4 arg5 harg5 arg6 harg6 hc x0 x1 xs0 xs1).2.2.1, y ∈ pc.1.set :=
  View.cover_of_tiledL (kernelRun1_B c i arg1 harg1 arg2 harg2 arg3 harg3 arg4 harg4 arg5 harg5 arg6 harg6 hc x0 x1 xs0 xs1).2.2.1 S1x64.size (by sl_kernel_rfl) y
theorem scover1_B_1 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) (y : S1x64.Idx) :
    ∃ pc ∈ (kernelRun1_B c i arg1 harg1 arg2 harg2 arg3 harg3 arg4 harg4 arg5 harg5 arg6 harg6 hc x0 x1 xs0 xs1).2.2.2.1, y ∈ pc.1.set :=
  View.cover_of_tiledL (kernelRun1_B c i arg1 harg1 arg2 harg2 arg3 harg3 arg4 harg4 arg5 harg5 arg6 harg6 hc x0 x1 xs0 xs1).2.2.2.1 S1x64.size (by sl_kernel_rfl) y

/-! ## The two runs at a grid point, and what they leave -/

/-- The first-point run at point `t`'s memrefs and input blocks. -/
abbrev RA (c : Dev nD) (t : Fin cfg1.N) (hc : cond1 (grid1.coords t)) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) hc (iblk1 V c 0 t) (iblk1 V c 1 t)
/-- The later-point run at point `t`'s memrefs and input blocks, the accumulators entered at `xs0`, `xs1`. -/
abbrev RB (c : Dev nD) (t : Fin cfg1.N) (hc : ¬cond1 (grid1.coords t)) (xs0 xs1 : Vec F S1x64 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) hc (iblk1 V c 0 t) (iblk1 V c 1 t) xs0 xs1

/-- What a run's pieces leave in the two results and the two accumulators (in that order): the pieces read back. -/
def res1_A (c : Dev nD) (t : Fin cfg1.N) (hc : cond1 (grid1.coords t)) : Vec F S1x64 .f32 × Vec F S1x64 .f32 × Vec F S1x64 .f32 × Vec F S1x64 .f32 :=
  (VO1_2.read (Elt F) (VO1_2.writes (Elt F) VO1_2.junk (RA V c t hc).1),
   VO1_3.read (Elt F) (VO1_3.writes (Elt F) VO1_3.junk (RA V c t hc).2.1),
   VS1_0.read (Elt F) (VS1_0.writes (Elt F) VS1_0.junk (RA V c t hc).2.2.1),
   VS1_1.read (Elt F) (VS1_1.writes (Elt F) VS1_1.junk (RA V c t hc).2.2.2.1))
def res1_B (c : Dev nD) (t : Fin cfg1.N) (hc : ¬cond1 (grid1.coords t)) (xs0 xs1 : Vec F S1x64 .f32) : Vec F S1x64 .f32 × Vec F S1x64 .f32 × Vec F S1x64 .f32 × Vec F S1x64 .f32 :=
  (VO1_2.read (Elt F) (VO1_2.writes (Elt F) VO1_2.junk (RB V c t hc xs0 xs1).1),
   VO1_3.read (Elt F) (VO1_3.writes (Elt F) VO1_3.junk (RB V c t hc xs0 xs1).2.1),
   VS1_0.read (Elt F) (VS1_0.writes (Elt F) VS1_0.junk (RB V c t hc xs0 xs1).2.2.1),
   VS1_1.read (Elt F) (VS1_1.writes (Elt F) VS1_1.junk (RB V c t hc xs0 xs1).2.2.2.1))

/-- THE ACCUMULATION: the two results and the two accumulators after the body at position `n`. -/
def outsAt1 (c : Dev nD) : (n : ℕ) → n < cfg1.N → Vec F S1x64 .f32 × Vec F S1x64 .f32 × Vec F S1x64 .f32 × Vec F S1x64 .f32
  | 0, hn => res1_A V c ⟨0, hn⟩ ((hcond1 ⟨0, hn⟩).mpr rfl)
  | n + 1, hn => res1_B V c ⟨n + 1, hn⟩ (fun h => Nat.succ_ne_zero n ((hcond1 ⟨n + 1, hn⟩).mp h))
      (outsAt1 c n (Nat.lt_of_succ_lt hn)).2.2.1 (outsAt1 c n (Nat.lt_of_succ_lt hn)).2.2.2

theorem outsAt1_A (c : Dev nD) (t : Fin cfg1.N) (h0 : t.val = 0) :
    outsAt1 V c t.val t.isLt = res1_A V c t ((hcond1 t).mpr h0) := by
  obtain ⟨n, hn⟩ := t
  cases n with
  | zero => rfl
  | succ n => exact absurd h0 (Nat.succ_ne_zero n)

theorem outsAt1_B (c : Dev nD) (t : Fin cfg1.N) (h0 : ¬t.val = 0) :
    outsAt1 V c t.val t.isLt = res1_B V c t (fun h => h0 ((hcond1 t).mp h))
      (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨n, hn⟩ := t
  cases n with
  | zero => exact absurd rfl h0
  | succ n => rfl

/-! ## The invariant between points -/

/-- Before position `n`: before the first point everything scoped at anything; afterwards the two accumulators at what
    the point before left, every other scoped buffer at anything; always the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ others1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ others1 c) ∗ (∃ r, prngReg c r)) := by
  cases n with
  | zero => exact absurd rfl hz
  | succ n => rfl

/-! ## The pipeline's proof data -/

/-- The proof data of the second pipeline on core `c`: the arrays as the region finds them; after the body at point `t`
    each input's buffer at its block and the two results' at the accumulation's first two components; the invariant
    carrying the accumulators; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the point is the first or a later one; the invariant hands
    the body the accumulators (at anything at the first point, at what the point before left afterwards) and takes them
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases hz : t.val = 0
  ·
    rw [outsAt1_A V c t hz]
    unfold res1_A; (try dsimp only)
    rw [PhiS1_castSucc V c t, PhiS1_zero V c _ _ hz, PhiA1_eq]
    iintro ⟨⟨⟨⟨HS0, HS1⟩, Hoth⟩, Hg⟩, Ho, ⟨%d0, H0⟩, ⟨%d1, H1⟩, ⟨%d2, H2⟩, ⟨%d3, H3⟩⟩
    iapply ((RA V c t ((hcond1 t).mpr hz)).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hoth Hg]
    · isplitl [HS0 HS1 Hoth]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _)
        · iexact Hoth
      · iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _ _ _ _)
    · unfold owns; iexists _; isplitr
      swap; · iexact H3
      ipureintro; exact View.read_writes_of_cover _ _ _ _ _ (cover1_A_3 c _ _ _ _ _ _ _ _ _ _ _ _ _ _ _ _)
  ·
    rw [outsAt1_B V c t hz]
    unfold res1_B; (try dsimp only)
    rw [PhiS1_castSucc V c t, PhiS1_pos V c _ _ hz]
    iintro ⟨⟨⟨⟨HS0, HS1⟩, Hoth⟩, Hg⟩, Ho, ⟨%d0, H0⟩, ⟨%d1, H1⟩, ⟨%d2, H2⟩, ⟨%d3, H3⟩⟩
    iapply ((RB V c t (fun h => hz ((hcond1 t).mp h)) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hoth Hg]
    · isplitl [HS0 HS1 Hoth]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _ _ _)
          · unfold owns; iexists _; isplitr
            swap; · iexact HS1
            ipureintro; exact View.read_writes_of_cover _ _ _ _ _ (scover1_B_1 c _ _ _ _ _ _ _ _ _ _ _ _ _ _ _ _ _ _)
        · iexact Hoth
      · iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _ _ _ _)
    · unfold owns; iexists _; isplitr
      swap; · iexact H3
      ipureintro; exact View.read_writes_of_cover _ _ _ _ _ (cover1_B_3 c _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the untouched-rest invariant back: the accumulators' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨⟨HS0, HS1⟩, Hoth⟩, Hg⟩
  isplitl [HS0 HS1 Hoth]
  · isplitl [HS0 HS1]
    · isplitl [HS0]
      · iexists _; iexact HS0
      · iexists _; iexact HS1
    · iexact Hoth
  iexact Hg

end Cert.Kernel.Hand

end
-- ==== Proof.BF2.lean ====
/-
  The third kernel region: bias, normalisation, scale and shift, and the leaky rectifier, one block of 2000 rows per
  grid point.

  At grid point `t` the pipeline stages rows `2000·t … 2000·t + 1999` of the aggregated features (window 0), the
  bias, the mean, the variance, the scale and the shift as 1×64 rows (windows 1–5, each fetched once), the rectifier's
  slope (window 6) and an output block of the same rows (window 7). The body loads the seven inputs and stores one
  pointwise expression of them over the whole output block. Stated here: that run of the body, the pipeline's proof
  data built on it, and the body's obligation to the pipeline at every point; nothing is carried between points.
-/
import proofs.«177960_j69157563400217_1_alg».proof.Proof.Gen.Kernel.Launch
import proofs.«177960_j69157563400217_1_alg».proof.Proof.Gen.Kernel.Skeleton
import proofs.«177960_j69157563400217_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref whole -/

abbrev rB : Rect S2000x64 := Rect.unit (s := S2000x64) ![0, 0] S2000x64.size inb_S2000x64_S2000x64_0_0
abbrev rR : Rect S1x64 := Rect.unit (s := S1x64) ![0, 0] S1x64.size inb_S1x64_S1x64_0_0
abbrev rS : Rect S1 := Rect.unit (s := S1) ![0] S1.size inb_S1_S1_0

/-- The output block after the body: its one store, of the pointwise expression of the seven loaded blocks (the
    aggregated block, the bias, the variance, the mean, the scale, the shift, the slope, in the body's order of use). -/
def out2_7 (x0 : Vec F S2000x64 .f32) (x1 x2 x3 x4 x5 : Vec F S1x64 .f32) (x6 : Vec F S1 .f32) : Vec F S2000x64 .f32 :=
  View.canon [⟨rB, k2_pay1 (View.ld x0 rB) (View.ld x1 rR) (View.ld x3 rR) (View.ld x2 rR) (View.ld x4 rR) (View.ld x5 rR) (View.ld x6 rS)⟩]

theorem cover2_7 (p0 : Vec F S2000x64 .f32) (y : S2000x64.Idx) :
    ∃ pc ∈ ([⟨rB, p0⟩] : List (View.Piece (Elt F) S2000x64 .f32)), y ∈ pc.1.set :=
  View.cover_of_tiled [⟨rB, p0⟩] S2000x64.size (by rfl) y

/-! ## The body's run -/

set_option maxHeartbeats 4000000 in
/-- From the seven input memrefs whole at `x0 … x6` and the output memref whole at anything, the body runs to its return
    with the inputs as they were and the output at `out2_7 x0 … x6`. -/
theorem sound_kernel2 (c : Dev nD) (E : Set ℕ) (i : grid2.Coords) (arg1 : Memref sig .tc .vmem S2000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S1x64 .f32) (harg6 : arg6.IsWhole) (arg7 : Memref sig .tc .vmem S1 .f32) (harg7 : arg7.IsWhole)
    (arg8 : Memref sig .tc .vmem S2000x64 .f32) (harg8 : arg8.IsWhole)
    (x0 : Vec F S2000x64 .f32) (x1 x2 x3 x4 x5 : Vec F S1x64 .f32) (x6 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__affine_kernel i arg1 harg1 arg2 harg2 arg3 harg3 arg4 harg4 arg5 harg5 arg6 harg6 arg7 harg7 arg8 harg8) K := by
  simp only [cc2__affine_kernel_eq_skeleton]; unfold cc2__affine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of the third pipeline on core `c`: the arrays as the region finds them; after the body at point `t`
    each input's buffer at its block and the output's at the pointwise expression of the input blocks; the invariant the
    untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BRun.lean ====
/-
  The whole run of the program: its ten segments — five stretches of host operations, the linear layer's region, a
  stretch, the reduction's region, a stretch, the normalisation's region — chained from the launch to the return.

  Between two segments every unscoped buffer of a core holds a named function of the launch memory: after a host
  stretch, the stretch's operations applied to what was there before; after a region, the region's arrays at what its
  write-backs leave (an input array as entered, an output array block by block) and every other buffer as entered.
  Each region is entered by splitting its arrays out of those buffers and left by putting them back; the generator
  register and the core's empty debt ride along. At the end every unscoped buffer is read off the last boundary: the
  seven arguments walk back through the chain to the launch memory, and the result is the last region's output array.
-/
import proofs.«177960_j69157563400217_1_alg».proof.Proof.Gen.Kernel.Launch
import proofs.«177960_j69157563400217_1_alg».proof.Proof.Gen.Kernel.Skeleton
import proofs.«177960_j69157563400217_1_alg».proof.Proof.Gen.Kernel.Points
import proofs.«177960_j69157563400217_1_alg».proof.Proof.BF0
import proofs.«177960_j69157563400217_1_alg».proof.Proof.BF1
import proofs.«177960_j69157563400217_1_alg».proof.Proof.BF2
import proofs.«177960_j69157563400217_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Region 0's entry contents (after the five host stretches), read at the TensorCore's references. -/
abbrev E0in : (c : Dev nD) → (b : Ref sig .tc) → Buf (Elt F) ((c : Thread nD τ).loc b) := fun c b => V5 m c b
/-- At region 0's exit: its arrays at what the pipeline leaves, every other buffer as entered. -/
def X6 (c : Dev nD) : Valuation τ sig (Elt F) :=
  Pipeline.withArrays spec0 c (V5 m c) fun w => (dat0 (E0in m) c).arrAt w cfg0.N
theorem X6_arr (c : Dev nD) (w : Fin cfg0.W) :
    X6 m c (Proc.devRef .tc (Pipeline.arrRef spec0 w)) = (dat0 (E0in m) c).arrAt w cfg0.N := by
  unfold X6; exact Pipeline.withArrays_arr spec0 launch0.win.arr_inj c _ _ w
theorem X6_of_ne (c : Dev nD) (b : Ref sig .tc) (hb : ∀ w, Pipeline.arrRef spec0 w ≠ b) :
    X6 m c (Proc.devRef .tc b) = V5 m c (Proc.devRef .tc b) := by
  unfold X6; exact Pipeline.withArrays_of_ne spec0 c _ _ b hb
abbrev E0out : (c : Dev nD) → (b : Ref sig .tc) → Buf (Elt F) ((c : Thread nD τ).loc b) := fun c b => X6 m c b
theorem hF0 (c : Dev nD) (w : Fin cfg0.W) : (dat0 (E0in m) c).arrAt w cfg0.N = E0out m c (Pipeline.arrRef spec0 w) :=
  (X6_arr m c w).symm
theorem hrest0 (c : Dev nD) : ∀ b, b ∉ Finset.univ.image (Pipeline.arrRef spec0) → E0out m c b = E0in m c b :=
  fun b hb => X6_of_ne m c b fun w e => hb (Finset.mem_image.mpr ⟨w, Finset.mem_univ _, e⟩)

/-- After the stretch between regions 0 and 1 (region 1's entry). -/
abbrev X7 : Dev nD → Valuation τ sig (Elt F) := fun c => StableHlo.after hostOps1 (X6 m c)
abbrev E1in : (c : Dev nD) → (b : Ref sig .tc) → Buf (Elt F) ((c : Thread nD τ).loc b) := fun c b => X7 m c b
def X8 (c : Dev nD) : Valuation τ sig (Elt F) :=
  Pipeline.withArrays spec1 c (X7 m c) fun w => (dat1 (E1in m) c).arrAt w cfg1.N
theorem X8_arr (c : Dev nD) (w : Fin cfg1.W) :
    X8 m c (Proc.devRef .tc (Pipeline.arrRef spec1 w)) = (dat1 (E1in m) c).arrAt w cfg1.N := by
  unfold X8; exact Pipeline.withArrays_arr spec1 launch1.win.arr_inj c _ _ w
theorem X8_of_ne (c : Dev nD) (b : Ref sig .tc) (hb : ∀ w, Pipeline.arrRef spec1 w ≠ b) :
    X8 m c (Proc.devRef .tc b) = X7 m c (Proc.devRef .tc b) := by
  unfold X8; exact Pipeline.withArrays_of_ne spec1 c _ _ b hb
abbrev E1out : (c : Dev nD) → (b : Ref sig .tc) → Buf (Elt F) ((c : Thread nD τ).loc b) := fun c b => X8 m c b
theorem hF1 (c : Dev nD) (w : Fin cfg1.W) : (dat1 (E1in m) c).arrAt w cfg1.N = E1out m c (Pipeline.arrRef spec1 w) :=
  (X8_arr m c w).symm
theorem hrest1 (c : Dev nD) : ∀ b, b ∉ Finset.univ.image (Pipeline.arrRef spec1) → E1out m c b = E1in m c b :=
  fun b hb => X8_of_ne m c b fun w e => hb (Finset.mem_image.mpr ⟨w, Finset.mem_univ _, e⟩)

/-- After the stretch between regions 1 and 2 (region 2's entry). -/
abbrev X9 : Dev nD → Valuation τ sig (Elt F) := fun c => StableHlo.after hostOps2 (X8 m c)
abbrev E2in : (c : Dev nD) → (b : Ref sig .tc) → Buf (Elt F) ((c : Thread nD τ).loc b) := fun c b => X9 m c b
def X10 (c : Dev nD) : Valuation τ sig (Elt F) :=
  Pipeline.withArrays spec2 c (X9 m c) fun w => (dat2 (E2in m) c).arrAt w cfg2.N
theorem X10_arr (c : Dev nD) (w : Fin cfg2.W) :
    X10 m c (Proc.devRef .tc (Pipeline.arrRef spec2 w)) = (dat2 (E2in m) c).arrAt w cfg2.N := by
  unfold X10; exact Pipeline.withArrays_arr spec2 launch2.win.arr_inj c _ _ w
theorem X10_of_ne (c : Dev nD) (b : Ref sig .tc) (hb : ∀ w, Pipeline.arrRef spec2 w ≠ b) :
    X10 m c (Proc.devRef .tc b) = X9 m c (Proc.devRef .tc b) := by
  unfold X10; exact Pipeline.withArrays_of_ne spec2 c _ _ b hb
abbrev E2out : (c : Dev nD) → (b : Ref sig .tc) → Buf (Elt F) ((c : Thread nD τ).loc b) := fun c b => X10 m c b
theorem hF2 (c : Dev nD) (w : Fin cfg2.W) : (dat2 (E2in m) c).arrAt w cfg2.N = E2out m c (Pipeline.arrRef spec2 w) :=
  (X10_arr m c w).symm
theorem hrest2 (c : Dev nD) : ∀ b, b ∉ Finset.univ.image (Pipeline.arrRef spec2) → E2out m c b = E2in m c b :=
  fun b hb => X10_of_ne m c b fun w e => hb (Finset.mem_image.mpr ⟨w, Finset.mem_univ _, e⟩)

/-! ## The arguments end as launched -/

/-- The input array of the linear layer is region 0's first window: read back as entered. -/
theorem X10_main_arg0 (c : Dev nD) : X10 m c (Proc.devRef .tc main_arg0) = m ((c : Thread nD τ).loc main_arg0) :=
  (X10_of_ne m c main_arg0 (by decide)).trans <| (StableHlo.after_of_writes_sub hostOps2 _ hostOps2_writes (r := main_arg0) (by decide)).trans <|
  (X8_of_ne m c main_arg0 (by decide)).trans <| (StableHlo.after_of_writes_sub hostOps1 _ hostOps1_writes (r := main_arg0) (by decide)).trans <|
  ((X6_arr m c 0).trans (((dat0 (E0in m) c).arrAt_in 0 rfl _).trans (A_eq0 (E0in m) c 0))).trans <|
  (V5_of m c main_arg0 (by decide)).trans <| (V4_of m c main_arg0 (by decide)).trans <| (V3_of m c main_arg0 (by decide)).trans <| (V2_of m c main_arg0 (by decide)).trans <| (V1_of m c main_arg0 (by decide)).trans rfl
theorem X10_main_arg1 (c : Dev nD) : X10 m c (Proc.devRef .tc main_arg1) = m ((c : Thread nD τ).loc main_arg1) :=
  (X10_of_ne m c main_arg1 (by decide)).trans <| (StableHlo.after_of_writes_sub hostOps2 _ hostOps2_writes (r := main_arg1) (by decide)).trans <|
  (X8_of_ne m c main_arg1 (by decide)).trans <| (StableHlo.after_of_writes_sub hostOps1 _ hostOps1_writes (r := main_arg1) (by decide)).trans <|
  (X6_of_ne m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem X10_main_arg2 (c : Dev nD) : X10 m c (Proc.devRef .tc main_arg2) = m ((c : Thread nD τ).loc main_arg2) :=
  (X10_of_ne m c main_arg2 (by decide)).trans <| (StableHlo.after_of_writes_sub hostOps2 _ hostOps2_writes (r := main_arg2) (by decide)).trans <|
  (X8_of_ne m c main_arg2 (by decide)).trans <| (StableHlo.after_of_writes_sub hostOps1 _ hostOps1_writes (r := main_arg2) (by decide)).trans <|
  (X6_of_ne m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem X10_main_arg3 (c : Dev nD) : X10 m c (Proc.devRef .tc main_arg3) = m ((c : Thread nD τ).loc main_arg3) :=
  (X10_of_ne m c main_arg3 (by decide)).trans <| (StableHlo.after_of_writes_sub hostOps2 _ hostOps2_writes (r := main_arg3) (by decide)).trans <|
  (X8_of_ne m c main_arg3 (by decide)).trans <| (StableHlo.after_of_writes_sub hostOps1 _ hostOps1_writes (r := main_arg3) (by decide)).trans <|
  (X6_of_ne m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem X10_main_arg4 (c : Dev nD) : X10 m c (Proc.devRef .tc main_arg4) = m ((c : Thread nD τ).loc main_arg4) :=
  (X10_of_ne m c main_arg4 (by decide)).trans <| (StableHlo.after_of_writes_sub hostOps2 _ hostOps2_writes (r := main_arg4) (by decide)).trans <|
  (X8_of_ne m c main_arg4 (by decide)).trans <| (StableHlo.after_of_writes_sub hostOps1 _ hostOps1_writes (r := main_arg4) (by decide)).trans <|
  (X6_of_ne m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
theorem X10_main_arg5 (c : Dev nD) : X10 m c (Proc.devRef .tc main_arg5) = m ((c : Thread nD τ).loc main_arg5) :=
  (X10_of_ne m c main_arg5 (by decide)).trans <| (StableHlo.after_of_writes_sub hostOps2 _ hostOps2_writes (r := main_arg5) (by decide)).trans <|
  (X8_of_ne m c main_arg5 (by decide)).trans <| (StableHlo.after_of_writes_sub hostOps1 _ hostOps1_writes (r := main_arg5) (by decide)).trans <|
  (X6_of_ne m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
/-- The rectifier's slope is region 2's seventh window: read back as entered. -/
theorem X10_main_arg6 (c : Dev nD) : X10 m c (Proc.devRef .tc main_arg6) = m ((c : Thread nD τ).loc main_arg6) :=
  ((X10_arr m c 6).trans (((dat2 (E2in m) c).arrAt_in 6 rfl _).trans (A_eq2 (E2in m) c 6))).trans <|
  (StableHlo.after_of_writes_sub hostOps2 _ hostOps2_writes (r := main_arg6) (by decide)).trans <|
  (X8_of_ne m c main_arg6 (by decide)).trans <| (StableHlo.after_of_writes_sub hostOps1 _ hostOps1_writes (r := main_arg6) (by decide)).trans <|
  (X6_of_ne m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl

/-- The result array is region 2's output window's array: what its write-backs leave. -/
theorem X10_main_v60 (c : Dev nD) : X10 m c (Proc.devRef .tc main_v60) = (dat2 (E2in m) c).arrAt 7 cfg2.N := X10_arr m c 7

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0in m) c
  | ⟨1, _⟩ => fun c => dat1 (E1in m) c
  | ⟨2, _⟩ => fun c => dat2 (E2in m) c
abbrev 𝒱₀ : Variants := Variants.none
abbrev L : GSem nD τ sig → Finset Unit := fun _ => ∅
abbrev lv : GSem nD τ sig → Unit → ℕ := fun _ _ => 0
/-- What rides beside the buffers through every segment: the generator register at some state and the core's empty debt. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (X10 m c) ∗ ∃ r, prngReg c r)

/-! ## The regions as segments -/

set_option backward.isDefEq.respectTransparency.types false in
/-- Region 0 over the thread state: entered from every unscoped buffer at the boundary contents before it, left at the
    ones after it; its arrays split out of the unscoped buffers and put back at what the pipeline leaves. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0in m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec0 c (E0in m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0in m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0in m c) (E0out m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary contents before it, left at the
    ones after it; its arrays split out of the unscoped buffers and put back at what the pipeline leaves. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1in m) c).loose
  hwaits := Pipeline.hwaits_of_owed_zero _ _ _ _ L lv 1 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec1 c (E1in m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1in m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (E1in m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from hout1 (E1in m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1in m c) (E1out m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary contents before it, left at the
    ones after it; its arrays split out of the unscoped buffers and put back at what the pipeline leaves. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2in m) c).loose
  hwaits := Pipeline.hwaits_of_owed_zero _ _ _ _ L lv 2 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec2 c (E2in m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2in m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2in m c) (E2out m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .host (hseg hostOps1 hostOps1_sub hostOps1_fresh (X6 m)),
    .region (reg1 m),
    .host (hseg hostOps2 hostOps2_sub hostOps2_fresh (X8 m)),
    .region (reg2 m) ]

variable (ρ : Dev nD → PrngReg)

set_option backward.isDefEq.respectTransparency.types false in
/-- THE RUN. From any memory with zero counters every weakly fair execution of the program terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (X10 m c) ∗ R c) : sProp 𝕄) ⊢ iprop(Tₙ m c ∗ ∃ W, owes (c.tc : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X10 m c b)
    (hfin := fun c s' => by
      iintro ⟨⟨Hh, -⟩, HSI⟩
      unfold StableHlo.held
      imodintro
      iapply (pointsTo_read_all (Pipeline.ucRefs τ sig) (fun b => (((c : Thread nD τ)).1, b)) (X10 m c) s')
      isplitl [Hh] <;> iassumption)
    (hQ := fun s h c => h c)

/-- The run read at the result and the seven arguments: the result array ends at what the last region's write-backs
    leave, every argument as launched. -/
theorem run_values : θ_run defs (onTc (τ := τ) (main (F := F))) ⟨m, fun _ => 0, ρ⟩ (fun r => ∀ c : Dev nD,
      r.2.mem ((c.tc : Thread nD τ).loc main_v60) = (dat2 (E2in m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v60 (by decide))).trans (X10_main_v60 m c),
     (h c _ (mem_uc main_arg0 (by decide))).trans (X10_main_arg0 m c),
     (h c _ (mem_uc main_arg1 (by decide))).trans (X10_main_arg1 m c),
     (h c _ (mem_uc main_arg2 (by decide))).trans (X10_main_arg2 m c),
     (h c _ (mem_uc main_arg3 (by decide))).trans (X10_main_arg3 m c),
     (h c _ (mem_uc main_arg4 (by decide))).trans (X10_main_arg4 m c),
     (h c _ (mem_uc main_arg5 (by decide))).trans (X10_main_arg5 m c),
     (h c _ (mem_uc main_arg6 (by decide))).trans (X10_main_arg6 m c)⟩) (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_values m ρ)

end Cert.Kernel.Hand

end
-- ==== Proof.KF0.lean ====
/-
  The first kernel region: the linear layer, one block of 2000 rows per grid point.

  At grid point `t` the pipeline stages rows `2000·t … 2000·t + 1999` of the input (window 0), the whole 64×64
  weight (window 1, fetched once) and an output block of the same rows (window 2). The body loads both inputs,
  multiplies them (into a zero accumulator) and stores the product over the whole output block; so after the body
  the output's staging buffer holds the product of the two staged blocks, and the inputs' buffers are as fetched.
  Stated here: that run of the body from whole staging memrefs, the pipeline's proof data built on it (the arrays
  as the region finds them; what each buffer holds after the body at each point; nothing carried from point to
  point), and the body's obligation to the pipeline at every point.
-/
import proofs.«177960_j69157563400217_1_alg».proof.Proof.Gen.KernelIdeal.Launch
import proofs.«177960_j69157563400217_1_alg».proof.Proof.Gen.KernelIdeal.Skeleton
import proofs.«177960_j69157563400217_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref whole -/

abbrev rX : Rect S2000x64 := Rect.unit (s := S2000x64) ![0, 0] S2000x64.size inb_S2000x64_S2000x64_0_0
abbrev rW : Rect S64x64 := Rect.unit (s := S64x64) ![0, 0] S64x64.size inb_S64x64_S64x64_0_0

/-- The output block after the body: its one store, of the product of the two loaded blocks. -/
def out0_2 (x0 : Vec F S2000x64 .f32) (x1 : Vec F S64x64 .f32) : Vec F S2000x64 .f32 :=
  View.canon [⟨rX, k0_pay1 (View.ld x0 rX) (View.ld x1 rW)⟩]

/-- The one store covers the block. -/
theorem cover0_2 (p0 : Vec F S2000x64 .f32) (y : S2000x64.Idx) :
    ∃ pc ∈ ([⟨rX, p0⟩] : List (View.Piece (Elt F) S2000x64 .f32)), y ∈ pc.1.set :=
  View.cover_of_tiled [⟨rX, p0⟩] S2000x64.size (by rfl) y

/-! ## The body's run -/

set_option maxHeartbeats 4000000 in
/-- From the two input memrefs whole at `x0`, `x1` and the output memref whole at anything, the body runs to its return
    with the inputs as they were and the output at `out0_2 x0 x1`. -/
theorem sound_kernel0 (c : Dev nD) (E : Set ℕ) (i : grid0.Coords) (arg1 : Memref sig .tc .vmem S2000x64 .f32) (harg1 : arg1.IsWhole)
    (arg2 : Memref sig .tc .vmem S64x64 .f32) (harg2 : arg2.IsWhole) (arg3 : Memref sig .tc .vmem S2000x64 .f32) (harg3 : arg3.IsWhole)
    (x0 : Vec F S2000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body at point `t`
    each input's buffer at its block and the output's at the product of the two input blocks; the invariant the
    untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KF1a.lean ====
/-
  The second kernel region — column sums and column sums of squares of (aggregated features + bias), accumulated over
  the fifty row blocks — part one: the body's two runs.

  At grid point `t` the pipeline stages rows `2000·t … 2000·t + 1999` of the aggregated features (window 0) and the
  bias as a 1×64 row (window 1, fetched once); windows 2 and 3 are the two 1×64 results, whose blocks do not move with
  `t` and are written back after the last point only. The kernel keeps two 1×64 accumulators of its own between
  points. At the first point the body first stores zeros into both accumulators; at every point it adds the block's
  column sums (of `v` and of `v·v`, `v` the block plus the bias row) to the accumulators and copies them into the two
  result buffers. So there are two control cases, "first point" and "later point"; in each the body is run once from
  whole memrefs, and what its stores leave in the two results and the two accumulators is kept as the list of pieces
  that run finds.
-/
import proofs.«177960_j69157563400217_1_alg».proof.Proof.Gen.KernelIdeal.Launch
import proofs.«177960_j69157563400217_1_alg».proof.Proof.Gen.KernelIdeal.Skeleton
import proofs.«177960_j69157563400217_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch: taken at the first point only -/

/-- The condition of the body's one conditional, from the grid coordinate. -/
abbrev cond1 (i : grid1.Coords) : Prop := (Scalar.cmpi .ne (Scalar.extui (Scalar.cmpi .eq (BitVec.ofNat 32 (i 0).val) 0#32)) 0#32) = 1#1
/-- It holds at point 0 and nowhere else — decided over the fifty points. -/
theorem hcond1 : ∀ t : Fin cfg1.N, cond1 (grid1.coords t) ↔ t.val = 0 :=
  (by decide +kernel : ∀ t : Fin grid1.N, cond1 (grid1.coords t) ↔ t.val = 0)

/-- No window is idle at any point: the body reads both inputs and stores into both results everywhere. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-! ## The memrefs the body is called with -/

abbrev ms1_0 (t : Fin cfg1.N) : Memref sig .tc .vmem S2000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
/-- The two accumulators: whole scoped buffers of the kernel's own. -/
abbrev scM1_0 : Memref sig .tc .vmem S1x64 .f32 := Memref.whole cc1_scratch0
abbrev scM1_1 : Memref sig .tc .vmem S1x64 .f32 := Memref.whole cc1_scratch1
abbrev VS1_0 : View sig .tc .vmem S1x64 .f32 := scM1_0.view
abbrev VS1_1 : View sig .tc .vmem S1x64 .f32 := scM1_1.view
/-- One staging buffer of each result window, through which its contents are stated. -/
abbrev VO1_2 : View sig .tc .vmem S1x64 .f32 := (Memref.whole cc1_stg2_0 : Memref sig .tc .vmem S1x64 .f32).view
abbrev VO1_3 : View sig .tc .vmem S1x64 .f32 := (Memref.whole cc1_stg3_0 : Memref sig .tc .vmem S1x64 .f32).view

/-- Everything scoped that is neither a staging buffer of this region nor one of its two accumulators, at some contents. -/
abbrev others1 (c : Dev nD) : sProp 𝕄 :=
  Pipeline.scopedRestBut (Ix := Unit) (Name := ℕ) (U := UR sig nD τ) (Lvl := ℕ) (Val := Elt F) spec1 c [cc1_scratch0, cc1_scratch1]

/-- The untouched-rest invariant with the two accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ others1 c) ∗ (∃ r, prngReg c r)) := by
  unfold Pipeline.ΦA
  rw [Pipeline.scopedRest_split_of_list spec1 c [cc1_scratch0, cc1_scratch1] (by decide) (by decide)]
  simp only [scM1_0, scM1_1, owns_whole]; try rfl

/-! ## The body's two runs -/

set_option maxHeartbeats 8000000 in
/-- The first point: the two inputs at their blocks, the two results and the two accumulators at anything. -/
noncomputable def kernelRun1_A (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__reduce_kernel i arg1 harg1 arg2 harg2 arg3 harg3 arg4 harg4 arg5 harg5 arg6 harg6) K } := by
  refine ⟨?_, ?_, ?_, ?_, fun E K => ?run⟩
  case run =>
    simp only [cc1__reduce_kernel_eq_skeleton]; unfold cc1__reduce_kernel_skel
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg1.eq_unread hf0; obtain rfl := harg2.eq_unread hf1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

set_option maxHeartbeats 8000000 in
/-- A later point: the two inputs at their blocks, the two results at anything, the two accumulators at what the point
    before left in them. -/
noncomputable def kernelRun1_B (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ owns (c : Thread nD τ) arg5 fullShare xs0 ∗ owns (c : Thread nD τ) arg6 fullShare xs1
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)
                ∗ (∃ f, arg6.view.loc (c : Thread nD τ) ↦[arg6.view.set]{fullShare} arg6.view.writes (Elt F) f LS1)) -∗ K ⟨⟩))
          ⊢ wp frame (wpE (defs₀ (F := F)) Variants.none c none) E (cc1__reduce_kernel i arg1 harg1 arg2 harg2 arg3 harg3 arg4 harg4 arg5 harg5 arg6 harg6) K } := by
  refine ⟨?_, ?_, ?_, ?_, fun E K => ?run⟩
  case run =>
    simp only [cc1__reduce_kernel_eq_skeleton]; unfold cc1__reduce_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.KF1.lean ====
/-
  The second kernel region, part two: what the two results and the two accumulators hold after each grid point, the
  invariant that carries the accumulators from point to point, the pipeline's proof data and the body's obligation.

  After point `0` each buffer holds what the first-point run's pieces leave; after point `n + 1` what the later-point
  run's pieces leave when the accumulators entered at their contents after point `n`. Between two points the
  invariant owns the two accumulators at exactly those contents (before the first point: at anything), beside every
  other scoped buffer and the generator register, which the body never touches.
-/
import proofs.«177960_j69157563400217_1_alg».proof.Proof.Gen.KernelIdeal.Launch
import proofs.«177960_j69157563400217_1_alg».proof.Proof.Gen.KernelIdeal.Skeleton
import proofs.«177960_j69157563400217_1_alg».proof.Proof.Gen.KernelIdeal.Points
import proofs.«177960_j69157563400217_1_alg».proof.Proof.KF1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The pieces cover their buffers -/

theorem cover1_A_2 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) (y : S1x64.Idx) :
    ∃ pc ∈ (kernelRun1_A c i arg1 harg1 arg2 harg2 arg3 harg3 arg4 harg4 arg5 harg5 arg6 harg6 hc x0 x1).1, y ∈ pc.1.set :=
  View.cover_of_tiledL (kernelRun1_A c i arg1 harg1 arg2 harg2 arg3 harg3 arg4 harg4 arg5 harg5 arg6 harg6 hc x0 x1).1 S1x64.size (by sl_kernel_rfl) y
theorem cover1_A_3 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) (y : S1x64.Idx) :
    ∃ pc ∈ (kernelRun1_A c i arg1 harg1 arg2 harg2 arg3 harg3 arg4 harg4 arg5 harg5 arg6 harg6 hc x0 x1).2.1, y ∈ pc.1.set :=
  View.cover_of_tiledL (kernelRun1_A c i arg1 harg1 arg2 harg2 arg3 harg3 arg4 harg4 arg5 harg5 arg6 harg6 hc x0 x1).2.1 S1x64.size (by sl_kernel_rfl) y
theorem scover1_A_0 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) (y : S1x64.Idx) :
    ∃ pc ∈ (kernelRun1_A c i arg1 harg1 arg2 harg2 arg3 harg3 arg4 harg4 arg5 harg5 arg6 harg6 hc x0 x1).2.2.1, y ∈ pc.1.set :=
  View.cover_of_tiledL (kernelRun1_A c i arg1 harg1 arg2 harg2 arg3 harg3 arg4 harg4 arg5 harg5 arg6 harg6 hc x0 x1).2.2.1 S1x64.size (by sl_kernel_rfl) y
theorem scover1_A_1 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) (y : S1x64.Idx) :
    ∃ pc ∈ (kernelRun1_A c i arg1 harg1 arg2 harg2 arg3 harg3 arg4 harg4 arg5 harg5 arg6 harg6 hc x0 x1).2.2.2.1, y ∈ pc.1.set :=
  View.cover_of_tiledL (kernelRun1_A c i arg1 harg1 arg2 harg2 arg3 harg3 arg4 harg4 arg5 harg5 arg6 harg6 hc x0 x1).2.2.2.1 S1x64.size (by sl_kernel_rfl) y
theorem cover1_B_2 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) (y : S1x64.Idx) :
    ∃ pc ∈ (kernelRun1_B c i arg1 harg1 arg2 harg2 arg3 harg3 arg4 harg4 arg5 harg5 arg6 harg6 hc x0 x1 xs0 xs1).1, y ∈ pc.1.set :=
  View.cover_of_tiledL (kernelRun1_B c i arg1 harg1 arg2 harg2 arg3 harg3 arg4 harg4 arg5 harg5 arg6 harg6 hc x0 x1 xs0 xs1).1 S1x64.size (by sl_kernel_rfl) y
theorem cover1_B_3 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) (y : S1x64.Idx) :
    ∃ pc ∈ (kernelRun1_B c i arg1 harg1 arg2 harg2 arg3 harg3 arg4 harg4 arg5 harg5 arg6 harg6 hc x0 x1 xs0 xs1).2.1, y ∈ pc.1.set :=
  View.cover_of_tiledL (kernelRun1_B c i arg1 harg1 arg2 harg2 arg3 harg3 arg4 harg4 arg5 harg5 arg6 harg6 hc x0 x1 xs0 xs1).2.1 S1x64.size (by sl_kernel_rfl) y
theorem scover1_B_0 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) (y : S1x64.Idx) :
    ∃ pc ∈ (kernelRun1_B c i arg1 harg1 arg2 harg2 arg3 harg3 arg4 harg4 arg5 harg5 arg6 harg6 hc x0 x1 xs0 xs1).2.2.1, y ∈ pc.1.set :=
  View.cover_of_tiledL (kernelRun1_B c i arg1 harg1 arg2 harg2 arg3 harg3 arg4 harg4 arg5 harg5 arg6 harg6 hc x0 x1 xs0 xs1).2.2.1 S1x64.size (by sl_kernel_rfl) y
theorem scover1_B_1 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) (y : S1x64.Idx) :
    ∃ pc ∈ (kernelRun1_B c i arg1 harg1 arg2 harg2 arg3 harg3 arg4 harg4 arg5 harg5 arg6 harg6 hc x0 x1 xs0 xs1).2.2.2.1, y ∈ pc.1.set :=
  View.cover_of_tiledL (kernelRun1_B c i arg1 harg1 arg2 harg2 arg3 harg3 arg4 harg4 arg5 harg5 arg6 harg6 hc x0 x1 xs0 xs1).2.2.2.1 S1x64.size (by sl_kernel_rfl) y

/-! ## The two runs at a grid point, and what they leave -/

/-- The first-point run at point `t`'s memrefs and input blocks. -/
abbrev RA (c : Dev nD) (t : Fin cfg1.N) (hc : cond1 (grid1.coords t)) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) hc (iblk1 V c 0 t) (iblk1 V c 1 t)
/-- The later-point run at point `t`'s memrefs and input blocks, the accumulators entered at `xs0`, `xs1`. -/
abbrev RB (c : Dev nD) (t : Fin cfg1.N) (hc : ¬cond1 (grid1.coords t)) (xs0 xs1 : Vec F S1x64 .f32) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) hc (iblk1 V c 0 t) (iblk1 V c 1 t) xs0 xs1

/-- What a run's pieces leave in the two results and the two accumulators (in that order): the pieces read back. -/
def res1_A (c : Dev nD) (t : Fin cfg1.N) (hc : cond1 (grid1.coords t)) : Vec F S1x64 .f32 × Vec F S1x64 .f32 × Vec F S1x64 .f32 × Vec F S1x64 .f32 :=
  (VO1_2.read (Elt F) (VO1_2.writes (Elt F) VO1_2.junk (RA V c t hc).1),
   VO1_3.read (Elt F) (VO1_3.writes (Elt F) VO1_3.junk (RA V c t hc).2.1),
   VS1_0.read (Elt F) (VS1_0.writes (Elt F) VS1_0.junk (RA V c t hc).2.2.1),
   VS1_1.read (Elt F) (VS1_1.writes (Elt F) VS1_1.junk (RA V c t hc).2.2.2.1))
def res1_B (c : Dev nD) (t : Fin cfg1.N) (hc : ¬cond1 (grid1.coords t)) (xs0 xs1 : Vec F S1x64 .f32) : Vec F S1x64 .f32 × Vec F S1x64 .f32 × Vec F S1x64 .f32 × Vec F S1x64 .f32 :=
  (VO1_2.read (Elt F) (VO1_2.writes (Elt F) VO1_2.junk (RB V c t hc xs0 xs1).1),
   VO1_3.read (Elt F) (VO1_3.writes (Elt F) VO1_3.junk (RB V c t hc xs0 xs1).2.1),
   VS1_0.read (Elt F) (VS1_0.writes (Elt F) VS1_0.junk (RB V c t hc xs0 xs1).2.2.1),
   VS1_1.read (Elt F) (VS1_1.writes (Elt F) VS1_1.junk (RB V c t hc xs0 xs1).2.2.2.1))

/-- THE ACCUMULATION: the two results and the two accumulators after the body at position `n`. -/
def outsAt1 (c : Dev nD) : (n : ℕ) → n < cfg1.N → Vec F S1x64 .f32 × Vec F S1x64 .f32 × Vec F S1x64 .f32 × Vec F S1x64 .f32
  | 0, hn => res1_A V c ⟨0, hn⟩ ((hcond1 ⟨0, hn⟩).mpr rfl)
  | n + 1, hn => res1_B V c ⟨n + 1, hn⟩ (fun h => Nat.succ_ne_zero n ((hcond1 ⟨n + 1, hn⟩).mp h))
      (outsAt1 c n (Nat.lt_of_succ_lt hn)).2.2.1 (outsAt1 c n (Nat.lt_of_succ_lt hn)).2.2.2

theorem outsAt1_A (c : Dev nD) (t : Fin cfg1.N) (h0 : t.val = 0) :
    outsAt1 V c t.val t.isLt = res1_A V c t ((hcond1 t).mpr h0) := by
  obtain ⟨n, hn⟩ := t
  cases n with
  | zero => rfl
  | succ n => exact absurd h0 (Nat.succ_ne_zero n)

theorem outsAt1_B (c : Dev nD) (t : Fin cfg1.N) (h0 : ¬t.val = 0) :
    outsAt1 V c t.val t.isLt = res1_B V c t (fun h => h0 ((hcond1 t).mp h))
      (outsAt1 V c (t.val - 1) (Nat.lt_of_le_of_lt (Nat.sub_le _ _) t.isLt)).2.2.1
      (outsAt1 V c (t.val - 1) (Nat.lt_of_le_of_lt (Nat.sub_le _ _) t.isLt)).2.2.2 := by
  obtain ⟨n, hn⟩ := t
  cases n with
  | zero => exact absurd rfl h0
  | succ n => rfl

/-! ## The invariant between points -/

/-- Before position `n`: before the first point everything scoped at anything; afterwards the two accumulators at what
    the point before left, every other scoped buffer at anything; always the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.1) ∗ owns (c : Thread nD τ) scM1_1 fullShare ((outsAt1 V c n hn).2.2.2)) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.2.1) ∗ owns (c : Thread nD τ) scM1_1 fullShare ((outsAt1 V c n hn).2.2.2)) ∗ others1 c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.1) ∗ owns (c : Thread nD τ) scM1_1 fullShare ((outsAt1 V c (n - 1) (by omega)).2.2.2)) ∗ others1 c) ∗ (∃ r, prngReg c r)) := by
  cases n with
  | zero => exact absurd rfl hz
  | succ n => rfl

/-! ## The pipeline's proof data -/

/-- The proof data of the second pipeline on core `c`: the arrays as the region finds them; after the body at point `t`
    each input's buffer at its block and the two results' at the accumulation's first two components; the invariant
    carrying the accumulators; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the point is the first or a later one; the invariant hands
    the body the accumulators (at anything at the first point, at what the point before left afterwards) and takes them
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases hz : t.val = 0
  ·
    rw [outsAt1_A V c t hz]
    unfold res1_A; (try dsimp only)
    rw [PhiS1_castSucc V c t, PhiS1_zero V c _ _ hz, PhiA1_eq]
    iintro ⟨⟨⟨⟨HS0, HS1⟩, Hoth⟩, Hg⟩, Ho, ⟨%d0, H0⟩, ⟨%d1, H1⟩, ⟨%d2, H2⟩, ⟨%d3, H3⟩⟩
    iapply ((RA V c t ((hcond1 t).mpr hz)).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hoth Hg]
    · isplitl [HS0 HS1 Hoth]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _)
        · iexact Hoth
      · iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_A_2 c _ _ _ _ _ _ _ _ _ _ _ _ _ _ _ _)
    · unfold owns; iexists _; isplitr
      swap; · iexact H3
      ipureintro; exact View.read_writes_of_cover _ _ _ _ _ (cover1_A_3 c _ _ _ _ _ _ _ _ _ _ _ _ _ _ _ _)
  ·
    rw [outsAt1_B V c t hz]
    unfold res1_B; (try dsimp only)
    rw [PhiS1_castSucc V c t, PhiS1_pos V c _ _ hz]
    iintro ⟨⟨⟨⟨HS0, HS1⟩, Hoth⟩, Hg⟩, Ho, ⟨%d0, H0⟩, ⟨%d1, H1⟩, ⟨%d2, H2⟩, ⟨%d3, H3⟩⟩
    iapply ((RB V c t (fun h => hz ((hcond1 t).mp h)) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hoth Hg]
    · isplitl [HS0 HS1 Hoth]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _ _ _)
          · unfold owns; iexists _; isplitr
            swap; · iexact HS1
            ipureintro; exact View.read_writes_of_cover _ _ _ _ _ (scover1_B_1 c _ _ _ _ _ _ _ _ _ _ _ _ _ _ _ _ _ _)
        · iexact Hoth
      · iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover1_B_2 c _ _ _ _ _ _ _ _ _ _ _ _ _ _ _ _ _ _)
    · unfold owns; iexists _; isplitr
      swap; · iexact H3
      ipureintro; exact View.read_writes_of_cover _ _ _ _ _ (cover1_B_3 c _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the untouched-rest invariant back: the accumulators' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨⟨HS0, HS1⟩, Hoth⟩, Hg⟩
  isplitl [HS0 HS1 Hoth]
  · isplitl [HS0 HS1]
    · isplitl [HS0]
      · iexists _; iexact HS0
      · iexists _; iexact HS1
    · iexact Hoth
  iexact Hg

end Cert.KernelIdeal.Hand

end
-- ==== Proof.KF2.lean ====
/-
  The third kernel region: bias, normalisation, scale and shift, and the leaky rectifier, one block of 2000 rows per
  grid point.

  At grid point `t` the pipeline stages rows `2000·t … 2000·t + 1999` of the aggregated features (window 0), the
  bias, the mean, the variance, the scale and the shift as 1×64 rows (windows 1–5, each fetched once), the rectifier's
  slope (window 6) and an output block of the same rows (window 7). The body loads the seven inputs and stores one
  pointwise expression of them over the whole output block. Stated here: that run of the body, the pipeline's proof
  data built on it, and the body's obligation to the pipeline at every point; nothing is carried between points.
-/
import proofs.«177960_j69157563400217_1_alg».proof.Proof.Gen.KernelIdeal.Launch
import proofs.«177960_j69157563400217_1_alg».proof.Proof.Gen.KernelIdeal.Skeleton
import proofs.«177960_j69157563400217_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref whole -/

abbrev rB : Rect S2000x64 := Rect.unit (s := S2000x64) ![0, 0] S2000x64.size inb_S2000x64_S2000x64_0_0
abbrev rR : Rect S1x64 := Rect.unit (s := S1x64) ![0, 0] S1x64.size inb_S1x64_S1x64_0_0
abbrev rS : Rect S1 := Rect.unit (s := S1) ![0] S1.size inb_S1_S1_0

/-- The output block after the body: its one store, of the pointwise expression of the seven loaded blocks (the
    aggregated block, the bias, the variance, the mean, the scale, the shift, the slope, in the body's order of use). -/
def out2_7 (x0 : Vec F S2000x64 .f32) (x1 x2 x3 x4 x5 : Vec F S1x64 .f32) (x6 : Vec F S1 .f32) : Vec F S2000x64 .f32 :=
  View.canon [⟨rB, k2_pay1 (View.ld x0 rB) (View.ld x1 rR) (View.ld x3 rR) (View.ld x2 rR) (View.ld x4 rR) (View.ld x5 rR) (View.ld x6 rS)⟩]

theorem cover2_7 (p0 : Vec F S2000x64 .f32) (y : S2000x64.Idx) :
    ∃ pc ∈ ([⟨rB, p0⟩] : List (View.Piece (Elt F) S2000x64 .f32)), y ∈ pc.1.set :=
  View.cover_of_tiled [⟨rB, p0⟩] S2000x64.size (by rfl) y

/-! ## The body's run -/

set_option maxHeartbeats 4000000 in
/-- From the seven input memrefs whole at `x0 … x6` and the output memref whole at anything, the body runs to its return
    with the inputs as they were and the output at `out2_7 x0 … x6`. -/
theorem sound_kernel2 (c : Dev nD) (E : Set ℕ) (i : grid2.Coords) (arg1 : Memref sig .tc .vmem S2000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S1x64 .f32) (harg6 : arg6.IsWhole) (arg7 : Memref sig .tc .vmem S1 .f32) (harg7 : arg7.IsWhole)
    (arg8 : Memref sig .tc .vmem S2000x64 .f32) (harg8 : arg8.IsWhole)
    (x0 : Vec F S2000x64 .f32) (x1 x2 x3 x4 x5 : Vec F S1x64 .f32) (x6 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__affine_kernel i arg1 harg1 arg2 harg2 arg3 harg3 arg4 harg4 arg5 harg5 arg6 harg6 arg7 harg7 arg8 harg8) K := by
  simp only [cc2__affine_kernel_eq_skeleton]; unfold cc2__affine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of the third pipeline on core `c`: the arrays as the region finds them; after the body at point `t`
    each input's buffer at its block and the output's at the pointwise expression of the input blocks; the invariant the
    untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KRun.lean ====
/-
  The whole run of the program: its ten segments — five stretches of host operations, the linear layer's region, a
  stretch, the reduction's region, a stretch, the normalisation's region — chained from the launch to the return.

  Between two segments every unscoped buffer of a core holds a named function of the launch memory: after a host
  stretch, the stretch's operations applied to what was there before; after a region, the region's arrays at what its
  write-backs leave (an input array as entered, an output array block by block) and every other buffer as entered.
  Each region is entered by splitting its arrays out of those buffers and left by putting them back; the generator
  register and the core's empty debt ride along. At the end every unscoped buffer is read off the last boundary: the
  seven arguments walk back through the chain to the launch memory, and the result is the last region's output array.
-/
import proofs.«177960_j69157563400217_1_alg».proof.Proof.Gen.KernelIdeal.Launch
import proofs.«177960_j69157563400217_1_alg».proof.Proof.Gen.KernelIdeal.Skeleton
import proofs.«177960_j69157563400217_1_alg».proof.Proof.Gen.KernelIdeal.Points
import proofs.«177960_j69157563400217_1_alg».proof.Proof.KF0
import proofs.«177960_j69157563400217_1_alg».proof.Proof.KF1
import proofs.«177960_j69157563400217_1_alg».proof.Proof.KF2
import proofs.«177960_j69157563400217_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Region 0's entry contents (after the five host stretches), read at the TensorCore's references. -/
abbrev E0in : (c : Dev nD) → (b : Ref sig .tc) → Buf (Elt F) ((c : Thread nD τ).loc b) := fun c b => V5 m c b
/-- At region 0's exit: its arrays at what the pipeline leaves, every other buffer as entered. -/
def X6 (c : Dev nD) : Valuation τ sig (Elt F) :=
  Pipeline.withArrays spec0 c (V5 m c) fun w => (dat0 (E0in m) c).arrAt w cfg0.N
theorem X6_arr (c : Dev nD) (w : Fin cfg0.W) :
    X6 m c (Proc.devRef .tc (Pipeline.arrRef spec0 w)) = (dat0 (E0in m) c).arrAt w cfg0.N := by
  unfold X6; exact Pipeline.withArrays_arr spec0 launch0.win.arr_inj c _ _ w
theorem X6_of_ne (c : Dev nD) (b : Ref sig .tc) (hb : ∀ w, Pipeline.arrRef spec0 w ≠ b) :
    X6 m c (Proc.devRef .tc b) = V5 m c (Proc.devRef .tc b) := by
  unfold X6; exact Pipeline.withArrays_of_ne spec0 c _ _ b hb
abbrev E0out : (c : Dev nD) → (b : Ref sig .tc) → Buf (Elt F) ((c : Thread nD τ).loc b) := fun c b => X6 m c b
theorem hF0 (c : Dev nD) (w : Fin cfg0.W) : (dat0 (E0in m) c).arrAt w cfg0.N = E0out m c (Pipeline.arrRef spec0 w) :=
  (X6_arr m c w).symm
theorem hrest0 (c : Dev nD) : ∀ b, b ∉ Finset.univ.image (Pipeline.arrRef spec0) → E0out m c b = E0in m c b :=
  fun b hb => X6_of_ne m c b fun w e => hb (Finset.mem_image.mpr ⟨w, Finset.mem_univ _, e⟩)

/-- After the stretch between regions 0 and 1 (region 1's entry). -/
abbrev X7 : Dev nD → Valuation τ sig (Elt F) := fun c => StableHlo.after hostOps1 (X6 m c)
abbrev E1in : (c : Dev nD) → (b : Ref sig .tc) → Buf (Elt F) ((c : Thread nD τ).loc b) := fun c b => X7 m c b
def X8 (c : Dev nD) : Valuation τ sig (Elt F) :=
  Pipeline.withArrays spec1 c (X7 m c) fun w => (dat1 (E1in m) c).arrAt w cfg1.N
theorem X8_arr (c : Dev nD) (w : Fin cfg1.W) :
    X8 m c (Proc.devRef .tc (Pipeline.arrRef spec1 w)) = (dat1 (E1in m) c).arrAt w cfg1.N := by
  unfold X8; exact Pipeline.withArrays_arr spec1 launch1.win.arr_inj c _ _ w
theorem X8_of_ne (c : Dev nD) (b : Ref sig .tc) (hb : ∀ w, Pipeline.arrRef spec1 w ≠ b) :
    X8 m c (Proc.devRef .tc b) = X7 m c (Proc.devRef .tc b) := by
  unfold X8; exact Pipeline.withArrays_of_ne spec1 c _ _ b hb
abbrev E1out : (c : Dev nD) → (b : Ref sig .tc) → Buf (Elt F) ((c : Thread nD τ).loc b) := fun c b => X8 m c b
theorem hF1 (c : Dev nD) (w : Fin cfg1.W) : (dat1 (E1in m) c).arrAt w cfg1.N = E1out m c (Pipeline.arrRef spec1 w) :=
  (X8_arr m c w).symm
theorem hrest1 (c : Dev nD) : ∀ b, b ∉ Finset.univ.image (Pipeline.arrRef spec1) → E1out m c b = E1in m c b :=
  fun b hb => X8_of_ne m c b fun w e => hb (Finset.mem_image.mpr ⟨w, Finset.mem_univ _, e⟩)

/-- After the stretch between regions 1 and 2 (region 2's entry). -/
abbrev X9 : Dev nD → Valuation τ sig (Elt F) := fun c => StableHlo.after hostOps2 (X8 m c)
abbrev E2in : (c : Dev nD) → (b : Ref sig .tc) → Buf (Elt F) ((c : Thread nD τ).loc b) := fun c b => X9 m c b
def X10 (c : Dev nD) : Valuation τ sig (Elt F) :=
  Pipeline.withArrays spec2 c (X9 m c) fun w => (dat2 (E2in m) c).arrAt w cfg2.N
theorem X10_arr (c : Dev nD) (w : Fin cfg2.W) :
    X10 m c (Proc.devRef .tc (Pipeline.arrRef spec2 w)) = (dat2 (E2in m) c).arrAt w cfg2.N := by
  unfold X10; exact Pipeline.withArrays_arr spec2 launch2.win.arr_inj c _ _ w
theorem X10_of_ne (c : Dev nD) (b : Ref sig .tc) (hb : ∀ w, Pipeline.arrRef spec2 w ≠ b) :
    X10 m c (Proc.devRef .tc b) = X9 m c (Proc.devRef .tc b) := by
  unfold X10; exact Pipeline.withArrays_of_ne spec2 c _ _ b hb
abbrev E2out : (c : Dev nD) → (b : Ref sig .tc) → Buf (Elt F) ((c : Thread nD τ).loc b) := fun c b => X10 m c b
theorem hF2 (c : Dev nD) (w : Fin cfg2.W) : (dat2 (E2in m) c).arrAt w cfg2.N = E2out m c (Pipeline.arrRef spec2 w) :=
  (X10_arr m c w).symm
theorem hrest2 (c : Dev nD) : ∀ b, b ∉ Finset.univ.image (Pipeline.arrRef spec2) → E2out m c b = E2in m c b :=
  fun b hb => X10_of_ne m c b fun w e => hb (Finset.mem_image.mpr ⟨w, Finset.mem_univ _, e⟩)

/-! ## The arguments end as launched -/

/-- The input array of the linear layer is region 0's first window: read back as entered. -/
theorem X10_main_arg0 (c : Dev nD) : X10 m c (Proc.devRef .tc main_arg0) = m ((c : Thread nD τ).loc main_arg0) :=
  (X10_of_ne m c main_arg0 (by decide)).trans <| (StableHlo.after_of_writes_sub hostOps2 _ hostOps2_writes (r := main_arg0) (by decide)).trans <|
  (X8_of_ne m c main_arg0 (by decide)).trans <| (StableHlo.after_of_writes_sub hostOps1 _ hostOps1_writes (r := main_arg0) (by decide)).trans <|
  ((X6_arr m c 0).trans (((dat0 (E0in m) c).arrAt_in 0 rfl _).trans (A_eq0 (E0in m) c 0))).trans <|
  (V5_of m c main_arg0 (by decide)).trans <| (V4_of m c main_arg0 (by decide)).trans <| (V3_of m c main_arg0 (by decide)).trans <| (V2_of m c main_arg0 (by decide)).trans <| (V1_of m c main_arg0 (by decide)).trans rfl
theorem X10_main_arg1 (c : Dev nD) : X10 m c (Proc.devRef .tc main_arg1) = m ((c : Thread nD τ).loc main_arg1) :=
  (X10_of_ne m c main_arg1 (by decide)).trans <| (StableHlo.after_of_writes_sub hostOps2 _ hostOps2_writes (r := main_arg1) (by decide)).trans <|
  (X8_of_ne m c main_arg1 (by decide)).trans <| (StableHlo.after_of_writes_sub hostOps1 _ hostOps1_writes (r := main_arg1) (by decide)).trans <|
  (X6_of_ne m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem X10_main_arg2 (c : Dev nD) : X10 m c (Proc.devRef .tc main_arg2) = m ((c : Thread nD τ).loc main_arg2) :=
  (X10_of_ne m c main_arg2 (by decide)).trans <| (StableHlo.after_of_writes_sub hostOps2 _ hostOps2_writes (r := main_arg2) (by decide)).trans <|
  (X8_of_ne m c main_arg2 (by decide)).trans <| (StableHlo.after_of_writes_sub hostOps1 _ hostOps1_writes (r := main_arg2) (by decide)).trans <|
  (X6_of_ne m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl
theorem X10_main_arg3 (c : Dev nD) : X10 m c (Proc.devRef .tc main_arg3) = m ((c : Thread nD τ).loc main_arg3) :=
  (X10_of_ne m c main_arg3 (by decide)).trans <| (StableHlo.after_of_writes_sub hostOps2 _ hostOps2_writes (r := main_arg3) (by decide)).trans <|
  (X8_of_ne m c main_arg3 (by decide)).trans <| (StableHlo.after_of_writes_sub hostOps1 _ hostOps1_writes (r := main_arg3) (by decide)).trans <|
  (X6_of_ne m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem X10_main_arg4 (c : Dev nD) : X10 m c (Proc.devRef .tc main_arg4) = m ((c : Thread nD τ).loc main_arg4) :=
  (X10_of_ne m c main_arg4 (by decide)).trans <| (StableHlo.after_of_writes_sub hostOps2 _ hostOps2_writes (r := main_arg4) (by decide)).trans <|
  (X8_of_ne m c main_arg4 (by decide)).trans <| (StableHlo.after_of_writes_sub hostOps1 _ hostOps1_writes (r := main_arg4) (by decide)).trans <|
  (X6_of_ne m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
theorem X10_main_arg5 (c : Dev nD) : X10 m c (Proc.devRef .tc main_arg5) = m ((c : Thread nD τ).loc main_arg5) :=
  (X10_of_ne m c main_arg5 (by decide)).trans <| (StableHlo.after_of_writes_sub hostOps2 _ hostOps2_writes (r := main_arg5) (by decide)).trans <|
  (X8_of_ne m c main_arg5 (by decide)).trans <| (StableHlo.after_of_writes_sub hostOps1 _ hostOps1_writes (r := main_arg5) (by decide)).trans <|
  (X6_of_ne m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
/-- The rectifier's slope is region 2's seventh window: read back as entered. -/
theorem X10_main_arg6 (c : Dev nD) : X10 m c (Proc.devRef .tc main_arg6) = m ((c : Thread nD τ).loc main_arg6) :=
  ((X10_arr m c 6).trans (((dat2 (E2in m) c).arrAt_in 6 rfl _).trans (A_eq2 (E2in m) c 6))).trans <|
  (StableHlo.after_of_writes_sub hostOps2 _ hostOps2_writes (r := main_arg6) (by decide)).trans <|
  (X8_of_ne m c main_arg6 (by decide)).trans <| (StableHlo.after_of_writes_sub hostOps1 _ hostOps1_writes (r := main_arg6) (by decide)).trans <|
  (X6_of_ne m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl

/-- The result array is region 2's output window's array: what its write-backs leave. -/
theorem X10_main_v60 (c : Dev nD) : X10 m c (Proc.devRef .tc main_v60) = (dat2 (E2in m) c).arrAt 7 cfg2.N := X10_arr m c 7

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E0in m) c
  | ⟨1, _⟩ => fun c => dat1 (E1in m) c
  | ⟨2, _⟩ => fun c => dat2 (E2in m) c
abbrev 𝒱₀ : Variants := Variants.none
abbrev L : GSem nD τ sig → Finset Unit := fun _ => ∅
abbrev lv : GSem nD τ sig → Unit → ℕ := fun _ _ => 0
/-- What rides beside the buffers through every segment: the generator register at some state and the core's empty debt. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (X10 m c) ∗ ∃ r, prngReg c r)

/-! ## The regions as segments -/

set_option backward.isDefEq.respectTransparency.types false in
/-- Region 0 over the thread state: entered from every unscoped buffer at the boundary contents before it, left at the
    ones after it; its arrays split out of the unscoped buffers and put back at what the pipeline leaves. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0in m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec0 c (E0in m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0in m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0in m c) (E0out m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary contents before it, left at the
    ones after it; its arrays split out of the unscoped buffers and put back at what the pipeline leaves. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1in m) c).loose
  hwaits := Pipeline.hwaits_of_owed_zero _ _ _ _ L lv 1 fun _ _ => rfl
  pre c := iprop(StableHlo.held (c : Thread nD τ) (Pipeline.ucRefs τ sig) (X7 m c) ∗ R c)
  post c := iprop(StableHlo.held (c : Thread nD τ) (Pipeline.ucRefs τ sig) (X8 m c) ∗ R c)
  X c := iprop(∃ r, prngReg c r)
  Y c := iprop(∃ r, prngReg c r)
  Z c := Pipeline.unscopedRest (Ix := Unit) (Name := ℕ) (U := UR sig nD τ) (Lvl := ℕ) spec1 c (E1in m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1in m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (E1in m) c)
    unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from hout1 (E1in m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1in m c) (E1out m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary contents before it, left at the
    ones after it; its arrays split out of the unscoped buffers and put back at what the pipeline leaves. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2in m) c).loose
  hwaits := Pipeline.hwaits_of_owed_zero _ _ _ _ L lv 2 fun _ _ => rfl
  pre c := iprop(StableHlo.held (c : Thread nD τ) (Pipeline.ucRefs τ sig) (X9 m c) ∗ R c)
  post c := iprop(StableHlo.held (c : Thread nD τ) (Pipeline.ucRefs τ sig) (X10 m c) ∗ R c)
  X c := iprop(∃ r, prngReg c r)
  Y c := iprop(∃ r, prngReg c r)
  Z c := Pipeline.unscopedRest (Ix := Unit) (Name := ℕ) (U := UR sig nD τ) (Lvl := ℕ) spec2 c (E2in m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2in m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2in m c) (E2out m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .host (hseg hostOps1 hostOps1_sub hostOps1_fresh (X6 m)),
    .region (reg1 m),
    .host (hseg hostOps2 hostOps2_sub hostOps2_fresh (X8 m)),
    .region (reg2 m) ]

variable (ρ : Dev nD → PrngReg)

set_option backward.isDefEq.respectTransparency.types false in
/-- THE RUN. From any memory with zero counters every weakly fair execution of the program terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (X10 m c) ∗ R c) : sProp 𝕄) ⊢ iprop(Tₙ m c ∗ ∃ W, owes (c.tc : Thread nD τ) (0 : CellTallies nD τ sig Unit) W)
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X10 m c b)
    (hfin := fun c s' => by
      iintro ⟨⟨Hh, -⟩, HSI⟩
      unfold StableHlo.held
      imodintro
      iapply (pointsTo_read_all (Pipeline.ucRefs τ sig) (fun b => (((c : Thread nD τ)).1, b)) (X10 m c) s')
      isplitl [Hh] <;> iassumption)
    (hQ := fun s h c => h c)

/-- The run read at the result and the seven arguments: the result array ends at what the last region's write-backs
    leave, every argument as launched. -/
theorem run_values : θ_run defs (onTc (τ := τ) (main (F := F))) ⟨m, fun _ => 0, ρ⟩ (fun r => ∀ c : Dev nD,
      r.2.mem ((c.tc : Thread nD τ).loc main_v60) = (dat2 (E2in m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v60 (by decide))).trans (X10_main_v60 m c),
     (h c _ (mem_uc main_arg0 (by decide))).trans (X10_main_arg0 m c),
     (h c _ (mem_uc main_arg1 (by decide))).trans (X10_main_arg1 m c),
     (h c _ (mem_uc main_arg2 (by decide))).trans (X10_main_arg2 m c),
     (h c _ (mem_uc main_arg3 (by decide))).trans (X10_main_arg3 m c),
     (h c _ (mem_uc main_arg4 (by decide))).trans (X10_main_arg4 m c),
     (h c _ (mem_uc main_arg5 (by decide))).trans (X10_main_arg5 m c),
     (h c _ (mem_uc main_arg6 (by decide))).trans (X10_main_arg6 m c)⟩) (run_all m ρ)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_values m ρ)

end Cert.KernelIdeal.Hand

end
-- ==== Proof.KGlueA.lean ====
/-
  The host operations of the kernel's program, stretch by stretch, are the reference's.

  Both programs compute the graph normalisation — the two index rows, the self-loop weights, the degrees by a
  scatter-add, their inverse square roots where positive, the per-edge weight as a product of two gathered entries and
  the edge weight — and then the aggregation (a gather of projected rows, scaled, scatter-added by target node) by the
  same operations in the same order. Each buffer a stretch of the kernel's host operations writes is read here, from
  ANY contents of the buffers before the stretch, as an explicit function of the stretch's operand buffers; and that
  function of the reference's values of the operands is the reference's value of the result, by unfolding the
  reference's stage.
-/
import proofs.«177960_j69157563400217_1_alg».proof.Proof.Gen.KernelIdeal.Regions
import proofs.«177960_j69157563400217_1_alg».proof.Proof.ReadP
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Idealize.ShloMosaic Idealize.ShloMosaic.TcCoe Idealize.SL.Sem Idealize.ShloMosaic.StableHlo

/-! ## The first stretch: the two index rows, their equality mask, the constants 0 and 1 -/
set_option maxHeartbeats 2000000 in
theorem st1_v1 (W : Valuation τ sig (Elt Ideal)) (x1 : (⟨Cert.ReferenceIdeal.S2x1600000, .i32⟩ : BufTy).Contents (Elt Ideal))
    (harg1 : W (Proc.devRef .tc main_arg1) = x1) :
    StableHlo.after hostOps0 W (Proc.devRef .tc main_v1) = Cert.ReferenceIdeal.ReadP.val_main_v1 (F := Ideal) x1 := by
  after_results_simp
  simp only [harg1]
  rfl
set_option maxHeartbeats 2000000 in
theorem st1_v3 (W : Valuation τ sig (Elt Ideal)) (x1 : (⟨Cert.ReferenceIdeal.S2x1600000, .i32⟩ : BufTy).Contents (Elt Ideal))
    (harg1 : W (Proc.devRef .tc main_arg1) = x1) :
    StableHlo.after hostOps0 W (Proc.devRef .tc main_v3) = Cert.ReferenceIdeal.ReadP.val_main_v3 (F := Ideal) x1 := by
  after_results_simp
  simp only [harg1]
  rfl
set_option maxHeartbeats 2000000 in
theorem st1_v4 (W : Valuation τ sig (Elt Ideal)) (x1 : (⟨Cert.ReferenceIdeal.S2x1600000, .i32⟩ : BufTy).Contents (Elt Ideal))
    (harg1 : W (Proc.devRef .tc main_arg1) = x1) :
    StableHlo.after hostOps0 W (Proc.devRef .tc main_v4) = Cert.ReferenceIdeal.ReadP.val_main_v4 (F := Ideal) x1 := by
  after_results_simp
  simp only [harg1]
  rfl

theorem st1_cst (W : Valuation τ sig (Elt Ideal)) : StableHlo.after hostOps0 W (Proc.devRef .tc main_cst) = Cert.ReferenceIdeal.ReadP.val_main_cst (F := Ideal) := by
  after_results_simp
  rfl
theorem st1_cst_0 (W : Valuation τ sig (Elt Ideal)) : StableHlo.after hostOps0 W (Proc.devRef .tc main_cst_0) = Cert.ReferenceIdeal.ReadP.val_main_cst_0 (F := Ideal) := by
  after_results_simp
  rfl

/-! ## The self-loop mask as a float: 0 where the two indices agree, 1 elsewhere -/
set_option maxHeartbeats 2000000 in
theorem st2_v5 (W : Valuation τ sig (Elt Ideal)) (x1 : (⟨Cert.ReferenceIdeal.S2x1600000, .i32⟩ : BufTy).Contents (Elt Ideal))
    (hv4 : W (Proc.devRef .tc main_v4) = Cert.ReferenceIdeal.ReadP.val_main_v4 (F := Ideal) x1) (hcst : W (Proc.devRef .tc main_cst) = Cert.ReferenceIdeal.ReadP.val_main_cst (F := Ideal)) (hcst_0 : W (Proc.devRef .tc main_cst_0) = Cert.ReferenceIdeal.ReadP.val_main_cst_0 (F := Ideal)) :
    StableHlo.after hostOps0_1 W (Proc.devRef .tc main_v5) = Cert.ReferenceIdeal.ReadP.val_main_v5 (F := Ideal) x1 := by
  after_results_simp
  simp only [hv4, hcst, hcst_0]
  rfl

/-! ## The indices and weights with the self-loops appended; the degrees; their comparison with 0 and inverse square roots -/

/-- An index row with the hundred thousand self-loop indices appended. -/
def withLoops (y : IVec S1600000 32) : IVec S1700000 32 :=
  concatenate S1700000 0 [⟨S1600000, y⟩, ⟨S100000, iotaInDim S100000 32 0⟩] concatenates_S1600000_S100000_S1700000_d0
/-- The edge weights with a weight 1 appended per self-loop. -/
def wts (y5 : FVec Ideal S1600000 .f32) : FVec Ideal S1700000 .f32 :=
  concatenate S1700000 0 [⟨S1600000, id y5⟩, ⟨S100000, broadcastInDim S100000 ![] bcast_S_S100000 (constant (F := Ideal) S_ .f32 0x3F800000#32)⟩] concatenates_S1600000_S100000_S1700000_d0
/-- The weighted in-degrees: the weights scatter-added by target node into zeros. -/
def degs (y3 : IVec S1600000 32) (y5 : FVec Ideal S1600000 .f32) : FVec Ideal S100000 .f32 :=
  Host.scatterAdd scatter_S100000_S1700000x1_S1700000_n_0_0_1 (broadcastInDim S100000 ![] bcast_S_S100000 (constant (F := Ideal) S_ .f32 0x00000000#32))
    (broadcastInDim S1700000x1 ![0] bcast_S1700000_S1700000x1_0 (withLoops y3)) (wts y5)

theorem st3_v8 (W : Valuation τ sig (Elt Ideal)) : StableHlo.after hostOps0_2 W (Proc.devRef .tc main_v8) = withLoops (W (Proc.devRef .tc main_v1)) := by
  after_results_simp
  rfl
theorem st3_v9 (W : Valuation τ sig (Elt Ideal)) : StableHlo.after hostOps0_2 W (Proc.devRef .tc main_v9) = withLoops (W (Proc.devRef .tc main_v3)) := by
  after_results_simp
  rfl
theorem st3_v11 (W : Valuation τ sig (Elt Ideal)) : StableHlo.after hostOps0_2 W (Proc.devRef .tc main_v11) = wts (W (Proc.devRef .tc main_v5)) := by
  after_results_simp
  rfl
theorem st3_v16 (W : Valuation τ sig (Elt Ideal)) : StableHlo.after hostOps0_2 W (Proc.devRef .tc main_v16)
    = cmpf .ogt (degs (W (Proc.devRef .tc main_v3)) (W (Proc.devRef .tc main_v5))) (broadcastInDim S100000 ![] bcast_S_S100000 (constant (F := Ideal) S_ .f32 0x00000000#32)) := by
  after_results_simp
  rfl
theorem st3_v17 (W : Valuation τ sig (Elt Ideal)) : StableHlo.after hostOps0_2 W (Proc.devRef .tc main_v17)
    = Host.rsqrt (degs (W (Proc.devRef .tc main_v3)) (W (Proc.devRef .tc main_v5))) := by
  after_results_simp
  rfl
theorem st3_cst_4 (W : Valuation τ sig (Elt Ideal)) : StableHlo.after hostOps0_2 W (Proc.devRef .tc main_cst_4) = Cert.ReferenceIdeal.ReadP.val_main_cst_4 (F := Ideal) := by
  after_results_simp
  rfl

theorem withLoops_v8 (x1 : (⟨Cert.ReferenceIdeal.S2x1600000, .i32⟩ : BufTy).Contents (Elt Ideal)) : withLoops (Cert.ReferenceIdeal.ReadP.val_main_v1 (F := Ideal) x1) = Cert.ReferenceIdeal.ReadP.val_main_v8 (F := Ideal) x1 := by
  unfold withLoops Cert.ReferenceIdeal.ReadP.val_main_v8 Cert.ReferenceIdeal.ReadP.val_main_v7; rfl
theorem withLoops_v9 (x1 : (⟨Cert.ReferenceIdeal.S2x1600000, .i32⟩ : BufTy).Contents (Elt Ideal)) : withLoops (Cert.ReferenceIdeal.ReadP.val_main_v3 (F := Ideal) x1) = Cert.ReferenceIdeal.ReadP.val_main_v9 (F := Ideal) x1 := by
  unfold withLoops Cert.ReferenceIdeal.ReadP.val_main_v9 Cert.ReferenceIdeal.ReadP.val_main_v7; rfl
theorem wts_v11 (x1 : (⟨Cert.ReferenceIdeal.S2x1600000, .i32⟩ : BufTy).Contents (Elt Ideal)) : wts (Cert.ReferenceIdeal.ReadP.val_main_v5 (F := Ideal) x1) = Cert.ReferenceIdeal.ReadP.val_main_v11 (F := Ideal) x1 := by
  unfold wts Cert.ReferenceIdeal.ReadP.val_main_v11 Cert.ReferenceIdeal.ReadP.val_main_v6 Cert.ReferenceIdeal.ReadP.val_main_v10 Cert.ReferenceIdeal.ReadP.val_main_cst_1; rfl
theorem degs_v14 (x1 : (⟨Cert.ReferenceIdeal.S2x1600000, .i32⟩ : BufTy).Contents (Elt Ideal)) : degs (Cert.ReferenceIdeal.ReadP.val_main_v3 (F := Ideal) x1) (Cert.ReferenceIdeal.ReadP.val_main_v5 (F := Ideal) x1) = Cert.ReferenceIdeal.ReadP.val_main_v14 (F := Ideal) x1 := by
  unfold degs Cert.ReferenceIdeal.ReadP.val_main_v14 Cert.ReferenceIdeal.ReadP.val_main_v12 Cert.ReferenceIdeal.ReadP.val_main_cst_2 Cert.ReferenceIdeal.ReadP.val_main_v13
  rw [withLoops_v9, wts_v11]
  rfl

/-! ## The inverse square root of the degree where it is positive, 0 elsewhere -/

theorem st4_v18 (W : Valuation τ sig (Elt Ideal)) (y16 : IVec S100000 1) (y17 : FVec Ideal S100000 .f32) (y4 : FVec Ideal S_ .f32)
    (h16 : W (Proc.devRef .tc main_v16) = y16) (h17 : W (Proc.devRef .tc main_v17) = y17) (h4 : W (Proc.devRef .tc main_cst_4) = y4) :
    StableHlo.after hostOps0_3 W (Proc.devRef .tc main_v18) = select y16 y17 (broadcastInDim S100000 ![] bcast_S_S100000 (id y4)) := by
  after_results_simp
  simp only [h16, h17, h4]
  rfl
theorem select_v18 (x1 : (⟨Cert.ReferenceIdeal.S2x1600000, .i32⟩ : BufTy).Contents (Elt Ideal)) :
    (select (cmpf .ogt (Cert.ReferenceIdeal.ReadP.val_main_v14 (F := Ideal) x1) (broadcastInDim S100000 ![] bcast_S_S100000 (constant (F := Ideal) S_ .f32 0x00000000#32))) (Host.rsqrt (Cert.ReferenceIdeal.ReadP.val_main_v14 (F := Ideal) x1))
        (broadcastInDim S100000 ![] bcast_S_S100000 (id (Cert.ReferenceIdeal.ReadP.val_main_cst_4 (F := Ideal)))) : FVec Ideal S100000 .f32)
      = (Cert.ReferenceIdeal.ReadP.val_main_v18 (F := Ideal) x1 : FVec Ideal S100000 .f32) := by
  unfold Cert.ReferenceIdeal.ReadP.val_main_v18 Cert.ReferenceIdeal.ReadP.val_main_call1_v1 Cert.ReferenceIdeal.ReadP.val_main_call1_v0 Cert.ReferenceIdeal.ReadP.val_main_v16 Cert.ReferenceIdeal.ReadP.val_main_v17 Cert.ReferenceIdeal.ReadP.val_main_v15 Cert.ReferenceIdeal.ReadP.val_main_cst_3
  rfl

/-! ## The per-edge weight, and the transposed weight matrix -/
set_option maxHeartbeats 2000000 in
theorem st5_v34 (W : Valuation τ sig (Elt Ideal)) (x1 : (⟨Cert.ReferenceIdeal.S2x1600000, .i32⟩ : BufTy).Contents (Elt Ideal))
    (hv8 : W (Proc.devRef .tc main_v8) = Cert.ReferenceIdeal.ReadP.val_main_v8 (F := Ideal) x1) (hv9 : W (Proc.devRef .tc main_v9) = Cert.ReferenceIdeal.ReadP.val_main_v9 (F := Ideal) x1) (hv11 : W (Proc.devRef .tc main_v11) = Cert.ReferenceIdeal.ReadP.val_main_v11 (F := Ideal) x1) (hv18 : W (Proc.devRef .tc main_v18) = Cert.ReferenceIdeal.ReadP.val_main_v18 (F := Ideal) x1) :
    StableHlo.after hostOps0_4 W (Proc.devRef .tc main_v34) = Cert.ReferenceIdeal.ReadP.val_main_v34 (F := Ideal) x1 := by
  after_results_simp
  simp only [hv8, hv9, hv11, hv18]
  rfl
set_option maxHeartbeats 2000000 in
theorem st5_v35 (W : Valuation τ sig (Elt Ideal)) (x2 : (⟨Cert.ReferenceIdeal.S64x64, .f32⟩ : BufTy).Contents (Elt Ideal))
    (harg2 : W (Proc.devRef .tc main_arg2) = x2) :
    StableHlo.after hostOps0_4 W (Proc.devRef .tc main_v35) = Cert.ReferenceIdeal.ReadP.val_main_v35 (F := Ideal) x2 := by
  after_results_simp
  simp only [harg2]
  rfl

/-! ## The aggregation: gathered rows of the projected features, scaled per edge, scatter-added by target node -/

/-- The aggregation as a function of the projected features `h`, the two index rows with self-loops and the per-edge weight. -/
def aggK (h : FVec Ideal S100000x64 .f32) (y8 y9 : IVec S1700000 32) (y34 : FVec Ideal S1700000 .f32) : FVec Ideal S100000x64 .f32 :=
  Host.scatterAdd scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 y9)
    (mulf (Host.gather gather_S100000x64_S1700000x1_S1700000x64_1_0_n_n_0_1_164 h
        (broadcastInDim S1700000x1 ![0] bcast_S1700000_S1700000x1_0
          (select (cmpi .slt y8 (broadcastInDim S1700000 ![] bcast_S_S1700000 (constantI S_ 32 0#32)))
            (addi y8 (broadcastInDim S1700000 ![] bcast_S_S1700000 (constantI S_ 32 100000#32))) y8)))
      (broadcastInDim S1700000x64 ![0, 1] bcast_S1700000x1_S1700000x64_0_1 (broadcastInDim S1700000x1 ![0] bcast_S1700000_S1700000x1_0 y34)))

theorem st7_v49 (W : Valuation τ sig (Elt Ideal)) : StableHlo.after hostOps1 W (Proc.devRef .tc main_v49)
    = aggK (W (Proc.devRef .tc main_v36)) (W (Proc.devRef .tc main_v8)) (W (Proc.devRef .tc main_v9)) (W (Proc.devRef .tc main_v34)) := by
  after_results_simp
  rfl

theorem aggK_v49 (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal)) :
    aggK (Cert.ReferenceIdeal.ReadP.val_main_v36 (F := Ideal) x0 x2) (Cert.ReferenceIdeal.ReadP.val_main_v8 (F := Ideal) x1) (Cert.ReferenceIdeal.ReadP.val_main_v9 (F := Ideal) x1) (Cert.ReferenceIdeal.ReadP.val_main_v34 (F := Ideal) x1)
      = Cert.ReferenceIdeal.ReadP.val_main_v49 (F := Ideal) x0 x1 x2 := by
  unfold aggK Cert.ReferenceIdeal.ReadP.val_main_v49 Cert.ReferenceIdeal.ReadP.val_main_v47 Cert.ReferenceIdeal.ReadP.val_main_cst_10 Cert.ReferenceIdeal.ReadP.val_main_v48 Cert.ReferenceIdeal.ReadP.val_main_v46 Cert.ReferenceIdeal.ReadP.val_main_v43 Cert.ReferenceIdeal.ReadP.val_main_v42 Cert.ReferenceIdeal.ReadP.val_main_v41 Cert.ReferenceIdeal.ReadP.val_main_v38 Cert.ReferenceIdeal.ReadP.val_main_v37 Cert.ReferenceIdeal.ReadP.val_main_c_8 Cert.ReferenceIdeal.ReadP.val_main_v40 Cert.ReferenceIdeal.ReadP.val_main_v39 Cert.ReferenceIdeal.ReadP.val_main_c_9 Cert.ReferenceIdeal.ReadP.val_main_v45 Cert.ReferenceIdeal.ReadP.val_main_v44
  rfl

/-- A vector of 64 entries as a 1×64 row (the kernel's reshape). -/
def rowOf (y : FVec Ideal S64 .f32) : FVec Ideal S1x64 .f32 := fun i => shapeCast S1x64 y shapeCasts_S64_S1x64 i

theorem st7_v50 (W : Valuation τ sig (Elt Ideal)) : StableHlo.after hostOps1 W (Proc.devRef .tc main_v50) = rowOf (W (Proc.devRef .tc main_arg3)) := by
  after_results_simp
  rfl

/-! ## The mean and the variance from the two column sums; the scale and the shift as rows -/

/-- The column mean: the column sums over the count. -/
def meanK (s1 : FVec Ideal S1x64 .f32) : FVec Ideal S1x64 .f32 :=
  Host.divf s1 (broadcastInDim S1x64 ![] bcast_S_S1x64 (constant (F := Ideal) S_ .f32 0x47C35000#32))
/-- The variance as second moment minus squared mean. -/
def varK (s1 s2 : FVec Ideal S1x64 .f32) : FVec Ideal S1x64 .f32 :=
  subf (Host.divf s2 (broadcastInDim S1x64 ![] bcast_S_S1x64 (constant (F := Ideal) S_ .f32 0x47C35000#32))) (mulf (meanK s1) (meanK s1))

theorem st9_v53 (W : Valuation τ sig (Elt Ideal)) : StableHlo.after hostOps2 W (Proc.devRef .tc main_v53) = meanK (W (Proc.devRef .tc main_v51_0)) := by
  after_results_simp
  rfl
theorem st9_v57 (W : Valuation τ sig (Elt Ideal)) : StableHlo.after hostOps2 W (Proc.devRef .tc main_v57)
    = varK (W (Proc.devRef .tc main_v51_0)) (W (Proc.devRef .tc main_v51_1)) := by
  after_results_simp
  rfl
theorem st9_v58 (W : Valuation τ sig (Elt Ideal)) : StableHlo.after hostOps2 W (Proc.devRef .tc main_v58) = rowOf (W (Proc.devRef .tc main_arg4)) := by
  after_results_simp
  rfl
theorem st9_v59 (W : Valuation τ sig (Elt Ideal)) : StableHlo.after hostOps2 W (Proc.devRef .tc main_v59) = rowOf (W (Proc.devRef .tc main_arg5)) := by
  after_results_simp
  rfl

end Cert.KernelIdeal.HandValue

end
-- ==== Proof.KV0.lean ====
/-
  The first kernel region's output block at an index: the product of the staged block of rows with the staged
  weight, entry (r, q) being the sum over k of x0[r, k] · x1[k, q]. The body's one store covers the block, the two
  loads read their buffers whole, the narrowing of the operands is the identity at the extended reals, and the
  matrix product into a zero accumulator is the plain contraction.
-/
import proofs.«177960_j69157563400217_1_alg».proof.Proof.KF0
import Idealize.ShloMosaic.Lib.Pipeline.Value
import Idealize.ShloMosaic.Lib.ValueIdx
import Idealize.ShloMosaic.PureOps.Ideal.Laws

namespace Cert.KernelIdeal.HandValue

open Cert.KernelIdeal Cert.KernelIdeal.Gen Cert.KernelIdeal.Hand Idealize.ShloMosaic

/-- The offsets of a whole-buffer access of rank 2 are zero. -/
theorem zero_off2 : (![0, 0] : Fin 2 → Nat) = fun _ => 0 := funext fun a => by
  match a with
  | ⟨0, _⟩ => rfl
  | ⟨1, _⟩ => rfl

/-- The left operand is read at the output's row … -/
theorem lhs_row (i : S2000x64.Idx) (c : dot_S2000x64_S64x64_S2000x64_1_0_0_1_n_n.contr.Idx) : (dot_S2000x64_S64x64_S2000x64_1_0_0_1_n_n.lhsIdx i c 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- … and the contraction coordinate; -/
theorem lhs_col (i : S2000x64.Idx) (c : dot_S2000x64_S64x64_S2000x64_1_0_0_1_n_n.contr.Idx) : (dot_S2000x64_S64x64_S2000x64_1_0_0_1_n_n.lhsIdx i c 1).val = (c ⟨0, by decide⟩).val :=
  dot_S2000x64_S64x64_S2000x64_1_0_0_1_n_n.lhsIdx_val_of_single rfl i c
/-- the right operand at the contraction coordinate … -/
theorem rhs_row (i : S2000x64.Idx) (c : dot_S2000x64_S64x64_S2000x64_1_0_0_1_n_n.contr.Idx) : (dot_S2000x64_S64x64_S2000x64_1_0_0_1_n_n.rhsIdx i c 0).val = (c ⟨0, by decide⟩).val :=
  dot_S2000x64_S64x64_S2000x64_1_0_0_1_n_n.rhsIdx_val_of_single rfl i c
/-- … and the output's column. -/
theorem rhs_col (i : S2000x64.Idx) (c : dot_S2000x64_S64x64_S2000x64_1_0_0_1_n_n.contr.Idx) : (dot_S2000x64_S64x64_S2000x64_1_0_0_1_n_n.rhsIdx i c 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The matrix-product payload at an index. -/
theorem k0_pay1_apply (v0 : Vec Ideal S2000x64 .f32) (v2 : Vec Ideal S64x64 .f32) (r : Fin 2000) (q : Fin 64) :
    k0_pay1 (F := Ideal) v0 v2 (ValueIdx.ix2 r q) = ∑ k : Fin 64, v0 (ValueIdx.ix2 r k) * v2 (ValueIdx.ix2 k q) := by
  unfold k0_pay1
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ValueIdx.ix2 r q) ((ValueIdx.contrEquiv1 dot_S2000x64_S64x64_S2000x64_1_0_0_1_n_n 64 rfl rfl).symm k) = ValueIdx.ix2 r k := funext fun a => Fin.ext (by
    match a with
    | ⟨0, _⟩ => exact lhs_row _ _
    | ⟨1, _⟩ => exact (lhs_col _ _).trans hk)
  have er : dot_S2000x64_S64x64_S2000x64_1_0_0_1_n_n.rhsIdx (ValueIdx.ix2 r q) ((ValueIdx.contrEquiv1 dot_S2000x64_S64x64_S2000x64_1_0_0_1_n_n 64 rfl rfl).symm k) = ValueIdx.ix2 k q := funext fun a => Fin.ext (by
    match a with
    | ⟨0, _⟩ => exact (rhs_row _ _).trans hk
    | ⟨1, _⟩ => exact rhs_col _ _)
  rw [el, er, ValueIdx.truncf_apply, ValueIdx.truncf_apply, shapeCast_self]

/-- The output block after the body, at an index. -/
theorem out0_2_apply (x0 : Vec Ideal S2000x64 .f32) (x1 : Vec Ideal S64x64 .f32) (r : Fin 2000) (q : Fin 64) :
    out0_2 (F := Ideal) x0 x1 (ValueIdx.ix2 r q) = ∑ k : Fin 64, x0 (ValueIdx.ix2 r k) * x1 (ValueIdx.ix2 k q) := by
  unfold out0_2
  rw [View.canon_unit_zero zero_off2]
  simp only [View.ld_unit_zero (S := S2000x64) zero_off2, View.ld_unit_zero (S := S64x64) zero_off2]
  exact k0_pay1_apply x0 x1 r q

end Cert.KernelIdeal.HandValue
-- ==== Proof.KA0.lean ====
/-
  From blocks to the array, for the linear layer: every grid point writes back the block of 2000 rows it computed,
  the blocks tile the 100000 rows, and the entry (r, q) of the block at point t is the entry (2000·t + r, q) of the
  product of the whole input with the weight; so the array after the last point is that product, index by index.
-/
import proofs.«177960_j69157563400217_1_alg».proof.Proof.KF0
import proofs.«177960_j69157563400217_1_alg».proof.Proof.KV0
import Idealize.ShloMosaic.Lib.Pipeline.Value
import Idealize.ShloMosaic.Lib.ValueIdx

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The product of the rows with the weight, as one function of the whole arrays. -/
abbrev linearOf (a : S100000x64.Idx → EReal) (w : S64x64.Idx → EReal) : S100000x64.Idx → EReal :=
  fun i => ∑ k : Fin 64, a (ValueIdx.ix2 (i 0) k) * w (ValueIdx.ix2 k (i 1))

/-- The printed index maps over the grid: the row blocks move with the point, the weight stays. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The output block after the body at any index of the block. -/
theorem out0_2_at (x0 : Vec Ideal S2000x64 .f32) (x1 : Vec Ideal S64x64 .f32) (j : S2000x64.Idx) :
    out0_2 (F := Ideal) x0 x1 j = ∑ k : Fin 64, x0 (ValueIdx.ix2 (j 0) k) * x1 (ValueIdx.ix2 k (j 1)) := by
  obtain ⟨r, q, rfl⟩ : ∃ (r : Fin 2000) (q : Fin 64), j = ValueIdx.ix2 r q := ⟨j 0, j 1, ValueIdx.eq_ix2 j⟩
  exact out0_2_apply x0 x1 r q

/-- What point `t` writes back is block `t` of the product of the arrays as the region finds them. -/
theorem flushed_linear (c : Dev nD) (t : Fin cfg0.N) :
    (dat0 (F := Ideal) V c).flushed 2 t = ((cfg0.win 2).blk t).view.read (Elt Ideal) (linearOf (V c main_arg0) (V c main_v35)) := by
  show (cfg0.win 2).cut (grid0.coords t) ((dat0 (F := Ideal) V c).after 2 t) = _
  rw [after0_2]
  obtain ⟨e00, e01, e10, e11, e20, e21⟩ := block_index0 t
  refine funext fun (j : S2000x64.Idx) => ?_
  show out0_2 (F := Ideal) (iblk0 V c 0 t) (iblk0 V c 1 t) j = linearOf (V c main_arg0) (V c main_v35) (((cfg0.win 2).blk t).view.emb j)
  refine (out0_2_at (iblk0 V c 0 t) (iblk0 V c 1 t) j).trans ?_
  refine Finset.sum_congr rfl fun k _ => ?_
  have h0 : ((cfg0.win 0).blk t).view.emb (ValueIdx.ix2 (j 0) k) = ValueIdx.ix2 ((((cfg0.win 2).blk t).view.emb j) 0) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 64 + 1 * k.val = k.val; omega
  have h1 : ((cfg0.win 1).blk t).view.emb (ValueIdx.ix2 k (j 1)) = ValueIdx.ix2 k ((((cfg0.win 2).blk t).view.emb j) 1) := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  refine congrArg₂ (· * ·) ?_ ?_
  · exact congrArg (V c main_arg0) h0
  · exact congrArg (V c main_v35) h1

/-- An index of the array is in point `t`'s block iff each coordinate is in the block's range on its axis. -/
theorem mem_block0 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v36).slice (win0_2.rect t)).set ↔ _
  rw [View.set_slice_whole, Rect.mem_set_unit]
  exact Iff.rfl

/-- Row `p` of the array is in the block of point `p / 2000`: the blocks cover the array. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, e20, e21⟩ := block_index0 t
  refine ⟨t, flush0_2 t, ?_⟩
  rw [mem_block0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The output array after the last point: the product of the input with the weight, index by index. -/
theorem linear_array (c : Dev nD) : (dat0 (F := Ideal) V c).arrAt 2 cfg0.N = linearOf (V c main_arg0) (V c main_v35) :=
  (dat0 (F := Ideal) V c).arrAt_eq_of_cover 2 (linearOf (V c main_arg0) (V c main_v35)) (fun t _ => flushed_linear V c t) cover0

end Cert.KernelIdeal.HandValue

end
-- ==== Proof.KV1p.lean ====
/-
  The second kernel region's body, read back: what its stores leave in the two accumulators and the two results,
  as the body's payloads of the loaded blocks, for any float interpretation.

  At the first grid point the body zeroes both accumulators, then adds to the first the column sums of the block
  plus bias and to the second the column sums of its squares, and copies the accumulators into the results; at a
  later point it does the same without the zeroing, the accumulators entering at what the point before left. Every
  access is of a whole buffer, so a load after a store reads that store's payload and the last store to a buffer
  is what the buffer holds.
-/
import proofs.«177960_j69157563400217_1_alg».proof.Proof.KF1a
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.HandValue

open Cert.KernelIdeal Cert.KernelIdeal.Gen Cert.KernelIdeal.Hand Idealize.ShloMosaic
open Idealize.ShloMosaic.TcCoe Idealize.ShloMosaic.Tactic Idealize.SL.Sem

variable {F : FTy → Type} [FloatOps F]

/-- The offsets of a whole-buffer access of rank 2 are zero. -/
theorem zero_off : (![0, 0] : Fin 2 → Nat) = fun _ => 0 := funext fun a => by
  match a with
  | ⟨0, _⟩ => rfl
  | ⟨1, _⟩ => rfl

/-- A whole-buffer load after a list of stores whose LAST is a whole-buffer store reads that store's payload. -/
theorem readCov_last_whole {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-! ## The first point -/

/-- The first accumulator after the first point: the column sums added to the zero row. -/
theorem accA_0 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) (v : View sig .tc .vmem S1x64 .f32) (f : v.ty.Contents (Elt F)) :
    v.read (Elt F) (v.writes (Elt F) f (kernelRun1_A c i arg1 harg1 arg2 harg2 arg3 harg3 arg4 harg4 arg5 harg5 arg6 harg6 hc x0 x1).2.2.1) = k1_pay4 x0 x1 (k1_pay1 (F := F)) := by
  rw [View.read_writes_eq_canon _ _ _ (View.cover_of_tiledL (kernelRun1_A c i arg1 harg1 arg2 harg2 arg3 harg3 arg4 harg4 arg5 harg5 arg6 harg6 hc x0 x1).2.2.1 S1x64.size (by sl_kernel_rfl))]
  unfold kernelRun1_A
  dsimp only
  sl_unfold_words
  rw [View.canon_cons_unit_zero (S := S1x64) zero_off, View.readCov_unit_zero (S := S1x64) _ zero_off]
  simp only [View.readAt_eq_ld, harg1.read_unread, harg2.read_unread, View.ld_unit_zero (S := S2000x64) zero_off, View.ld_unit_zero (S := S1x64) zero_off]

/-- The second accumulator after the first point: the column sums of squares added to the zero row. -/
theorem accA_1 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) (v : View sig .tc .vmem S1x64 .f32) (f : v.ty.Contents (Elt F)) :
    v.read (Elt F) (v.writes (Elt F) f (kernelRun1_A c i arg1 harg1 arg2 harg2 arg3 harg3 arg4 harg4 arg5 harg5 arg6 harg6 hc x0 x1).2.2.2.1) = k1_pay5 x0 x1 (k1_pay2 (F := F)) := by
  rw [View.read_writes_eq_canon _ _ _ (View.cover_of_tiledL (kernelRun1_A c i arg1 harg1 arg2 harg2 arg3 harg3 arg4 harg4 arg5 harg5 arg6 harg6 hc x0 x1).2.2.2.1 S1x64.size (by sl_kernel_rfl))]
  unfold kernelRun1_A
  dsimp only
  sl_unfold_words
  rw [View.canon_cons_unit_zero (S := S1x64) zero_off, View.readCov_unit_zero (S := S1x64) _ zero_off]
  simp only [View.readAt_eq_ld, harg1.read_unread, harg2.read_unread, View.ld_unit_zero (S := S2000x64) zero_off, View.ld_unit_zero (S := S1x64) zero_off]

/-- The first result after the first point: a copy of the first accumulator. -/
theorem resA_2 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) (v : View sig .tc .vmem S1x64 .f32) (f : v.ty.Contents (Elt F)) :
    v.read (Elt F) (v.writes (Elt F) f (kernelRun1_A c i arg1 harg1 arg2 harg2 arg3 harg3 arg4 harg4 arg5 harg5 arg6 harg6 hc x0 x1).1) = k1_pay4 x0 x1 (k1_pay1 (F := F)) := by
  rw [View.read_writes_eq_canon _ _ _ (View.cover_of_tiledL (kernelRun1_A c i arg1 harg1 arg2 harg2 arg3 harg3 arg4 harg4 arg5 harg5 arg6 harg6 hc x0 x1).1 S1x64.size (by sl_kernel_rfl))]
  unfold kernelRun1_A
  dsimp only
  sl_unfold_words
  rw [View.canon_unit_zero (S := S1x64) zero_off, readCov_last_whole (S := S1x64) _ zero_off, View.readCov_unit_zero (S := S1x64) _ zero_off]
  simp only [View.readAt_eq_ld, harg1.read_unread, harg2.read_unread, View.ld_unit_zero (S := S2000x64) zero_off, View.ld_unit_zero (S := S1x64) zero_off]

/-- The second result after the first point: a copy of the second accumulator. -/
theorem resA_3 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec F S2000x64 .f32) (x1 : Vec F S1x64 .f32) (v : View sig .tc .vmem S1x64 .f32) (f : v.ty.Contents (Elt F)) :
    v.read (Elt F) (v.writes (Elt F) f (kernelRun1_A c i arg1 harg1 arg2 harg2 arg3 harg3 arg4 harg4 arg5 harg5 arg6 harg6 hc x0 x1).2.1) = k1_pay5 x0 x1 (k1_pay2 (F := F)) := by
  rw [View.read_writes_eq_canon _ _ _ (View.cover_of_tiledL (kernelRun1_A c i arg1 harg1 arg2 harg2 arg3 harg3 arg4 harg4 arg5 harg5 arg6 harg6 hc x0 x1).2.1 S1x64.size (by sl_kernel_rfl))]
  unfold kernelRun1_A
  dsimp only
  sl_unfold_words
  rw [View.canon_unit_zero (S := S1x64) zero_off, readCov_last_whole (S := S1x64) _ zero_off, View.readCov_unit_zero (S := S1x64) _ zero_off]
  simp only [View.readAt_eq_ld, harg1.read_unread, harg2.read_unread, View.ld_unit_zero (S := S2000x64) zero_off, View.ld_unit_zero (S := S1x64) zero_off]

/-! ## A later point -/

/-- The first accumulator after a later point: the column sums added to what it held. -/
theorem accB_0 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) (v : View sig .tc .vmem S1x64 .f32) (f : v.ty.Contents (Elt F)) :
    v.read (Elt F) (v.writes (Elt F) f (kernelRun1_B c i arg1 harg1 arg2 harg2 arg3 harg3 arg4 harg4 arg5 harg5 arg6 harg6 hc x0 x1 xs0 xs1).2.2.1) = k1_pay4 x0 x1 xs0 := by
  rw [View.read_writes_eq_canon _ _ _ (View.cover_of_tiledL (kernelRun1_B c i arg1 harg1 arg2 harg2 arg3 harg3 arg4 harg4 arg5 harg5 arg6 harg6 hc x0 x1 xs0 xs1).2.2.1 S1x64.size (by sl_kernel_rfl))]
  unfold kernelRun1_B
  dsimp only
  sl_unfold_words
  rw [View.canon_unit_zero (S := S1x64) zero_off]
  simp only [View.readAt_eq_ld, harg1.read_unread, harg2.read_unread, harg5.read_unread, harg6.read_unread, View.ld_unit_zero (S := S2000x64) zero_off, View.ld_unit_zero (S := S1x64) zero_off]

/-- The second accumulator after a later point: the column sums of squares added to what it held. -/
theorem accB_1 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) (v : View sig .tc .vmem S1x64 .f32) (f : v.ty.Contents (Elt F)) :
    v.read (Elt F) (v.writes (Elt F) f (kernelRun1_B c i arg1 harg1 arg2 harg2 arg3 harg3 arg4 harg4 arg5 harg5 arg6 harg6 hc x0 x1 xs0 xs1).2.2.2.1) = k1_pay5 x0 x1 xs1 := by
  rw [View.read_writes_eq_canon _ _ _ (View.cover_of_tiledL (kernelRun1_B c i arg1 harg1 arg2 harg2 arg3 harg3 arg4 harg4 arg5 harg5 arg6 harg6 hc x0 x1 xs0 xs1).2.2.2.1 S1x64.size (by sl_kernel_rfl))]
  unfold kernelRun1_B
  dsimp only
  sl_unfold_words
  rw [View.canon_unit_zero (S := S1x64) zero_off]
  simp only [View.readAt_eq_ld, harg1.read_unread, harg2.read_unread, harg5.read_unread, harg6.read_unread, View.ld_unit_zero (S := S2000x64) zero_off, View.ld_unit_zero (S := S1x64) zero_off]

/-- The first result after a later point: a copy of the first accumulator. -/
theorem resB_2 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) (v : View sig .tc .vmem S1x64 .f32) (f : v.ty.Contents (Elt F)) :
    v.read (Elt F) (v.writes (Elt F) f (kernelRun1_B c i arg1 harg1 arg2 harg2 arg3 harg3 arg4 harg4 arg5 harg5 arg6 harg6 hc x0 x1 xs0 xs1).1) = k1_pay4 x0 x1 xs0 := by
  rw [View.read_writes_eq_canon _ _ _ (View.cover_of_tiledL (kernelRun1_B c i arg1 harg1 arg2 harg2 arg3 harg3 arg4 harg4 arg5 harg5 arg6 harg6 hc x0 x1 xs0 xs1).1 S1x64.size (by sl_kernel_rfl))]
  unfold kernelRun1_B
  dsimp only
  sl_unfold_words
  rw [View.canon_unit_zero (S := S1x64) zero_off, View.readCov_unit_zero (S := S1x64) _ zero_off]
  simp only [View.readAt_eq_ld, harg1.read_unread, harg2.read_unread, harg5.read_unread, harg6.read_unread, View.ld_unit_zero (S := S2000x64) zero_off, View.ld_unit_zero (S := S1x64) zero_off]

/-- The second result after a later point: a copy of the second accumulator. -/
theorem resB_3 (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec F S2000x64 .f32) (x1 : Vec F S1x64 .f32) (xs0 xs1 : Vec F S1x64 .f32) (v : View sig .tc .vmem S1x64 .f32) (f : v.ty.Contents (Elt F)) :
    v.read (Elt F) (v.writes (Elt F) f (kernelRun1_B c i arg1 harg1 arg2 harg2 arg3 harg3 arg4 harg4 arg5 harg5 arg6 harg6 hc x0 x1 xs0 xs1).2.1) = k1_pay5 x0 x1 xs1 := by
  rw [View.read_writes_eq_canon _ _ _ (View.cover_of_tiledL (kernelRun1_B c i arg1 harg1 arg2 harg2 arg3 harg3 arg4 harg4 arg5 harg5 arg6 harg6 hc x0 x1 xs0 xs1).2.1 S1x64.size (by sl_kernel_rfl))]
  unfold kernelRun1_B
  dsimp only
  sl_unfold_words
  rw [View.canon_unit_zero (S := S1x64) zero_off, View.readCov_unit_zero (S := S1x64) _ zero_off]
  simp only [View.readAt_eq_ld, harg1.read_unread, harg2.read_unread, harg5.read_unread, harg6.read_unread, View.ld_unit_zero (S := S2000x64) zero_off, View.ld_unit_zero (S := S1x64) zero_off]

end Cert.KernelIdeal.HandValue

end
-- ==== Proof.KV1.lean ====
/-
  The second kernel region's body at the extended reals, read at an index. Writing v r q := x0[r, q] + x1[0, q]
  for the staged block plus the bias row: after the first grid point the first accumulator holds, at column q,
  0 + ∑ r, v r q and the second 0 + ∑ r, v r q · v r q (the zero being the float word of +0.0); after a later point
  they hold what they held plus the same two sums; and in both cases the two results hold copies of the two
  accumulators. The column sum is the reduction over the rows read at the extended reals; a row broadcast over the
  rows reads the row at the column.
-/
import proofs.«177960_j69157563400217_1_alg».proof.Proof.KV1p
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand Idealize.ShloMosaic

/-! ## The payloads at an index -/

/-- The sum over the rows of a 2000×64 block, at column q. -/
theorem colsum_apply (src : FVec Ideal S2000x64 .f32) (hφ : FKind.Formats .f32)
    (hacc : (0x00000000#32 : BitVec 32) = FKind.add.neutral .f32 hφ) (q : Fin 64) :
    multiReduction .add [0] S64 src 0x00000000#32 reduces_S2000x64_S64 hφ hacc (ValueIdx.ix1 q)
      = ∑ r : Fin 2000, src (ValueIdx.ix2 r q) := by
  refine (Ideal.multiReduction_add_single src 0x00000000#32 reduces_S2000x64_S64 hφ hacc (ValueIdx.ix1 q)).trans ?_
  refine Finset.sum_congr rfl fun r _ => congrArg src ?_
  funext a
  apply Fin.ext
  match a with
  | ⟨0, _⟩ => rfl
  | ⟨1, _⟩ => rfl

/-- The zero row the first accumulator is reset to. -/
theorem k1_pay1_apply (q : Fin 64) : k1_pay1 (F := Ideal) (ValueIdx.ix2 0 q) = Ideal.ofBits .f32 0x00000000#32 := by
  unfold k1_pay1
  simp only [shapeCast_self]
  rfl

/-- The zero row the second accumulator is reset to. -/
theorem k1_pay2_apply (q : Fin 64) : k1_pay2 (F := Ideal) (ValueIdx.ix2 0 q) = Ideal.ofBits .f32 0x00000000#32 := by
  unfold k1_pay2
  simp only [shapeCast_self]
  rfl

/-- The block plus the bias row. -/
theorem k1_pay3_apply (v3 : Vec Ideal S2000x64 .f32) (v5 : Vec Ideal S1x64 .f32) (r : Fin 2000) (q : Fin 64) :
    k1_pay3 (F := Ideal) v3 v5 (ValueIdx.ix2 r q) = v3 (ValueIdx.ix2 r q) + v5 (ValueIdx.ix2 0 q) := by
  unfold k1_pay3
  simp only [shapeCast_self]
  rw [ValueIdx.addf_apply, ValueIdx.broadcastTo_1b_ab_apply]

/-- The first accumulator's update: what it held plus the column sum. -/
theorem k1_pay4_apply (v3 : Vec Ideal S2000x64 .f32) (v5 v9 : Vec Ideal S1x64 .f32) (q : Fin 64) :
    k1_pay4 (F := Ideal) v3 v5 v9 (ValueIdx.ix2 0 q)
      = v9 (ValueIdx.ix2 0 q) + ∑ r : Fin 2000, (v3 (ValueIdx.ix2 r q) + v5 (ValueIdx.ix2 0 q)) := by
  unfold k1_pay4
  simp only [shapeCast_self]
  rw [ValueIdx.addf_apply, ValueIdx.shapeCast_a_1a_apply]
  refine congrArg (v9 (ValueIdx.ix2 0 q) + ·) ?_
  refine (colsum_apply _ _ _ q).trans ?_
  exact Finset.sum_congr rfl fun r _ => k1_pay3_apply v3 v5 r q

/-- The second accumulator's update: what it held plus the column sum of squares. -/
theorem k1_pay5_apply (v3 : Vec Ideal S2000x64 .f32) (v5 v16 : Vec Ideal S1x64 .f32) (q : Fin 64) :
    k1_pay5 (F := Ideal) v3 v5 v16 (ValueIdx.ix2 0 q)
      = v16 (ValueIdx.ix2 0 q) + ∑ r : Fin 2000, (v3 (ValueIdx.ix2 r q) + v5 (ValueIdx.ix2 0 q)) * (v3 (ValueIdx.ix2 r q) + v5 (ValueIdx.ix2 0 q)) := by
  unfold k1_pay5
  simp only [shapeCast_self]
  rw [ValueIdx.addf_apply, ValueIdx.shapeCast_a_1a_apply]
  refine congrArg (v16 (ValueIdx.ix2 0 q) + ·) ?_
  refine (colsum_apply _ _ _ q).trans ?_
  refine Finset.sum_congr rfl fun r _ => ?_
  rw [ValueIdx.mulf_apply, k1_pay3_apply]

/-! ## The first point, at an index -/

/-- The first accumulator after the first point. -/
theorem run1_A_acc0_apply (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec Ideal S2000x64 .f32) (x1 : Vec Ideal S1x64 .f32) (q : Fin 64) :
    VS1_0.read (Elt Ideal) (VS1_0.writes (Elt Ideal) VS1_0.junk (kernelRun1_A (F := Ideal) c i arg1 harg1 arg2 harg2 arg3 harg3 arg4 harg4 arg5 harg5 arg6 harg6 hc x0 x1).2.2.1) (ValueIdx.ix2 0 q)
      = Ideal.ofBits .f32 0x00000000#32 + ∑ r : Fin 2000, (x0 (ValueIdx.ix2 r q) + x1 (ValueIdx.ix2 0 q)) := by
  rw [accA_0 c i arg1 harg1 arg2 harg2 arg3 harg3 arg4 harg4 arg5 harg5 arg6 harg6 hc x0 x1 VS1_0 VS1_0.junk, k1_pay4_apply, k1_pay1_apply]

/-- The second accumulator after the first point. -/
theorem run1_A_acc1_apply (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec Ideal S2000x64 .f32) (x1 : Vec Ideal S1x64 .f32) (q : Fin 64) :
    VS1_1.read (Elt Ideal) (VS1_1.writes (Elt Ideal) VS1_1.junk (kernelRun1_A (F := Ideal) c i arg1 harg1 arg2 harg2 arg3 harg3 arg4 harg4 arg5 harg5 arg6 harg6 hc x0 x1).2.2.2.1) (ValueIdx.ix2 0 q)
      = Ideal.ofBits .f32 0x00000000#32 + ∑ r : Fin 2000, (x0 (ValueIdx.ix2 r q) + x1 (ValueIdx.ix2 0 q)) * (x0 (ValueIdx.ix2 r q) + x1 (ValueIdx.ix2 0 q)) := by
  rw [accA_1 c i arg1 harg1 arg2 harg2 arg3 harg3 arg4 harg4 arg5 harg5 arg6 harg6 hc x0 x1 VS1_1 VS1_1.junk, k1_pay5_apply, k1_pay2_apply]

/-- The first result after the first point: the first accumulator's value. -/
theorem run1_A_res2_apply (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec Ideal S2000x64 .f32) (x1 : Vec Ideal S1x64 .f32) (q : Fin 64) :
    VO1_2.read (Elt Ideal) (VO1_2.writes (Elt Ideal) VO1_2.junk (kernelRun1_A (F := Ideal) c i arg1 harg1 arg2 harg2 arg3 harg3 arg4 harg4 arg5 harg5 arg6 harg6 hc x0 x1).1) (ValueIdx.ix2 0 q)
      = Ideal.ofBits .f32 0x00000000#32 + ∑ r : Fin 2000, (x0 (ValueIdx.ix2 r q) + x1 (ValueIdx.ix2 0 q)) := by
  rw [resA_2 c i arg1 harg1 arg2 harg2 arg3 harg3 arg4 harg4 arg5 harg5 arg6 harg6 hc x0 x1 VO1_2 VO1_2.junk, k1_pay4_apply, k1_pay1_apply]

/-- The second result after the first point: the second accumulator's value. -/
theorem run1_A_res3_apply (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : cond1 i)
    (x0 : Vec Ideal S2000x64 .f32) (x1 : Vec Ideal S1x64 .f32) (q : Fin 64) :
    VO1_3.read (Elt Ideal) (VO1_3.writes (Elt Ideal) VO1_3.junk (kernelRun1_A (F := Ideal) c i arg1 harg1 arg2 harg2 arg3 harg3 arg4 harg4 arg5 harg5 arg6 harg6 hc x0 x1).2.1) (ValueIdx.ix2 0 q)
      = Ideal.ofBits .f32 0x00000000#32 + ∑ r : Fin 2000, (x0 (ValueIdx.ix2 r q) + x1 (ValueIdx.ix2 0 q)) * (x0 (ValueIdx.ix2 r q) + x1 (ValueIdx.ix2 0 q)) := by
  rw [resA_3 c i arg1 harg1 arg2 harg2 arg3 harg3 arg4 harg4 arg5 harg5 arg6 harg6 hc x0 x1 VO1_3 VO1_3.junk, k1_pay5_apply, k1_pay2_apply]

/-! ## A later point, at an index -/

/-- The first accumulator after a later point. -/
theorem run1_B_acc0_apply (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec Ideal S2000x64 .f32) (x1 : Vec Ideal S1x64 .f32) (xs0 xs1 : Vec Ideal S1x64 .f32) (q : Fin 64) :
    VS1_0.read (Elt Ideal) (VS1_0.writes (Elt Ideal) VS1_0.junk (kernelRun1_B (F := Ideal) c i arg1 harg1 arg2 harg2 arg3 harg3 arg4 harg4 arg5 harg5 arg6 harg6 hc x0 x1 xs0 xs1).2.2.1) (ValueIdx.ix2 0 q)
      = xs0 (ValueIdx.ix2 0 q) + ∑ r : Fin 2000, (x0 (ValueIdx.ix2 r q) + x1 (ValueIdx.ix2 0 q)) := by
  rw [accB_0 c i arg1 harg1 arg2 harg2 arg3 harg3 arg4 harg4 arg5 harg5 arg6 harg6 hc x0 x1 xs0 xs1 VS1_0 VS1_0.junk, k1_pay4_apply]

/-- The second accumulator after a later point. -/
theorem run1_B_acc1_apply (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec Ideal S2000x64 .f32) (x1 : Vec Ideal S1x64 .f32) (xs0 xs1 : Vec Ideal S1x64 .f32) (q : Fin 64) :
    VS1_1.read (Elt Ideal) (VS1_1.writes (Elt Ideal) VS1_1.junk (kernelRun1_B (F := Ideal) c i arg1 harg1 arg2 harg2 arg3 harg3 arg4 harg4 arg5 harg5 arg6 harg6 hc x0 x1 xs0 xs1).2.2.2.1) (ValueIdx.ix2 0 q)
      = xs1 (ValueIdx.ix2 0 q) + ∑ r : Fin 2000, (x0 (ValueIdx.ix2 r q) + x1 (ValueIdx.ix2 0 q)) * (x0 (ValueIdx.ix2 r q) + x1 (ValueIdx.ix2 0 q)) := by
  rw [accB_1 c i arg1 harg1 arg2 harg2 arg3 harg3 arg4 harg4 arg5 harg5 arg6 harg6 hc x0 x1 xs0 xs1 VS1_1 VS1_1.junk, k1_pay5_apply]

/-- The first result after a later point: the first accumulator's value. -/
theorem run1_B_res2_apply (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec Ideal S2000x64 .f32) (x1 : Vec Ideal S1x64 .f32) (xs0 xs1 : Vec Ideal S1x64 .f32) (q : Fin 64) :
    VO1_2.read (Elt Ideal) (VO1_2.writes (Elt Ideal) VO1_2.junk (kernelRun1_B (F := Ideal) c i arg1 harg1 arg2 harg2 arg3 harg3 arg4 harg4 arg5 harg5 arg6 harg6 hc x0 x1 xs0 xs1).1) (ValueIdx.ix2 0 q)
      = xs0 (ValueIdx.ix2 0 q) + ∑ r : Fin 2000, (x0 (ValueIdx.ix2 r q) + x1 (ValueIdx.ix2 0 q)) := by
  rw [resB_2 c i arg1 harg1 arg2 harg2 arg3 harg3 arg4 harg4 arg5 harg5 arg6 harg6 hc x0 x1 xs0 xs1 VO1_2 VO1_2.junk, k1_pay4_apply]

/-- The second result after a later point: the second accumulator's value. -/
theorem run1_B_res3_apply (c : Dev nD) (i : grid1.Coords) (arg1 : Memref sig .tc .vmem S2000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole) (hc : ¬cond1 i)
    (x0 : Vec Ideal S2000x64 .f32) (x1 : Vec Ideal S1x64 .f32) (xs0 xs1 : Vec Ideal S1x64 .f32) (q : Fin 64) :
    VO1_3.read (Elt Ideal) (VO1_3.writes (Elt Ideal) VO1_3.junk (kernelRun1_B (F := Ideal) c i arg1 harg1 arg2 harg2 arg3 harg3 arg4 harg4 arg5 harg5 arg6 harg6 hc x0 x1 xs0 xs1).2.1) (ValueIdx.ix2 0 q)
      = xs1 (ValueIdx.ix2 0 q) + ∑ r : Fin 2000, (x0 (ValueIdx.ix2 r q) + x1 (ValueIdx.ix2 0 q)) * (x0 (ValueIdx.ix2 r q) + x1 (ValueIdx.ix2 0 q)) := by
  rw [resB_3 c i arg1 harg1 arg2 harg2 arg3 harg3 arg4 harg4 arg5 harg5 arg6 harg6 hc x0 x1 xs0 xs1 VO1_3 VO1_3.junk, k1_pay5_apply]

end Cert.KernelIdeal.HandValue

end
-- ==== Proof.LibBlockSums.lean ====
import Mathlib.Algebra.BigOperators.Fin
import Mathlib.Algebra.BigOperators.Intervals
import Mathlib.Logic.Equiv.Fin.Basic
import Mathlib.Data.Fintype.BigOperators

/-!
# A sum taken block by block, accumulated in order from zero

A family `f` over `Fin n` is cut into consecutive blocks of `bs` terms. `blockSum bs f k` is the sum of
block `k` (the terms at positions `bs * k`, …, `bs * k + bs - 1`; a position past the end contributes `0`),
and `runSum bs f k` is what an accumulator holds after block `k` when it starts from zero and adds one block
at a time: `((0 + B₀) + B₁) + ⋯ + B_k`. In an additive commutative monoid the order and the grouping do not
matter: after the last of `nb` blocks of a family over `Fin (nb * bs)` the accumulator holds the whole sum.
-/

namespace BlockSums

variable {M : Type*} [AddCommMonoid M]

/-- The sum of block `k`: the `bs` terms starting at position `bs * k`. -/
def blockSum {n : ℕ} (bs : ℕ) (f : Fin n → M) (k : ℕ) : M :=
  ∑ j : Fin bs, if h : j.val + bs * k < n then f ⟨j.val + bs * k, h⟩ else 0

/-- The accumulator after block `k`: zero, then one block added at a time, in order. -/
def runSum {n : ℕ} (bs : ℕ) (f : Fin n → M) : ℕ → M
  | 0 => 0 + blockSum bs f 0
  | k + 1 => runSum bs f k + blockSum bs f (k + 1)

theorem runSum_zero {n : ℕ} (bs : ℕ) (f : Fin n → M) : runSum bs f 0 = 0 + blockSum bs f 0 := rfl

theorem runSum_succ {n : ℕ} (bs : ℕ) (f : Fin n → M) (k : ℕ) :
    runSum bs f (k + 1) = runSum bs f k + blockSum bs f (k + 1) := rfl

/-- The accumulator after block `k` is the sum of the blocks `0, …, k`. -/
theorem runSum_eq_sum_range {n : ℕ} (bs : ℕ) (f : Fin n → M) (k : ℕ) :
    runSum bs f k = ∑ p ∈ Finset.range (k + 1), blockSum bs f p := by
  induction k with
  | zero => rw [runSum_zero, zero_add, Finset.sum_range_one]
  | succ k ih => rw [runSum_succ, ih, Finset.sum_range_succ _ (k + 1)]

/-- After the last of `nb` blocks of `bs` terms the accumulator holds the sum of the whole family. -/
theorem runSum_last (nb bs : ℕ) (hnb : 0 < nb) (f : Fin (nb * bs) → M) :
    runSum bs f (nb - 1) = ∑ i, f i := by
  rw [runSum_eq_sum_range, Nat.sub_add_cancel hnb, Finset.sum_range (fun p => blockSum bs f p),
    ← Equiv.sum_comp (finProdFinEquiv (m := nb) (n := bs)) f, Fintype.sum_prod_type]
  refine Finset.sum_congr rfl fun p _ => ?_
  unfold blockSum
  refine Finset.sum_congr rfl fun j _ => ?_
  have h : j.val + bs * p.val < nb * bs := (finProdFinEquiv (p, j)).isLt
  rw [dif_pos h]
  rfl

/-- Four blocks of 1024 terms: after block 3 the accumulator holds the sum over all 4096 positions. -/
theorem runSum_4x1024 (f : Fin 4096 → M) : runSum 1024 f 3 = ∑ i, f i :=
  runSum_last 4 1024 (by decide) f

/-- Inside the range, a block's term at `j` is the family's term at `bs * k + j`. -/
theorem blockSum_eq {n : ℕ} (bs : ℕ) (f : Fin n → M) (k : ℕ) (hk : bs * k + bs ≤ n) :
    blockSum bs f k = ∑ j : Fin bs, f ⟨j.val + bs * k, by have := j.isLt; omega⟩ := by
  unfold blockSum
  refine Finset.sum_congr rfl fun j _ => ?_
  have h : j.val + bs * k < n := by have := j.isLt; omega
  rw [dif_pos h]

end BlockSums
-- ==== Proof.KA1.lean ====
/-
  The second kernel region's two result arrays after its run, at the extended reals: column q of the first holds
  ∑ p, (A[p, q] + b[q]) over all 100000 rows of the aggregated features A plus the bias row b, and column q of the
  second holds ∑ p, (A[p, q] + b[q])².

  The grid walks the fifty blocks of 2000 rows in order. Point t's block of A is rows 2000·t … 2000·t + 1999 and its
  block of b is b itself, so the sums the body adds at point t are block t of the column's sum. By induction on the
  point the accumulators (and the results, which are copies of them) hold after point n the running sum of blocks
  0 … n started from zero; after the last point that is the whole sum, in any additive commutative monoid. The two
  results are written back once, at the last point, and their one block is the whole 1×64 array.
-/
import proofs.«177960_j69157563400217_1_alg».proof.Proof.KF1
import proofs.«177960_j69157563400217_1_alg».proof.Proof.KV1
import proofs.«177960_j69157563400217_1_alg».proof.Proof.LibBlockSums
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem

variable (V : (c : Dev nD) → (b : Ref sig .tc) → Buf (Elt Ideal) ((c : Thread nD τ).loc b))

/-- The index maps of the two input windows, decided over the fifty points: the block of rows moves with the point, the
    bias row stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- Point `t`'s block of the aggregated features is rows `2000·t … 2000·t + 1999` of the array. -/
theorem iblk1_0_apply (c : Dev nD) (t : Fin cfg1.N) (r : Fin 2000) (q : Fin 64) (p : Fin 100000) (hp : p.val = r.val + 2000 * t.val) :
    (iblk1 V c 0 t : Vec Ideal S2000x64 .f32) (ValueIdx.ix2 r q) = V c main_v49 (ValueIdx.ix2 p q) := by
  obtain ⟨e0, e1, -, -⟩ := idx_facts1 t
  show V c main_v49 (((cfg1.win 0).blk t).view.emb (ValueIdx.ix2 r q)) = V c main_v49 (ValueIdx.ix2 p q)
  refine congrArg (V c main_v49) ?_
  funext a
  apply Fin.ext
  match a with
  | ⟨0, _⟩ => show win1_0.index t (0 : Fin 2) * 2000 + 1 * r.val = p.val; omega
  | ⟨1, _⟩ => show win1_0.index t (1 : Fin 2) * 64 + 1 * q.val = q.val; omega

/-- Every point's block of the bias is the bias row. -/
theorem iblk1_1_apply (c : Dev nD) (t : Fin cfg1.N) (q : Fin 64) :
    (iblk1 V c 1 t : Vec Ideal S1x64 .f32) (ValueIdx.ix2 0 q) = V c main_v50 (ValueIdx.ix2 0 q) := by
  obtain ⟨-, -, e0, e1⟩ := idx_facts1 t
  show V c main_v50 (((cfg1.win 1).blk t).view.emb (ValueIdx.ix2 0 q)) = V c main_v50 (ValueIdx.ix2 0 q)
  refine congrArg (V c main_v50) ?_
  funext a
  apply Fin.ext
  match a with
  | ⟨0, _⟩ => show win1_1.index t (0 : Fin 2) * 1 + 1 * 0 = 0; omega
  | ⟨1, _⟩ => show win1_1.index t (1 : Fin 2) * 64 + 1 * q.val = q.val; omega

/-- Column `q` of a 100000×64 table plus a bias row, and of its squares. -/
def tab (a : S100000x64.Idx → EReal) (b : S1x64.Idx → EReal) (q : Fin 64) : Fin 100000 → EReal :=
  fun p => a (ValueIdx.ix2 p q) + b (ValueIdx.ix2 0 q)
def tabSq (a : S100000x64.Idx → EReal) (b : S1x64.Idx → EReal) (q : Fin 64) : Fin 100000 → EReal :=
  fun p => (a (ValueIdx.ix2 p q) + b (ValueIdx.ix2 0 q)) * (a (ValueIdx.ix2 p q) + b (ValueIdx.ix2 0 q))

/-- The sum over point `t`'s rows is block `t` of the column's sum. -/
theorem blk_sum (c : Dev nD) (t : Fin cfg1.N) (q : Fin 64) (a : S100000x64.Idx → EReal) (b : S1x64.Idx → EReal) (ha : a = V c main_v49) (hb : b = V c main_v50)
    (x0 : Vec Ideal S2000x64 .f32) (x1 : Vec Ideal S1x64 .f32) (h0 : x0 = iblk1 V c 0 t) (h1 : x1 = iblk1 V c 1 t) :
    ∑ r : Fin 2000, (x0 (ValueIdx.ix2 r q) + x1 (ValueIdx.ix2 0 q)) = BlockSums.blockSum 2000 (tab a b q) t.val := by
  have hN : cfg1.N = 50 := N_1
  have ht := t.isLt
  subst ha hb h0 h1
  rw [BlockSums.blockSum_eq 2000 _ t.val (by omega)]
  refine Finset.sum_congr rfl fun r _ => ?_
  rw [iblk1_0_apply V c t r q ⟨r.val + 2000 * t.val, by have := r.isLt; omega⟩ rfl, iblk1_1_apply]
  rfl

/-- The sum of squares over point `t`'s rows is block `t` of the column's sum of squares. -/
theorem blk_sumSq (c : Dev nD) (t : Fin cfg1.N) (q : Fin 64) (a : S100000x64.Idx → EReal) (b : S1x64.Idx → EReal) (ha : a = V c main_v49) (hb : b = V c main_v50)
    (x0 : Vec Ideal S2000x64 .f32) (x1 : Vec Ideal S1x64 .f32) (h0 : x0 = iblk1 V c 0 t) (h1 : x1 = iblk1 V c 1 t) :
    ∑ r : Fin 2000, (x0 (ValueIdx.ix2 r q) + x1 (ValueIdx.ix2 0 q)) * (x0 (ValueIdx.ix2 r q) + x1 (ValueIdx.ix2 0 q))
      = BlockSums.blockSum 2000 (tabSq a b q) t.val := by
  have hN : cfg1.N = 50 := N_1
  have ht := t.isLt
  subst ha hb h0 h1
  rw [BlockSums.blockSum_eq 2000 _ t.val (by omega)]
  refine Finset.sum_congr rfl fun r _ => ?_
  rw [iblk1_0_apply V c t r q ⟨r.val + 2000 * t.val, by have := r.isLt; omega⟩ rfl, iblk1_1_apply]
  rfl

/-- THE ACCUMULATION, in closed form: after point `n` the first accumulator and the first result hold, at column `q`,
    the running sum of the column's blocks `0 … n`, and the second accumulator and result that of its squares. -/
theorem outsAt1_apply (c : Dev nD) (q : Fin 64) (a : S100000x64.Idx → EReal) (b : S1x64.Idx → EReal) (ha : a = V c main_v49) (hb : b = V c main_v50) : ∀ (n : ℕ) (hn : n < cfg1.N),
    (outsAt1 V c n hn).2.2.1 (ValueIdx.ix2 0 q) = BlockSums.runSum 2000 (tab a b q) n
    ∧ (outsAt1 V c n hn).2.2.2 (ValueIdx.ix2 0 q) = BlockSums.runSum 2000 (tabSq a b q) n
    ∧ (outsAt1 V c n hn).1 (ValueIdx.ix2 0 q) = BlockSums.runSum 2000 (tab a b q) n
    ∧ (outsAt1 V c n hn).2.1 (ValueIdx.ix2 0 q) = BlockSums.runSum 2000 (tabSq a b q) n
  | 0, hn => by
    have hc : cond1 (grid1.coords (⟨0, hn⟩ : Fin cfg1.N)) := (hcond1 ⟨0, hn⟩).mpr rfl
    have e : outsAt1 V c 0 hn = res1_A V c ⟨0, hn⟩ hc := rfl
    rw [e]
    unfold res1_A
    dsimp only
    refine ⟨?_, ?_, ?_, ?_⟩
    · refine (run1_A_acc0_apply c (grid1.coords (⟨0, hn⟩ : Fin cfg1.N)) (ms1_0 (⟨0, hn⟩ : Fin cfg1.N)) (hs1_0 (⟨0, hn⟩ : Fin cfg1.N)) (ms1_1 (⟨0, hn⟩ : Fin cfg1.N)) (hs1_1 (⟨0, hn⟩ : Fin cfg1.N)) (ms1_2 (⟨0, hn⟩ : Fin cfg1.N)) (hs1_2 (⟨0, hn⟩ : Fin cfg1.N)) (ms1_3 (⟨0, hn⟩ : Fin cfg1.N)) (hs1_3 (⟨0, hn⟩ : Fin cfg1.N)) scM1_0 (Memref.isWhole_whole _) scM1_1 (Memref.isWhole_whole _) hc (iblk1 V c 0 (⟨0, hn⟩ : Fin cfg1.N)) (iblk1 V c 1 (⟨0, hn⟩ : Fin cfg1.N)) q).trans ?_
      rw [Ideal.ofBits_zero_f32, blk_sum V c ⟨0, hn⟩ q a b ha hb _ _ rfl rfl]; rfl
    · refine (run1_A_acc1_apply c (grid1.coords (⟨0, hn⟩ : Fin cfg1.N)) (ms1_0 (⟨0, hn⟩ : Fin cfg1.N)) (hs1_0 (⟨0, hn⟩ : Fin cfg1.N)) (ms1_1 (⟨0, hn⟩ : Fin cfg1.N)) (hs1_1 (⟨0, hn⟩ : Fin cfg1.N)) (ms1_2 (⟨0, hn⟩ : Fin cfg1.N)) (hs1_2 (⟨0, hn⟩ : Fin cfg1.N)) (ms1_3 (⟨0, hn⟩ : Fin cfg1.N)) (hs1_3 (⟨0, hn⟩ : Fin cfg1.N)) scM1_0 (Memref.isWhole_whole _) scM1_1 (Memref.isWhole_whole _) hc (iblk1 V c 0 (⟨0, hn⟩ : Fin cfg1.N)) (iblk1 V c 1 (⟨0, hn⟩ : Fin cfg1.N)) q).trans ?_
      rw [Ideal.ofBits_zero_f32, blk_sumSq V c ⟨0, hn⟩ q a b ha hb _ _ rfl rfl]; rfl
    · refine (run1_A_res2_apply c (grid1.coords (⟨0, hn⟩ : Fin cfg1.N)) (ms1_0 (⟨0, hn⟩ : Fin cfg1.N)) (hs1_0 (⟨0, hn⟩ : Fin cfg1.N)) (ms1_1 (⟨0, hn⟩ : Fin cfg1.N)) (hs1_1 (⟨0, hn⟩ : Fin cfg1.N)) (ms1_2 (⟨0, hn⟩ : Fin cfg1.N)) (hs1_2 (⟨0, hn⟩ : Fin cfg1.N)) (ms1_3 (⟨0, hn⟩ : Fin cfg1.N)) (hs1_3 (⟨0, hn⟩ : Fin cfg1.N)) scM1_0 (Memref.isWhole_whole _) scM1_1 (Memref.isWhole_whole _) hc (iblk1 V c 0 (⟨0, hn⟩ : Fin cfg1.N)) (iblk1 V c 1 (⟨0, hn⟩ : Fin cfg1.N)) q).trans ?_
      rw [Ideal.ofBits_zero_f32, blk_sum V c ⟨0, hn⟩ q a b ha hb _ _ rfl rfl]; rfl
    · refine (run1_A_res3_apply c (grid1.coords (⟨0, hn⟩ : Fin cfg1.N)) (ms1_0 (⟨0, hn⟩ : Fin cfg1.N)) (hs1_0 (⟨0, hn⟩ : Fin cfg1.N)) (ms1_1 (⟨0, hn⟩ : Fin cfg1.N)) (hs1_1 (⟨0, hn⟩ : Fin cfg1.N)) (ms1_2 (⟨0, hn⟩ : Fin cfg1.N)) (hs1_2 (⟨0, hn⟩ : Fin cfg1.N)) (ms1_3 (⟨0, hn⟩ : Fin cfg1.N)) (hs1_3 (⟨0, hn⟩ : Fin cfg1.N)) scM1_0 (Memref.isWhole_whole _) scM1_1 (Memref.isWhole_whole _) hc (iblk1 V c 0 (⟨0, hn⟩ : Fin cfg1.N)) (iblk1 V c 1 (⟨0, hn⟩ : Fin cfg1.N)) q).trans ?_
      rw [Ideal.ofBits_zero_f32, blk_sumSq V c ⟨0, hn⟩ q a b ha hb _ _ rfl rfl]; rfl
  | n + 1, hn => by
    have hc : ¬cond1 (grid1.coords (⟨n + 1, hn⟩ : Fin cfg1.N)) := fun h => Nat.succ_ne_zero n ((hcond1 ⟨n + 1, hn⟩).mp h)
    obtain ⟨ih0, ih1, -, -⟩ := outsAt1_apply c q a b ha hb n (Nat.lt_of_succ_lt hn)
    have e : outsAt1 V c (n + 1) hn = res1_B V c ⟨n + 1, hn⟩ hc (outsAt1 V c n (Nat.lt_of_succ_lt hn)).2.2.1 (outsAt1 V c n (Nat.lt_of_succ_lt hn)).2.2.2 := rfl
    rw [e]
    unfold res1_B
    dsimp only
    refine ⟨?_, ?_, ?_, ?_⟩
    · refine (run1_B_acc0_apply c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) scM1_0 (Memref.isWhole_whole _) scM1_1 (Memref.isWhole_whole _) hc (iblk1 V c 0 (⟨n + 1, hn⟩ : Fin cfg1.N)) (iblk1 V c 1 (⟨n + 1, hn⟩ : Fin cfg1.N)) (outsAt1 V c n (Nat.lt_of_succ_lt hn)).2.2.1 (outsAt1 V c n (Nat.lt_of_succ_lt hn)).2.2.2 q).trans ?_
      rw [ih0, blk_sum V c ⟨n + 1, hn⟩ q a b ha hb _ _ rfl rfl]; rfl
    · refine (run1_B_acc1_apply c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) scM1_0 (Memref.isWhole_whole _) scM1_1 (Memref.isWhole_whole _) hc (iblk1 V c 0 (⟨n + 1, hn⟩ : Fin cfg1.N)) (iblk1 V c 1 (⟨n + 1, hn⟩ : Fin cfg1.N)) (outsAt1 V c n (Nat.lt_of_succ_lt hn)).2.2.1 (outsAt1 V c n (Nat.lt_of_succ_lt hn)).2.2.2 q).trans ?_
      rw [ih1, blk_sumSq V c ⟨n + 1, hn⟩ q a b ha hb _ _ rfl rfl]; rfl
    · refine (run1_B_res2_apply c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) scM1_0 (Memref.isWhole_whole _) scM1_1 (Memref.isWhole_whole _) hc (iblk1 V c 0 (⟨n + 1, hn⟩ : Fin cfg1.N)) (iblk1 V c 1 (⟨n + 1, hn⟩ : Fin cfg1.N)) (outsAt1 V c n (Nat.lt_of_succ_lt hn)).2.2.1 (outsAt1 V c n (Nat.lt_of_succ_lt hn)).2.2.2 q).trans ?_
      rw [ih0, blk_sum V c ⟨n + 1, hn⟩ q a b ha hb _ _ rfl rfl]; rfl
    · refine (run1_B_res3_apply c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) scM1_0 (Memref.isWhole_whole _) scM1_1 (Memref.isWhole_whole _) hc (iblk1 V c 0 (⟨n + 1, hn⟩ : Fin cfg1.N)) (iblk1 V c 1 (⟨n + 1, hn⟩ : Fin cfg1.N)) (outsAt1 V c n (Nat.lt_of_succ_lt hn)).2.2.1 (outsAt1 V c n (Nat.lt_of_succ_lt hn)).2.2.2 q).trans ?_
      rw [ih1, blk_sumSq V c ⟨n + 1, hn⟩ q a b ha hb _ _ rfl rfl]; rfl

/-- The last grid point, the one that writes the two results back. -/
abbrev tLast : Fin cfg1.N := ⟨49, by have h : cfg1.N = 50 := N_1; omega⟩

/-- The column sums of the table plus bias, as a 1×64 row. -/
def colsumG (a : S100000x64.Idx → EReal) (b : S1x64.Idx → EReal) : S1x64.Idx → EReal :=
  fun i => ∑ p : Fin 100000, tab a b (i 1) p

/-- What the last point leaves in the result's staging buffer is the whole column sum. -/
theorem after_last_2 (c : Dev nD) (a : S100000x64.Idx → EReal) (b : S1x64.Idx → EReal) (ha : a = V c main_v49) (hb : b = V c main_v50) :
    ((outsAt1 V c tLast.val tLast.isLt).1 : S1x64.Idx → EReal) = colsumG a b := by
  funext i
  obtain ⟨u, q, rfl⟩ : ∃ (u : Fin 1) (q : Fin 64), i = ValueIdx.ix2 u q := ⟨i 0, i 1, ValueIdx.eq_ix2 i⟩
  obtain rfl : u = 0 := Subsingleton.elim _ _
  refine ((outsAt1_apply V c q a b ha hb 49 tLast.isLt).2.2.1).trans ?_
  exact BlockSums.runSum_last 50 2000 (by decide) (tab a b q)

/-- The one write-back, at the last point, writes the whole column sum: the result's one block is the array. -/
theorem flushed1_2_eq (c : Dev nD) (a : S100000x64.Idx → EReal) (b : S1x64.Idx → EReal) (ha : a = V c main_v49) (hb : b = V c main_v50) (t : Fin cfg1.N) (hf : (cfg1.win 2).flush t = true) :
    (dat1 (F := Ideal) V c).flushed 2 t = ((cfg1.win 2).blk t).view.read (Elt Ideal) (colsumG a b) := by
  have hN : cfg1.N = 50 := N_1
  have h49 : t.val = 49 := by have := (flush1_2 t).mp hf; have := t.isLt; omega
  obtain rfl : t = tLast := Fin.ext h49
  show (cfg1.win 2).cut (grid1.coords tLast) ((dat1 (F := Ideal) V c).after 2 tLast) = _
  rw [after1_2]
  have hz' : (fun x => win1_2.index tLast x * main_v51_0.ty.shape.size x) = fun _ => 0 :=
    funext fun x => by fin_cases x <;> decide +kernel
  refine Eq.trans ?_ (Memref.read_access_unit_zero (Elt Ideal) main_v51_0 hz' (fun x => by rw [congrFun hz' x]; simp) (colsumG a b)).symm
  exact after_last_2 V c a b ha hb

/-- THE FIRST RESULT ARRAY after the region: the column sums of the aggregated features plus bias. -/
theorem colsum_arrayG (c : Dev nD) (a : S100000x64.Idx → EReal) (b : S1x64.Idx → EReal) (ha : a = V c main_v49) (hb : b = V c main_v50) :
    (dat1 (F := Ideal) V c).arrAt 2 cfg1.N = colsumG a b :=
  (dat1 (F := Ideal) V c).arrAt_eq_of_cover 2 (colsumG a b) (flushed1_2_eq V c a b ha hb) fun i =>
    ⟨tLast, (flush1_2 tLast).mpr rfl, by
      show i ∈ ((View.whole main_v51_0).slice (win1_2.rect tLast)).set
      rw [View.set_slice_whole, Rect.mem_set_unit]
      intro x
      have h0 : (i 0 : Nat) < 1 := (i 0).isLt
      have h1 : (i 1 : Nat) < 64 := (i 1).isLt
      match x with
      | ⟨0, _⟩ =>
        show win1_2.index tLast 0 * win1_2.size 0 ≤ (i 0 : Nat) ∧ (i 0 : Nat) < win1_2.index tLast 0 * win1_2.size 0 + win1_2.xsize (grid1.coords tLast) 0
        rw [show win1_2.index tLast 0 * win1_2.size 0 = 0 from by decide +kernel,
          show win1_2.xsize (grid1.coords tLast) 0 = 1 from by decide +kernel]
        omega
      | ⟨1, _⟩ =>
        show win1_2.index tLast 1 * win1_2.size 1 ≤ (i 1 : Nat) ∧ (i 1 : Nat) < win1_2.index tLast 1 * win1_2.size 1 + win1_2.xsize (grid1.coords tLast) 1
        rw [show win1_2.index tLast 1 * win1_2.size 1 = 0 from by decide +kernel,
          show win1_2.xsize (grid1.coords tLast) 1 = 64 from by decide +kernel]
        omega⟩

/-- The column sums of squares of the table plus bias, as a 1×64 row. -/
def colsumsqG (a : S100000x64.Idx → EReal) (b : S1x64.Idx → EReal) : S1x64.Idx → EReal :=
  fun i => ∑ p : Fin 100000, tabSq a b (i 1) p

/-- What the last point leaves in the result's staging buffer is the whole column sum. -/
theorem after_last_3 (c : Dev nD) (a : S100000x64.Idx → EReal) (b : S1x64.Idx → EReal) (ha : a = V c main_v49) (hb : b = V c main_v50) :
    ((outsAt1 V c tLast.val tLast.isLt).2.1 : S1x64.Idx → EReal) = colsumsqG a b := by
  funext i
  obtain ⟨u, q, rfl⟩ : ∃ (u : Fin 1) (q : Fin 64), i = ValueIdx.ix2 u q := ⟨i 0, i 1, ValueIdx.eq_ix2 i⟩
  obtain rfl : u = 0 := Subsingleton.elim _ _
  refine ((outsAt1_apply V c q a b ha hb 49 tLast.isLt).2.2.2).trans ?_
  exact BlockSums.runSum_last 50 2000 (by decide) (tabSq a b q)

/-- The one write-back, at the last point, writes the whole column sum: the result's one block is the array. -/
theorem flushed1_3_eq (c : Dev nD) (a : S100000x64.Idx → EReal) (b : S1x64.Idx → EReal) (ha : a = V c main_v49) (hb : b = V c main_v50) (t : Fin cfg1.N) (hf : (cfg1.win 3).flush t = true) :
    (dat1 (F := Ideal) V c).flushed 3 t = ((cfg1.win 3).blk t).view.read (Elt Ideal) (colsumsqG a b) := by
  have hN : cfg1.N = 50 := N_1
  have h49 : t.val = 49 := by have := (flush1_3 t).mp hf; have := t.isLt; omega
  obtain rfl : t = tLast := Fin.ext h49
  show (cfg1.win 3).cut (grid1.coords tLast) ((dat1 (F := Ideal) V c).after 3 tLast) = _
  rw [after1_3]
  have hz' : (fun x => win1_3.index tLast x * main_v51_1.ty.shape.size x) = fun _ => 0 :=
    funext fun x => by fin_cases x <;> decide +kernel
  refine Eq.trans ?_ (Memref.read_access_unit_zero (Elt Ideal) main_v51_1 hz' (fun x => by rw [congrFun hz' x]; simp) (colsumsqG a b)).symm
  exact after_last_3 V c a b ha hb

/-- THE SECOND RESULT ARRAY after the region: the column sums of squares of the aggregated features plus bias. -/
theorem colsumsq_arrayG (c : Dev nD) (a : S100000x64.Idx → EReal) (b : S1x64.Idx → EReal) (ha : a = V c main_v49) (hb : b = V c main_v50) :
    (dat1 (F := Ideal) V c).arrAt 3 cfg1.N = colsumsqG a b :=
  (dat1 (F := Ideal) V c).arrAt_eq_of_cover 3 (colsumsqG a b) (flushed1_3_eq V c a b ha hb) fun i =>
    ⟨tLast, (flush1_3 tLast).mpr rfl, by
      show i ∈ ((View.whole main_v51_1).slice (win1_3.rect tLast)).set
      rw [View.set_slice_whole, Rect.mem_set_unit]
      intro x
      have h0 : (i 0 : Nat) < 1 := (i 0).isLt
      have h1 : (i 1 : Nat) < 64 := (i 1).isLt
      match x with
      | ⟨0, _⟩ =>
        show win1_3.index tLast 0 * win1_3.size 0 ≤ (i 0 : Nat) ∧ (i 0 : Nat) < win1_3.index tLast 0 * win1_3.size 0 + win1_3.xsize (grid1.coords tLast) 0
        rw [show win1_3.index tLast 0 * win1_3.size 0 = 0 from by decide +kernel,
          show win1_3.xsize (grid1.coords tLast) 0 = 1 from by decide +kernel]
        omega
      | ⟨1, _⟩ =>
        show win1_3.index tLast 1 * win1_3.size 1 ≤ (i 1 : Nat) ∧ (i 1 : Nat) < win1_3.index tLast 1 * win1_3.size 1 + win1_3.xsize (grid1.coords tLast) 1
        rw [show win1_3.index tLast 1 * win1_3.size 1 = 0 from by decide +kernel,
          show win1_3.xsize (grid1.coords tLast) 1 = 64 from by decide +kernel]
        omega⟩

/-! ## The two arrays with their entries written out -/

/-- The first result array: at every index the sum over the rows of the aggregated features plus bias, at the index's column. -/
theorem colsum_array (c : Dev nD) (a : S100000x64.Idx → EReal) (b : S1x64.Idx → EReal) (ha : a = V c main_v49) (hb : b = V c main_v50) :
    (dat1 (F := Ideal) V c).arrAt 2 cfg1.N
      = (fun i : S1x64.Idx => ∑ p : Fin 100000, (a (ValueIdx.ix2 p (i 1)) + b (ValueIdx.ix2 0 (i 1)))) :=
  colsum_arrayG V c a b ha hb

/-- The second result array: likewise the sum of the squares. -/
theorem colsumsq_array (c : Dev nD) (a : S100000x64.Idx → EReal) (b : S1x64.Idx → EReal) (ha : a = V c main_v49) (hb : b = V c main_v50) :
    (dat1 (F := Ideal) V c).arrAt 3 cfg1.N
      = (fun i : S1x64.Idx => ∑ p : Fin 100000, (a (ValueIdx.ix2 p (i 1)) + b (ValueIdx.ix2 0 (i 1))) * (a (ValueIdx.ix2 p (i 1)) + b (ValueIdx.ix2 0 (i 1)))) :=
  colsumsq_arrayG V c a b ha hb

/-- The two row functions at explicit coordinates. -/
theorem colsumG_apply (a : S100000x64.Idx → EReal) (b : S1x64.Idx → EReal) (u : Fin 1) (q : Fin 64) :
    colsumG a b (ValueIdx.ix2 u q) = ∑ p : Fin 100000, (a (ValueIdx.ix2 p q) + b (ValueIdx.ix2 0 q)) := rfl
theorem colsumsqG_apply (a : S100000x64.Idx → EReal) (b : S1x64.Idx → EReal) (u : Fin 1) (q : Fin 64) :
    colsumsqG a b (ValueIdx.ix2 u q)
      = ∑ p : Fin 100000, (a (ValueIdx.ix2 p q) + b (ValueIdx.ix2 0 q)) * (a (ValueIdx.ix2 p q) + b (ValueIdx.ix2 0 q)) := rfl

end Cert.KernelIdeal.HandValue

end
-- ==== Proof.KGlue.lean ====
/-
  The buffers at the boundaries of the kernel's run, as the reference's stages of the seven arguments.

  Walking the run from the launch: after each stretch of host operations the buffers it wrote hold the reference's
  values of the same names (the stretch lemmas, applied to the boundary before it); the linear layer's output array is
  the reference's matrix product (block by block it is `∑ k, x(p,k) · wᵀ(k,q)`, and the blocks cover the array); so the
  aggregated features are the reference's; the reduction's two output arrays are the column sums and the column sums
  of squares of (aggregated + bias); and the host's mean and variance are those sums over the count and the second
  moment minus the squared mean.
-/
import proofs.«177960_j69157563400217_1_alg».proof.Proof.KGlueA
import proofs.«177960_j69157563400217_1_alg».proof.Proof.KRun
import proofs.«177960_j69157563400217_1_alg».proof.Proof.KA0
import proofs.«177960_j69157563400217_1_alg».proof.Proof.KA1

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem Idealize.ShloMosaic.StableHlo

variable (m : (ℓ : Loc nD τ sig) → Buf (Elt Ideal) ℓ) (c : Dev nD)

/-! ## Before the first region -/

theorem b1_v1 : V1 m c (Proc.devRef .tc main_v1) = Cert.ReferenceIdeal.ReadP.val_main_v1 (F := Ideal) (m ((c.tc : Thread nD τ).loc main_arg1)) := st1_v1 (V0 m c) _ rfl
theorem b1_v3 : V1 m c (Proc.devRef .tc main_v3) = Cert.ReferenceIdeal.ReadP.val_main_v3 (F := Ideal) (m ((c.tc : Thread nD τ).loc main_arg1)) := st1_v3 (V0 m c) _ rfl
theorem b1_v4 : V1 m c (Proc.devRef .tc main_v4) = Cert.ReferenceIdeal.ReadP.val_main_v4 (F := Ideal) (m ((c.tc : Thread nD τ).loc main_arg1)) := st1_v4 (V0 m c) _ rfl
theorem b2_v5 : V2 m c (Proc.devRef .tc main_v5) = Cert.ReferenceIdeal.ReadP.val_main_v5 (F := Ideal) (m ((c.tc : Thread nD τ).loc main_arg1)) :=
  st2_v5 (V1 m c) _ (b1_v4 m c) (st1_cst (V0 m c)) (st1_cst_0 (V0 m c))
theorem b2_v1 : V2 m c (Proc.devRef .tc main_v1) = Cert.ReferenceIdeal.ReadP.val_main_v1 (F := Ideal) (m ((c.tc : Thread nD τ).loc main_arg1)) := (V2_of m c main_v1 (by decide)).trans (b1_v1 m c)
theorem b2_v3 : V2 m c (Proc.devRef .tc main_v3) = Cert.ReferenceIdeal.ReadP.val_main_v3 (F := Ideal) (m ((c.tc : Thread nD τ).loc main_arg1)) := (V2_of m c main_v3 (by decide)).trans (b1_v3 m c)
theorem b3_v8 : V3 m c (Proc.devRef .tc main_v8) = Cert.ReferenceIdeal.ReadP.val_main_v8 (F := Ideal) (m ((c.tc : Thread nD τ).loc main_arg1)) :=
  (st3_v8 (V2 m c)).trans (by rw [b2_v1]; exact withLoops_v8 _)
theorem b3_v9 : V3 m c (Proc.devRef .tc main_v9) = Cert.ReferenceIdeal.ReadP.val_main_v9 (F := Ideal) (m ((c.tc : Thread nD τ).loc main_arg1)) :=
  (st3_v9 (V2 m c)).trans (by rw [b2_v3]; exact withLoops_v9 _)
theorem b3_v11 : V3 m c (Proc.devRef .tc main_v11) = Cert.ReferenceIdeal.ReadP.val_main_v11 (F := Ideal) (m ((c.tc : Thread nD τ).loc main_arg1)) :=
  (st3_v11 (V2 m c)).trans (by rw [b2_v5]; exact wts_v11 _)
theorem b3_v16 : V3 m c (Proc.devRef .tc main_v16) = cmpf .ogt (Cert.ReferenceIdeal.ReadP.val_main_v14 (F := Ideal) (m ((c.tc : Thread nD τ).loc main_arg1))) (broadcastInDim S100000 ![] bcast_S_S100000 (constant (F := Ideal) S_ .f32 0x00000000#32)) :=
  (st3_v16 (V2 m c)).trans (by rw [b2_v3, b2_v5, degs_v14])
theorem b3_v17 : V3 m c (Proc.devRef .tc main_v17) = (Host.rsqrt (F := Ideal) (Cert.ReferenceIdeal.ReadP.val_main_v14 (F := Ideal) (m ((c.tc : Thread nD τ).loc main_arg1))) : FVec Ideal S100000 .f32) :=
  (st3_v17 (V2 m c)).trans (by rw [b2_v3, b2_v5, degs_v14])
theorem b4_v18 : V4 m c (Proc.devRef .tc main_v18) = Cert.ReferenceIdeal.ReadP.val_main_v18 (F := Ideal) (m ((c.tc : Thread nD τ).loc main_arg1)) :=
  (st4_v18 (V3 m c) _ _ _ (b3_v16 m c) (b3_v17 m c) (st3_cst_4 (V2 m c))).trans (select_v18 _)
theorem b4_v8 : V4 m c (Proc.devRef .tc main_v8) = Cert.ReferenceIdeal.ReadP.val_main_v8 (F := Ideal) (m ((c.tc : Thread nD τ).loc main_arg1)) := (V4_of m c main_v8 (by decide)).trans (b3_v8 m c)
theorem b4_v9 : V4 m c (Proc.devRef .tc main_v9) = Cert.ReferenceIdeal.ReadP.val_main_v9 (F := Ideal) (m ((c.tc : Thread nD τ).loc main_arg1)) := (V4_of m c main_v9 (by decide)).trans (b3_v9 m c)
theorem b4_v11 : V4 m c (Proc.devRef .tc main_v11) = Cert.ReferenceIdeal.ReadP.val_main_v11 (F := Ideal) (m ((c.tc : Thread nD τ).loc main_arg1)) := (V4_of m c main_v11 (by decide)).trans (b3_v11 m c)
theorem b4_arg2 : V4 m c (Proc.devRef .tc main_arg2) = (m ((c.tc : Thread nD τ).loc main_arg2)) :=
  (V4_of m c main_arg2 (by decide)).trans <| (V3_of m c main_arg2 (by decide)).trans <| (V2_of m c main_arg2 (by decide)).trans <| (V1_of m c main_arg2 (by decide)).trans rfl
theorem b5_v34 : V5 m c (Proc.devRef .tc main_v34) = Cert.ReferenceIdeal.ReadP.val_main_v34 (F := Ideal) (m ((c.tc : Thread nD τ).loc main_arg1)) :=
  st5_v34 (V4 m c) _ (b4_v8 m c) (b4_v9 m c) (b4_v11 m c) (b4_v18 m c)
theorem b5_v35 : V5 m c (Proc.devRef .tc main_v35) = Cert.ReferenceIdeal.ReadP.val_main_v35 (F := Ideal) (m ((c.tc : Thread nD τ).loc main_arg2)) := st5_v35 (V4 m c) _ (b4_arg2 m c)
theorem b5_v8 : V5 m c (Proc.devRef .tc main_v8) = Cert.ReferenceIdeal.ReadP.val_main_v8 (F := Ideal) (m ((c.tc : Thread nD τ).loc main_arg1)) := (V5_of m c main_v8 (by decide)).trans (b4_v8 m c)
theorem b5_v9 : V5 m c (Proc.devRef .tc main_v9) = Cert.ReferenceIdeal.ReadP.val_main_v9 (F := Ideal) (m ((c.tc : Thread nD τ).loc main_arg1)) := (V5_of m c main_v9 (by decide)).trans (b4_v9 m c)
theorem b5_arg0 : V5 m c (Proc.devRef .tc main_arg0) = (m ((c.tc : Thread nD τ).loc main_arg0)) :=
  (V5_of m c main_arg0 (by decide)).trans <| (V4_of m c main_arg0 (by decide)).trans <| (V3_of m c main_arg0 (by decide)).trans <| (V2_of m c main_arg0 (by decide)).trans <| (V1_of m c main_arg0 (by decide)).trans rfl
theorem b5_arg3 : V5 m c (Proc.devRef .tc main_arg3) = (m ((c.tc : Thread nD τ).loc main_arg3)) :=
  (V5_of m c main_arg3 (by decide)).trans <| (V4_of m c main_arg3 (by decide)).trans <| (V3_of m c main_arg3 (by decide)).trans <| (V2_of m c main_arg3 (by decide)).trans <| (V1_of m c main_arg3 (by decide)).trans rfl
theorem b5_arg4 : V5 m c (Proc.devRef .tc main_arg4) = (m ((c.tc : Thread nD τ).loc main_arg4)) :=
  (V5_of m c main_arg4 (by decide)).trans <| (V4_of m c main_arg4 (by decide)).trans <| (V3_of m c main_arg4 (by decide)).trans <| (V2_of m c main_arg4 (by decide)).trans <| (V1_of m c main_arg4 (by decide)).trans rfl
theorem b5_arg5 : V5 m c (Proc.devRef .tc main_arg5) = (m ((c.tc : Thread nD τ).loc main_arg5)) :=
  (V5_of m c main_arg5 (by decide)).trans <| (V4_of m c main_arg5 (by decide)).trans <| (V3_of m c main_arg5 (by decide)).trans <| (V2_of m c main_arg5 (by decide)).trans <| (V1_of m c main_arg5 (by decide)).trans rfl
theorem b5_arg6 : V5 m c (Proc.devRef .tc main_arg6) = (m ((c.tc : Thread nD τ).loc main_arg6)) :=
  (V5_of m c main_arg6 (by decide)).trans <| (V4_of m c main_arg6 (by decide)).trans <| (V3_of m c main_arg6 (by decide)).trans <| (V2_of m c main_arg6 (by decide)).trans <| (V1_of m c main_arg6 (by decide)).trans rfl

/-! ## The linear layer's output array is the reference's matrix product -/

theorem linearOf_v36 (x0 : (⟨Cert.ReferenceIdeal.S100000x64, .f32⟩ : BufTy).Contents (Elt Ideal)) (x2 : (⟨Cert.ReferenceIdeal.S64x64, .f32⟩ : BufTy).Contents (Elt Ideal)) : linearOf x0 (Cert.ReferenceIdeal.ReadP.val_main_v35 (F := Ideal) x2) = Cert.ReferenceIdeal.ReadP.val_main_v36 (F := Ideal) x0 x2 := by
  funext i
  rw [Cert.ReferenceIdeal.ReadP.val_main_v36_apply]
  refine Finset.sum_congr rfl fun k _ => ?_
  have hl : Cert.ReferenceIdeal.ReadP.lidx_main_v36 i k = ValueIdx.ix2 (i 0) k := by
    funext a; apply Fin.ext; match a with | ⟨0, _⟩ => rfl | ⟨1, _⟩ => rfl
  have hr : Cert.ReferenceIdeal.ReadP.ridx_main_v36 i k = ValueIdx.ix2 k (i 1) := by
    funext a; apply Fin.ext; match a with | ⟨0, _⟩ => rfl | ⟨1, _⟩ => rfl
  rw [hl, hr]
  rfl

theorem x6_v36 : X6 m c (Proc.devRef .tc main_v36) = Cert.ReferenceIdeal.ReadP.val_main_v36 (F := Ideal) (m ((c.tc : Thread nD τ).loc main_arg0)) (m ((c.tc : Thread nD τ).loc main_arg2)) := by
  refine (X6_arr m c 2).trans ((linear_array (E0in m) c).trans ?_)
  rw [show E0in m c main_arg0 = (m ((c.tc : Thread nD τ).loc main_arg0)) from b5_arg0 m c, show E0in m c main_v35 = Cert.ReferenceIdeal.ReadP.val_main_v35 (F := Ideal) (m ((c.tc : Thread nD τ).loc main_arg2)) from b5_v35 m c]
  exact linearOf_v36 _ _

theorem x6_v8 : X6 m c (Proc.devRef .tc main_v8) = Cert.ReferenceIdeal.ReadP.val_main_v8 (F := Ideal) (m ((c.tc : Thread nD τ).loc main_arg1)) := (X6_of_ne m c main_v8 (by decide)).trans (b5_v8 m c)
theorem x6_v9 : X6 m c (Proc.devRef .tc main_v9) = Cert.ReferenceIdeal.ReadP.val_main_v9 (F := Ideal) (m ((c.tc : Thread nD τ).loc main_arg1)) := (X6_of_ne m c main_v9 (by decide)).trans (b5_v9 m c)
theorem x6_v34 : X6 m c (Proc.devRef .tc main_v34) = Cert.ReferenceIdeal.ReadP.val_main_v34 (F := Ideal) (m ((c.tc : Thread nD τ).loc main_arg1)) := (X6_of_ne m c main_v34 (by decide)).trans (b5_v34 m c)
theorem x6_arg3 : X6 m c (Proc.devRef .tc main_arg3) = (m ((c.tc : Thread nD τ).loc main_arg3)) := (X6_of_ne m c main_arg3 (by decide)).trans (b5_arg3 m c)
theorem x6_arg4 : X6 m c (Proc.devRef .tc main_arg4) = (m ((c.tc : Thread nD τ).loc main_arg4)) := (X6_of_ne m c main_arg4 (by decide)).trans (b5_arg4 m c)
theorem x6_arg5 : X6 m c (Proc.devRef .tc main_arg5) = (m ((c.tc : Thread nD τ).loc main_arg5)) := (X6_of_ne m c main_arg5 (by decide)).trans (b5_arg5 m c)
theorem x6_arg6 : X6 m c (Proc.devRef .tc main_arg6) = (m ((c.tc : Thread nD τ).loc main_arg6)) := (X6_of_ne m c main_arg6 (by decide)).trans (b5_arg6 m c)

/-! ## The aggregated features and the bias row -/

theorem x7_v49 : X7 m c (Proc.devRef .tc main_v49) = Cert.ReferenceIdeal.ReadP.val_main_v49 (F := Ideal) (m ((c.tc : Thread nD τ).loc main_arg0)) (m ((c.tc : Thread nD τ).loc main_arg1)) (m ((c.tc : Thread nD τ).loc main_arg2)) :=
  (st7_v49 (X6 m c)).trans (by rw [x6_v36, x6_v8, x6_v9, x6_v34]; exact aggK_v49 _ _ _)
theorem x7_v50 : X7 m c (Proc.devRef .tc main_v50) = rowOf (m ((c.tc : Thread nD τ).loc main_arg3)) :=
  (st7_v50 (X6 m c)).trans (by rw [x6_arg3])
theorem x7_arg4 : X7 m c (Proc.devRef .tc main_arg4) = (m ((c.tc : Thread nD τ).loc main_arg4)) :=
  (StableHlo.after_of_writes_sub hostOps1 _ hostOps1_writes (r := main_arg4) (by decide)).trans (x6_arg4 m c)
theorem x7_arg5 : X7 m c (Proc.devRef .tc main_arg5) = (m ((c.tc : Thread nD τ).loc main_arg5)) :=
  (StableHlo.after_of_writes_sub hostOps1 _ hostOps1_writes (r := main_arg5) (by decide)).trans (x6_arg5 m c)
theorem x7_arg6 : X7 m c (Proc.devRef .tc main_arg6) = (m ((c.tc : Thread nD τ).loc main_arg6)) :=
  (StableHlo.after_of_writes_sub hostOps1 _ hostOps1_writes (r := main_arg6) (by decide)).trans (x6_arg6 m c)

/-! ## The reduction's two arrays; what the next region finds -/

theorem x8_v51_0 : X8 m c (Proc.devRef .tc main_v51_0)
    = (fun i : S1x64.Idx => ∑ p : Fin 100000, ((Cert.ReferenceIdeal.ReadP.val_main_v49 (F := Ideal) (m ((c.tc : Thread nD τ).loc main_arg0)) (m ((c.tc : Thread nD τ).loc main_arg1)) (m ((c.tc : Thread nD τ).loc main_arg2))) (ValueIdx.ix2 p (i 1)) + (rowOf (m ((c.tc : Thread nD τ).loc main_arg3))) (ValueIdx.ix2 0 (i 1)))) :=
  (X8_arr m c 2).trans (colsum_array (E1in m) c _ _ (x7_v49 m c).symm (x7_v50 m c).symm)
theorem x8_v51_1 : X8 m c (Proc.devRef .tc main_v51_1)
    = (fun i : S1x64.Idx => ∑ p : Fin 100000, ((Cert.ReferenceIdeal.ReadP.val_main_v49 (F := Ideal) (m ((c.tc : Thread nD τ).loc main_arg0)) (m ((c.tc : Thread nD τ).loc main_arg1)) (m ((c.tc : Thread nD τ).loc main_arg2))) (ValueIdx.ix2 p (i 1)) + (rowOf (m ((c.tc : Thread nD τ).loc main_arg3))) (ValueIdx.ix2 0 (i 1)))
        * ((Cert.ReferenceIdeal.ReadP.val_main_v49 (F := Ideal) (m ((c.tc : Thread nD τ).loc main_arg0)) (m ((c.tc : Thread nD τ).loc main_arg1)) (m ((c.tc : Thread nD τ).loc main_arg2))) (ValueIdx.ix2 p (i 1)) + (rowOf (m ((c.tc : Thread nD τ).loc main_arg3))) (ValueIdx.ix2 0 (i 1)))) :=
  (X8_arr m c 3).trans (colsumsq_array (E1in m) c _ _ (x7_v49 m c).symm (x7_v50 m c).symm)
theorem x8_v49 : X8 m c (Proc.devRef .tc main_v49) = Cert.ReferenceIdeal.ReadP.val_main_v49 (F := Ideal) (m ((c.tc : Thread nD τ).loc main_arg0)) (m ((c.tc : Thread nD τ).loc main_arg1)) (m ((c.tc : Thread nD τ).loc main_arg2)) :=
  ((X8_arr m c 0).trans (((dat1 (E1in m) c).arrAt_in 0 rfl _).trans (A_eq1 (E1in m) c 0))).trans (x7_v49 m c)
theorem x8_v50 : X8 m c (Proc.devRef .tc main_v50) = rowOf (m ((c.tc : Thread nD τ).loc main_arg3)) :=
  ((X8_arr m c 1).trans (((dat1 (E1in m) c).arrAt_in 1 rfl _).trans (A_eq1 (E1in m) c 1))).trans (x7_v50 m c)
theorem x8_arg4 : X8 m c (Proc.devRef .tc main_arg4) = (m ((c.tc : Thread nD τ).loc main_arg4)) := (X8_of_ne m c main_arg4 (by decide)).trans (x7_arg4 m c)
theorem x8_arg5 : X8 m c (Proc.devRef .tc main_arg5) = (m ((c.tc : Thread nD τ).loc main_arg5)) := (X8_of_ne m c main_arg5 (by decide)).trans (x7_arg5 m c)
theorem x8_arg6 : X8 m c (Proc.devRef .tc main_arg6) = (m ((c.tc : Thread nD τ).loc main_arg6)) := (X8_of_ne m c main_arg6 (by decide)).trans (x7_arg6 m c)

/-! ## What the last region finds -/

theorem x9_v49 : X9 m c (Proc.devRef .tc main_v49) = Cert.ReferenceIdeal.ReadP.val_main_v49 (F := Ideal) (m ((c.tc : Thread nD τ).loc main_arg0)) (m ((c.tc : Thread nD τ).loc main_arg1)) (m ((c.tc : Thread nD τ).loc main_arg2)) :=
  (StableHlo.after_of_writes_sub hostOps2 _ hostOps2_writes (r := main_v49) (by decide)).trans (x8_v49 m c)
theorem x9_v50 : X9 m c (Proc.devRef .tc main_v50) = rowOf (m ((c.tc : Thread nD τ).loc main_arg3)) :=
  (StableHlo.after_of_writes_sub hostOps2 _ hostOps2_writes (r := main_v50) (by decide)).trans (x8_v50 m c)
theorem x9_arg6 : X9 m c (Proc.devRef .tc main_arg6) = (m ((c.tc : Thread nD τ).loc main_arg6)) :=
  (StableHlo.after_of_writes_sub hostOps2 _ hostOps2_writes (r := main_arg6) (by decide)).trans (x8_arg6 m c)
theorem x9_v53 : X9 m c (Proc.devRef .tc main_v53) = meanK (X8 m c (Proc.devRef .tc main_v51_0)) := st9_v53 (X8 m c)
theorem x9_v57 : X9 m c (Proc.devRef .tc main_v57) = varK (X8 m c (Proc.devRef .tc main_v51_0)) (X8 m c (Proc.devRef .tc main_v51_1)) := st9_v57 (X8 m c)
theorem x9_v58 : X9 m c (Proc.devRef .tc main_v58) = rowOf (m ((c.tc : Thread nD τ).loc main_arg4)) := (st9_v58 (X8 m c)).trans (by rw [x8_arg4])
theorem x9_v59 : X9 m c (Proc.devRef .tc main_v59) = rowOf (m ((c.tc : Thread nD τ).loc main_arg5)) := (st9_v59 (X8 m c)).trans (by rw [x8_arg5])

end Cert.KernelIdeal.HandValue

end
-- ==== Proof.Spec.lean ====
/-
  The mathematics of one graph-convolution layer followed by batch normalisation and a one-parameter leaky
  rectifier, over the extended reals, with no program in sight.

  Both programs compute, for a table `v p q` of `n` rows and `d` columns (the aggregated features plus the bias),
  the column mean `μ q = (∑ p, v p q) / N`, a column variance, and then
  `y p q = (v p q − μ q) · rsqrt (var q + ε) · γ q + β q`, answered as `y` where `0 ≤ y` and as `a · y` elsewhere.
  They differ in the variance only: one takes the second moment minus the squared mean, `(∑ p, v p q²) / N − μ q²`,
  the other the mean of the squared deviations, `(∑ p, (v p q − μ q)²) / N`.  For a table of REAL entries and
  `N` the number of rows these are one number (expand the square and use `∑ p, v p q = N · μ q`); at an infinite
  entry they are not, which is why the entries' finiteness is a hypothesis of `varMoments_eq_varCentered`.
-/
import Idealize.ShloMosaic.PureOps.Ideal
import Mathlib.Algebra.BigOperators.Ring.Finset
import Mathlib.Tactic.Ring
import Mathlib.Tactic.FieldSimp

noncomputable section

namespace Cert.GcnSpec

open Idealize.ShloMosaic

variable {n d : ℕ}

/-- A table of extended reals, `n` rows by `d` columns. -/
abbrev Tab (n d : ℕ) : Type := Fin n → Fin d → EReal

/-- The linear layer: row `p` of `x` against row `c` of the weight (the weight is stored output-channel first). -/
def proj {k : ℕ} (x : Tab n k) (w : Tab d k) : Tab n d := fun p c => ∑ j, x p j * w c j

/-- The bias added to every row. -/
def shifted (s : Tab n d) (b : Fin d → EReal) : Tab n d := fun p q => s p q + b q

/-- Column sums and column sums of squares. -/
def colSum (v : Tab n d) : Fin d → EReal := fun q => ∑ p, v p q
def colSumSq (v : Tab n d) : Fin d → EReal := fun q => ∑ p, v p q * v p q

/-- The column mean over a count `N` (the programs divide by the float `100000.0`). -/
def mean (N : EReal) (v : Tab n d) : Fin d → EReal := fun q => Ideal.div (colSum v q) N

/-- The variance as second moment minus squared mean. -/
def varMoments (N : EReal) (v : Tab n d) : Fin d → EReal :=
  fun q => Ideal.div (colSumSq v q) N - mean N v q * mean N v q

/-- The variance as the mean of the squared deviations from the mean. -/
def varCentered (N : EReal) (v : Tab n d) : Fin d → EReal :=
  fun q => Ideal.div (∑ p, (v p q - mean N v q) * (v p q - mean N v q)) N

/-- The normalised, scaled and shifted entry. -/
def normed (ε : EReal) (v : Tab n d) (μ var γ β : Fin d → EReal) : Tab n d :=
  fun p q => (v p q - μ q) * Ideal.rsqrt (var q + ε) * γ q + β q

/-- The leaky rectifier with slope `a` on the negative side: `y` where `y ≥ 0` (the comparison against the float zero, as both
    programs spell it), `a · y` elsewhere. -/
def leaky (a y : EReal) : EReal :=
  Scalar.select (Ideal.cmp .oge y (Ideal.ofBits .f32 0x00000000#32)) y (a * y)

/-- The whole layer after the aggregation, with the variance left as a parameter. -/
def layer (ε a : EReal) (v : Tab n d) (μ var γ β : Fin d → EReal) : Tab n d :=
  fun p q => leaky a (normed ε v μ var γ β p q)

end Cert.GcnSpec

end
-- ==== Proof.KV2.lean ====
/-
  The third kernel region's output block at an index: with the bias b, the mean μ, the variance v, the scale γ, the
  shift β (each a 1×64 row) and the slope a, entry (r, q) of the block x goes to
      leaky a ((x[r, q] + b[q] − μ[q]) · rsqrt (v[q] + ε) · γ[q] + β[q]),
  ε the float 9.99999974e-6. The body's one store covers the block, its loads read their buffers whole, a row
  broadcast over the rows reads the row at the column, and every other operation is pointwise.
-/
import proofs.«177960_j69157563400217_1_alg».proof.Proof.KF2
import proofs.«177960_j69157563400217_1_alg».proof.Proof.Spec
import Idealize.ShloMosaic.Lib.Pipeline.Value
import Idealize.ShloMosaic.Lib.ValueIdx
import Idealize.ShloMosaic.Lib.ValueLayout
import Idealize.ShloMosaic.PureOps.Ideal.Laws

namespace Cert.KernelIdeal.HandValue

open Cert.KernelIdeal Cert.KernelIdeal.Gen Cert.KernelIdeal.Hand Idealize.ShloMosaic

/-- The offsets of a whole-buffer access of rank 2 are zero. -/
theorem zero_off2' : (![0, 0] : Fin 2 → Nat) = fun _ => 0 := funext fun a => by
  match a with
  | ⟨0, _⟩ => rfl
  | ⟨1, _⟩ => rfl

/-- The offset of a whole-buffer access of rank 1 is zero. -/
theorem zero_off1 : (![0] : Fin 1 → Nat) = fun _ => 0 := funext fun a => by
  match a with
  | ⟨0, _⟩ => rfl

/-- A 1×1 array broadcast over a matrix reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ValueIdx.ix2 p c) = v (ValueIdx.ix2 (0 : Fin 1) (0 : Fin 1)) := by
  refine broadcastTo_apply v h (ValueIdx.ix2 p c) (ValueIdx.ix2 (0 : Fin 1) (0 : Fin 1)) fun ax => ?_
  match ax with
  | ⟨0, _⟩ => rfl
  | ⟨1, _⟩ => rfl

/-- The pointwise payload at an index. -/
theorem k2_pay1_apply (v0 : Vec Ideal S2000x64 .f32) (v2 v6 v11 v17 v21 : Vec Ideal S1x64 .f32) (v25 : Vec Ideal S1 .f32)
    (r : Fin 2000) (q : Fin 64) :
    k2_pay1 (F := Ideal) v0 v2 v6 v11 v17 v21 v25 (ValueIdx.ix2 r q)
      = Cert.GcnSpec.leaky (v25 (ValueIdx.ix1 0))
          ((v0 (ValueIdx.ix2 r q) + v2 (ValueIdx.ix2 0 q) - v11 (ValueIdx.ix2 0 q))
              * Ideal.rsqrt (v6 (ValueIdx.ix2 0 q) + Ideal.ofBits .f32 0x3727C5AC#32) * v17 (ValueIdx.ix2 0 q)
            + v21 (ValueIdx.ix2 0 q)) := by
  unfold k2_pay1 Cert.GcnSpec.leaky
  simp only [shapeCast_self]
  rw [ValueIdx.select_apply, ValueIdx.cmpf_apply, ValueIdx.mulf_apply, ValueIdx.broadcast_apply,
    broadcastTo_11_ab_apply, ValueIdx.shapeCast_a_1a_apply]
  simp only [ValueIdx.addf_apply, ValueIdx.mulf_apply, ValueIdx.subf_apply, ValueIdx.broadcastTo_1b_ab_apply,
    ValueIdx.broadcast_apply]
  rfl

/-- The output block after the body, at an index. -/
theorem out2_7_apply (x0 : Vec Ideal S2000x64 .f32) (x1 x2 x3 x4 x5 : Vec Ideal S1x64 .f32) (x6 : Vec Ideal S1 .f32)
    (r : Fin 2000) (q : Fin 64) :
    out2_7 (F := Ideal) x0 x1 x2 x3 x4 x5 x6 (ValueIdx.ix2 r q)
      = Cert.GcnSpec.leaky (x6 (ValueIdx.ix1 0))
          ((x0 (ValueIdx.ix2 r q) + x1 (ValueIdx.ix2 0 q) - x2 (ValueIdx.ix2 0 q))
              * Ideal.rsqrt (x3 (ValueIdx.ix2 0 q) + Ideal.ofBits .f32 0x3727C5AC#32) * x4 (ValueIdx.ix2 0 q)
            + x5 (ValueIdx.ix2 0 q)) := by
  unfold out2_7
  rw [View.canon_unit_zero zero_off2']
  simp only [View.ld_unit_zero (S := S2000x64) zero_off2', View.ld_unit_zero (S := S1x64) zero_off2',
    View.ld_unit_zero (S := S1) zero_off1]
  exact k2_pay1_apply x0 x1 x3 x2 x4 x5 x6 r q

end Cert.KernelIdeal.HandValue
-- ==== Proof.KA2.lean ====
/-
  From blocks to the array, for the normalising region: every grid point writes back the block of 2000 rows it
  computed, the blocks tile the 100000 rows, the six small operands are staged whole at every point, and the entry
  (r, q) of the block at point t is the entry (2000·t + r, q) of one pointwise function of the whole arrays; so the
  array after the last point is that function, index by index.
-/
import proofs.«177960_j69157563400217_1_alg».proof.Proof.KF2
import proofs.«177960_j69157563400217_1_alg».proof.Proof.KV2
import proofs.«177960_j69157563400217_1_alg».proof.Proof.Spec
import Idealize.ShloMosaic.Lib.Pipeline.Value
import Idealize.ShloMosaic.Lib.ValueIdx

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The pointwise function of one entry `a`, the bias `b`, the mean `μ`, the variance `v`, the scale `γ`, the shift `β`
    and the slope `s`. -/
abbrev affineAt (s a b μ v γ β : EReal) : EReal :=
  Cert.GcnSpec.leaky s ((a + b - μ) * Ideal.rsqrt (v + Ideal.ofBits .f32 0x3727C5AC#32) * γ + β)

/-- The same as one function of the whole arrays: the rows `b μ v γ β` read at the column, the slope at its one entry. -/
abbrev affineOf (a : S100000x64.Idx → EReal) (b μ v γ β : S1x64.Idx → EReal) (s : S1.Idx → EReal) : S100000x64.Idx → EReal :=
  fun i => affineAt (s (ValueIdx.ix1 0)) (a i) (b (ValueIdx.ix2 0 (i 1))) (μ (ValueIdx.ix2 0 (i 1))) (v (ValueIdx.ix2 0 (i 1)))
    (γ (ValueIdx.ix2 0 (i 1))) (β (ValueIdx.ix2 0 (i 1)))

/-- The printed index maps over the grid: the row blocks move with the point, the small operands stay. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- The output block after the body at any index of the block. -/
theorem out2_7_at (x0 : Vec Ideal S2000x64 .f32) (x1 x2 x3 x4 x5 : Vec Ideal S1x64 .f32) (x6 : Vec Ideal S1 .f32) (j : S2000x64.Idx) :
    out2_7 (F := Ideal) x0 x1 x2 x3 x4 x5 x6 j
      = affineAt (x6 (ValueIdx.ix1 0)) (x0 j) (x1 (ValueIdx.ix2 0 (j 1))) (x2 (ValueIdx.ix2 0 (j 1))) (x3 (ValueIdx.ix2 0 (j 1)))
          (x4 (ValueIdx.ix2 0 (j 1))) (x5 (ValueIdx.ix2 0 (j 1))) := by
  obtain ⟨r, q, rfl⟩ : ∃ (r : Fin 2000) (q : Fin 64), j = ValueIdx.ix2 r q := ⟨j 0, j 1, ValueIdx.eq_ix2 j⟩
  exact out2_7_apply x0 x1 x2 x3 x4 x5 x6 r q

/-- Equal arguments, equal values. -/
theorem affineAt_congr {s s' a a' b b' μ μ' v v' γ γ' β β' : EReal} (hs : s = s') (ha : a = a') (hb : b = b') (hμ : μ = μ')
    (hv : v = v') (hγ : γ = γ') (hβ : β = β') : affineAt s a b μ v γ β = affineAt s' a' b' μ' v' γ' β' := by
  subst hs ha hb hμ hv hγ hβ; rfl

/-- What point `t` writes back is block `t` of the pointwise function of the arrays as the region finds them. -/
theorem flushed_affine (c : Dev nD) (t : Fin cfg2.N) :
    (dat2 (F := Ideal) V c).flushed 7 t = ((cfg2.win 7).blk t).view.read (Elt Ideal) (affineOf (V c main_v49) (V c main_v50) (V c main_v53) (V c main_v57) (V c main_v58) (V c main_v59) (V c main_arg6)) := by
  show (cfg2.win 7).cut (grid2.coords t) ((dat2 (F := Ideal) V c).after 7 t) = _
  rw [after2_7]
  obtain ⟨e00, e01, e10, e11, e20, e21, e30, e31, e40, e41, e50, e51, e60, e70, e71⟩ := block_index2 t
  refine funext fun (j : S2000x64.Idx) => ?_
  show out2_7 (F := Ideal) (iblk2 V c 0 t) (iblk2 V c 1 t) (iblk2 V c 2 t) (iblk2 V c 3 t) (iblk2 V c 4 t) (iblk2 V c 5 t) (iblk2 V c 6 t) j
    = affineOf (V c main_v49) (V c main_v50) (V c main_v53) (V c main_v57) (V c main_v58) (V c main_v59) (V c main_arg6) (((cfg2.win 7).blk t).view.emb j)
  refine (out2_7_at _ _ _ _ _ _ _ j).trans ?_
  have h0 : ((cfg2.win 0).blk t).view.emb j = ((cfg2.win 7).blk t).view.emb j := by
    funext a; apply Fin.ext
    match a with
    | ⟨0, _⟩ => show win2_0.index t (0 : Fin 2) * 2000 + 1 * (j 0).val = win2_7.index t (0 : Fin 2) * 2000 + 1 * (j 0).val; omega
    | ⟨1, _⟩ => show win2_0.index t (1 : Fin 2) * 64 + 1 * (j 1).val = win2_7.index t (1 : Fin 2) * 64 + 1 * (j 1).val; omega
  have h1 : ((cfg2.win 1).blk t).view.emb (ValueIdx.ix2 0 (j 1)) = ValueIdx.ix2 0 ((((cfg2.win 7).blk t).view.emb j) 1) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_7.index t (1 : Fin 2) * 64 + 1 * (j 1).val; omega
  have h2 : ((cfg2.win 2).blk t).view.emb (ValueIdx.ix2 0 (j 1)) = ValueIdx.ix2 0 ((((cfg2.win 7).blk t).view.emb j) 1) := by
    funext a; apply Fin.ext
    match a with
    | ⟨0, _⟩ => show win2_2.index t (0 : Fin 2) * 1 + 1 * 0 = 0; omega
    | ⟨1, _⟩ => show win2_2.index t (1 : Fin 2) * 64 + 1 * (j 1).val = win2_7.index t (1 : Fin 2) * 64 + 1 * (j 1).val; omega
  have h3 : ((cfg2.win 3).blk t).view.emb (ValueIdx.ix2 0 (j 1)) = ValueIdx.ix2 0 ((((cfg2.win 7).blk t).view.emb j) 1) := by
    funext a; apply Fin.ext
    match a with
    | ⟨0, _⟩ => show win2_3.index t (0 : Fin 2) * 1 + 1 * 0 = 0; omega
    | ⟨1, _⟩ => show win2_3.index t (1 : Fin 2) * 64 + 1 * (j 1).val = win2_7.index t (1 : Fin 2) * 64 + 1 * (j 1).val; omega
  have h4 : ((cfg2.win 4).blk t).view.emb (ValueIdx.ix2 0 (j 1)) = ValueIdx.ix2 0 ((((cfg2.win 7).blk t).view.emb j) 1) := by
    funext a; apply Fin.ext
    match a with
    | ⟨0, _⟩ => show win2_4.index t (0 : Fin 2) * 1 + 1 * 0 = 0; omega
    | ⟨1, _⟩ => show win2_4.index t (1 : Fin 2) * 64 + 1 * (j 1).val = win2_7.index t (1 : Fin 2) * 64 + 1 * (j 1).val; omega
  have h5 : ((cfg2.win 5).blk t).view.emb (ValueIdx.ix2 0 (j 1)) = ValueIdx.ix2 0 ((((cfg2.win 7).blk t).view.emb j) 1) := by
    funext a; apply Fin.ext
    match a with
    | ⟨0, _⟩ => show win2_5.index t (0 : Fin 2) * 1 + 1 * 0 = 0; omega
    | ⟨1, _⟩ => show win2_5.index t (1 : Fin 2) * 64 + 1 * (j 1).val = win2_7.index t (1 : Fin 2) * 64 + 1 * (j 1).val; omega
  have h6 : ((cfg2.win 6).blk t).view.emb (ValueIdx.ix1 0) = ValueIdx.ix1 0 := by
    funext a; apply Fin.ext
    match a with
    | ⟨0, _⟩ => show win2_6.index t (0 : Fin 1) * 1 + 1 * 0 = 0; omega
  refine affineAt_congr ?_ ?_ ?_ ?_ ?_ ?_ ?_
  · exact congrArg (V c main_arg6) h6
  · exact congrArg (V c main_v49) h0
  · exact congrArg (V c main_v50) h1
  · exact congrArg (V c main_v53) h2
  · exact congrArg (V c main_v57) h3
  · exact congrArg (V c main_v58) h4
  · exact congrArg (V c main_v59) h5

/-- An index of the array is in point `t`'s block iff each coordinate is in the block's range on its axis. -/
theorem mem_block2 (t : Fin cfg2.N) (i : S100000x64.Idx) :
    i ∈ ((cfg2.win 7).blk t).view.set ↔ ∀ a : Fin 2, win2_7.index t a * S2000x64.size a ≤ (i a).val ∧ (i a).val < win2_7.index t a * S2000x64.size a + S2000x64.size a := by
  show i ∈ ((View.whole main_v60).slice (win2_7.rect t)).set ↔ _
  rw [View.set_slice_whole, Rect.mem_set_unit]
  exact Iff.rfl

/-- Row `p` of the array is in the block of point `p / 2000`: the blocks cover the array. -/
theorem cover2 (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  obtain ⟨t, ht⟩ : ∃ t : Fin cfg2.N, t.val = (i 0).val / 2000 :=
    ⟨⟨(i 0).val / 2000, by rw [show cfg2.N = 50 from N_2]; omega⟩, rfl⟩
  obtain ⟨-, -, -, -, -, -, -, -, -, -, -, -, -, e70, e71⟩ := block_index2 t
  refine ⟨t, flush2_7 t, ?_⟩
  rw [mem_block2]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 64 ≤ (i 1).val ∧ (i 1).val < win2_7.index t (1 : Fin 2) * 64 + 64; omega

/-- The output array after the last point: the pointwise function of the arrays, index by index. -/
theorem affine_array (c : Dev nD) : (dat2 (F := Ideal) V c).arrAt 7 cfg2.N = affineOf (V c main_v49) (V c main_v50) (V c main_v53) (V c main_v57) (V c main_v58) (V c main_v59) (V c main_arg6) :=
  (dat2 (F := Ideal) V c).arrAt_eq_of_cover 7 (affineOf (V c main_v49) (V c main_v50) (V c main_v53) (V c main_v57) (V c main_v58) (V c main_v59) (V c main_arg6)) (fun t _ => flushed_affine V c t) cover2

end Cert.KernelIdeal.HandValue

end
-- ==== Proof.RefValue.lean ====
/-
  The reference program's result, read at one entry, as the layer of the specification with the centred variance.

  Write `v p q` for the entry of the aggregated, biased features (the value of operation %52, kept closed here) and
  `N` for the float word the program divides by.  Operations %53 to %83 compute, column by column,
      μ q   = (0 + ∑ p, v p q) / N,
      var q = (0 + ∑ p, (v p q − μ q) · (v p q − μ q)) / N,
      y p q = (v p q − μ q) · rsqrt (var q + ε) · γ q + β q,
  and answer `y p q` where `y p q ≥ 0` and `a · y p q` elsewhere, `a` the one entry of the slope.  Every broadcast of a
  row to the table reads the row at the column `q`; each sum starts from the float zero, which is `0`.
-/
import proofs.«177960_j69157563400217_1_alg».proof.Proof.ReadP
import proofs.«177960_j69157563400217_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic

/-- an f32[100000,64] array as a table, an f32[64] array as a row -/
def tab (f : (⟨S100000x64, .f32⟩ : BufTy).Contents (Elt Ideal)) : Cert.GcnSpec.Tab 100000 64 := fun p q => f (ValueIdx.ix2 p q)
def vec (f : (⟨S64, .f32⟩ : BufTy).Contents (Elt Ideal)) : Fin 64 → EReal := fun q => f (ValueIdx.ix1 q)

/-! ## The index functions of the stages, at coordinates -/

/-- The entry a column sum adds at `k` is row `k` of column `q`. -/
theorem idx_v53 (q : Fin 64) (k : Fin 100000) : idx_main_v53 (ValueIdx.ix1 q) k = ValueIdx.ix2 k q :=
  funext fun a => Fin.ext (by match a with | ⟨0, _⟩ => rfl | ⟨1, _⟩ => rfl)
theorem idx_v60 (q : Fin 64) (k : Fin 100000) : idx_main_v60 (ValueIdx.ix1 q) k = ValueIdx.ix2 k q :=
  funext fun a => Fin.ext (by match a with | ⟨0, _⟩ => rfl | ⟨1, _⟩ => rfl)

/-- A row broadcast to the table, [64] → [1,64] → [100000,64], reads the row at the column. -/
theorem idx_v56_57 (p : Fin 100000) (q : Fin 64) : idx_main_v56 (idx_main_v57 (ValueIdx.ix2 p q)) = ValueIdx.ix1 q :=
  funext fun a => Fin.ext (by match a with | ⟨0, _⟩ => rfl)
theorem idx_v63_64 (p : Fin 100000) (q : Fin 64) : idx_main_v63 (idx_main_v64 (ValueIdx.ix2 p q)) = ValueIdx.ix1 q :=
  funext fun a => Fin.ext (by match a with | ⟨0, _⟩ => rfl)
theorem idx_v69_70 (p : Fin 100000) (q : Fin 64) : idx_main_v69 (idx_main_v70 (ValueIdx.ix2 p q)) = ValueIdx.ix1 q :=
  funext fun a => Fin.ext (by match a with | ⟨0, _⟩ => rfl)
theorem idx_v72_73 (p : Fin 100000) (q : Fin 64) : idx_main_v72 (idx_main_v73 (ValueIdx.ix2 p q)) = ValueIdx.ix1 q :=
  funext fun a => Fin.ext (by match a with | ⟨0, _⟩ => rfl)
theorem idx_v75_76 (p : Fin 100000) (q : Fin 64) : idx_main_v75 (idx_main_v76 (ValueIdx.ix2 p q)) = ValueIdx.ix1 q :=
  funext fun a => Fin.ext (by match a with | ⟨0, _⟩ => rfl)

/-- The slope reshaped [1] → []: its one entry. -/
theorem v78_at (x6 : (⟨S1, .f32⟩ : BufTy).Contents (Elt Ideal)) (j : S_.Idx) :
    val_main_v78 (F := Ideal) x6 j = x6 (ValueIdx.ix1 0) := by
  unfold val_main_v78
  refine shapeCast_apply x6 shapeCasts_S1_S_ j (ValueIdx.ix1 0) ?_
  have h : (S_.rowMajor j).val < S_.numel := (S_.rowMajor j).isLt
  have h1 : S_.numel = 1 := by decide
  rw [Shape.rowMajor_val_one]
  show 0 = (S_.rowMajor j).val
  omega

/-! ## The column statistics -/

/-- Operation %55 at column `q`: the column mean. -/
theorem v55_at (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (q : Fin 64) :
    val_main_v55 (F := Ideal) x0 x1 x2 x3 (ValueIdx.ix1 q)
      = Cert.GcnSpec.mean (Ideal.ofBits .f32 0x47C35000#32) (tab (val_main_v52 (F := Ideal) x0 x1 x2 x3)) q := by
  rw [val_main_v55_apply, val_main_v53_apply, val_main_v54_apply, val_main_cst_11_apply, val_main_cst_12_apply]
  generalize val_main_v52 (F := Ideal) x0 x1 x2 x3 = y
  simp only [Ideal.hostDivf_def, Ideal.ofBits_def, Ideal.ofBits_zero_f32, zero_add, idx_v53,
    Cert.GcnSpec.mean, Cert.GcnSpec.colSum, tab]

/-- Operation %58 at an entry: the deviation from the column mean. -/
theorem v58_at (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (k : Fin 100000) (q : Fin 64) :
    val_main_v58 (F := Ideal) x0 x1 x2 x3 (ValueIdx.ix2 k q)
      = (tab (val_main_v52 (F := Ideal) x0 x1 x2 x3)) k q - Cert.GcnSpec.mean (Ideal.ofBits .f32 0x47C35000#32) (tab (val_main_v52 (F := Ideal) x0 x1 x2 x3)) q := by
  rw [val_main_v58_apply, val_main_v57_apply, val_main_v56_apply, idx_v56_57, v55_at, Ideal.subf_def]
  generalize val_main_v52 (F := Ideal) x0 x1 x2 x3 = y
  simp only [tab]

/-- Operation %59 at the entry a column sum adds at `k`: the squared deviation. -/
theorem v59_at (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (k : Fin 100000) (q : Fin 64) :
    val_main_v59 (F := Ideal) x0 x1 x2 x3 (idx_main_v60 (ValueIdx.ix1 q) k)
      = ((tab (val_main_v52 (F := Ideal) x0 x1 x2 x3)) k q - Cert.GcnSpec.mean (Ideal.ofBits .f32 0x47C35000#32) (tab (val_main_v52 (F := Ideal) x0 x1 x2 x3)) q) * ((tab (val_main_v52 (F := Ideal) x0 x1 x2 x3)) k q - Cert.GcnSpec.mean (Ideal.ofBits .f32 0x47C35000#32) (tab (val_main_v52 (F := Ideal) x0 x1 x2 x3)) q) := by
  rw [idx_v60, val_main_v59_apply, v58_at, Ideal.mulf_def]

/-- Operation %62 at column `q`: the mean of the squared deviations from the column mean. -/
theorem v62_at (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (q : Fin 64) :
    val_main_v62 (F := Ideal) x0 x1 x2 x3 (ValueIdx.ix1 q)
      = Cert.GcnSpec.varCentered (Ideal.ofBits .f32 0x47C35000#32) (tab (val_main_v52 (F := Ideal) x0 x1 x2 x3)) q := by
  rw [val_main_v62_apply, val_main_v60_apply, val_main_v61_apply, val_main_cst_13_apply, val_main_cst_14_apply,
    Ideal.hostDivf_def, Ideal.ofBits_def, Ideal.ofBits_def, Ideal.ofBits_zero_f32, zero_add]
  unfold Cert.GcnSpec.varCentered
  have h : (fun k : Fin 100000 => val_main_v59 (F := Ideal) x0 x1 x2 x3 (idx_main_v60 (ValueIdx.ix1 q) k))
      = fun k => ((tab (val_main_v52 (F := Ideal) x0 x1 x2 x3)) k q - Cert.GcnSpec.mean (Ideal.ofBits .f32 0x47C35000#32) (tab (val_main_v52 (F := Ideal) x0 x1 x2 x3)) q) * ((tab (val_main_v52 (F := Ideal) x0 x1 x2 x3)) k q - Cert.GcnSpec.mean (Ideal.ofBits .f32 0x47C35000#32) (tab (val_main_v52 (F := Ideal) x0 x1 x2 x3)) q) :=
    funext fun k => v59_at x0 x1 x2 x3 k q
  rw [h]

/-! ## The normalised entry -/

/-- Operation %77 at an entry: the normalised, scaled and shifted entry. -/
theorem v77_at (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 x4 x5 : (⟨S64, .f32⟩ : BufTy).Contents (Elt Ideal)) (p : Fin 100000) (q : Fin 64) :
    val_main_v77 (F := Ideal) x0 x1 x2 x3 x4 x5 (ValueIdx.ix2 p q)
      = Cert.GcnSpec.normed (Ideal.ofBits .f32 0x3727C5AC#32) (tab (val_main_v52 (F := Ideal) x0 x1 x2 x3))
          (Cert.GcnSpec.mean (Ideal.ofBits .f32 0x47C35000#32) (tab (val_main_v52 (F := Ideal) x0 x1 x2 x3))) (Cert.GcnSpec.varCentered (Ideal.ofBits .f32 0x47C35000#32) (tab (val_main_v52 (F := Ideal) x0 x1 x2 x3))) (vec x4) (vec x5) p q := by
  rw [val_main_v77_apply, val_main_v76_apply, val_main_v75_apply, idx_v75_76,
    val_main_v74_apply, val_main_v73_apply, val_main_v72_apply, idx_v72_73,
    val_main_v71_apply, val_main_v70_apply, val_main_v69_apply, idx_v69_70,
    val_main_v68_apply, val_main_v67_apply, val_main_v66_apply, val_main_cst_15_apply, v62_at,
    val_main_v65_apply, val_main_v64_apply, val_main_v63_apply, idx_v63_64, v55_at]
  generalize val_main_v52 (F := Ideal) x0 x1 x2 x3 = y
  simp only [Ideal.addf_def, Ideal.subf_def, Ideal.mulf_def, Ideal.hostUnary_rsqrt_def, Ideal.ofBits_def,
    Cert.GcnSpec.normed, vec, tab]

/-- The comparison of the instance is the comparison of the extended reals. -/
theorem cmpf_ideal (pr : CmpFPredicate) (x y : EReal) : FloatOps.cmpf (F := Ideal) (φ := .f32) pr x y = Ideal.cmp pr x y := rfl

/-! ## The result -/

theorem ref_value (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 x4 x5 : (⟨S64, .f32⟩ : BufTy).Contents (Elt Ideal)) (x6 : (⟨S1, .f32⟩ : BufTy).Contents (Elt Ideal)) (p : Fin 100000) (q : Fin 64) :
    val_main_v83 (F := Ideal) x0 x1 x2 x3 x4 x5 x6 (ValueIdx.ix2 p q)
      = Cert.GcnSpec.layer (Ideal.ofBits .f32 0x3727C5AC#32) (x6 (ValueIdx.ix1 0)) (tab (val_main_v52 (F := Ideal) x0 x1 x2 x3))
          (Cert.GcnSpec.mean (Ideal.ofBits .f32 0x47C35000#32) (tab (val_main_v52 (F := Ideal) x0 x1 x2 x3)))
          (Cert.GcnSpec.varCentered (Ideal.ofBits .f32 0x47C35000#32) (tab (val_main_v52 (F := Ideal) x0 x1 x2 x3)))
          (vec x4) (vec x5) p q := by
  rw [val_main_v83_apply, val_main_v80_apply, val_main_v82_apply, val_main_v81_apply, v78_at,
    val_main_v79_apply, val_main_cst_16_apply, v77_at, cmpf_ideal, Ideal.mulf_def, Ideal.ofBits_def]
  rfl

end Cert.ReferenceIdeal.RefValue

end
-- ==== Proof.SpecLaw.lean ====
/-
  The one law that joins the two spellings of the variance, and the float word the programs divide by.

  For a table of REAL entries with `n > 0` rows, and `μ q = (∑ p, v p q) / n`,
      (∑ p, v p q²) / n − μ q²  =  (∑ p, (v p q − μ q)²) / n :
  expand the square, `∑ p, (v p q − μ)² = ∑ p, v p q² − 2 μ ∑ p, v p q + n μ²`, and use `∑ p, v p q = n μ`.
  Over the extended reals every operation in sight (sum, product, difference, division by the nonzero real `n`)
  of real entries is the coercion of the real operation, so the identity is the real one under a coercion.
-/
import proofs.«177960_j69157563400217_1_alg».proof.Proof.Spec
import Idealize.ShloMosaic.PureOps.Ideal
import Mathlib.Algebra.BigOperators.Ring.Finset
import Mathlib.Algebra.BigOperators.Fin
import Mathlib.Tactic.Ring
import Mathlib.Tactic.FieldSimp
import Mathlib.Tactic.NormNum

noncomputable section

namespace Cert.GcnSpec

open Idealize.ShloMosaic

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity in the reals: second moment minus squared mean is the mean of the squared deviations. -/
theorem real_var {n : ℕ} (hn : ((n : ℕ) : ℝ) ≠ 0) (f : Fin n → ℝ) :
    (∑ p, f p * f p) * (1 / ((n : ℕ) : ℝ)) - ((∑ p, f p) * (1 / ((n : ℕ) : ℝ))) * ((∑ p, f p) * (1 / ((n : ℕ) : ℝ)))
      = (∑ p, (f p - (∑ p, f p) * (1 / ((n : ℕ) : ℝ))) * (f p - (∑ p, f p) * (1 / ((n : ℕ) : ℝ)))) * (1 / ((n : ℕ) : ℝ)) := by
  generalize hS : ∑ p, f p = S
  generalize hm : S * (1 / ((n : ℕ) : ℝ)) = m
  have hSm : S = ((n : ℕ) : ℝ) * m := by rw [← hm]; field_simp
  have hsq : ∀ p, (f p - m) * (f p - m) = f p * f p - 2 * m * f p + m * m := fun p => by ring
  have h : ∑ p, (f p - m) * (f p - m) = (∑ p, f p * f p) - 2 * m * S + ((n : ℕ) : ℝ) * (m * m) := by
    simp only [hsq, Finset.sum_add_distrib, Finset.sum_sub_distrib, ← Finset.mul_sum, hS, Finset.sum_const,
      Finset.card_univ, Fintype.card_fin, nsmul_eq_mul]
    ring
  rw [h, hSm]
  field_simp
  ring

/-- The two variances of a table of real entries, over the count of its rows, are one number. -/
theorem varMoments_eq_varCentered {n d : ℕ} (hn : 0 < n) (v : Tab n d) (hv : ∀ p q, ∃ r : ℝ, v p q = (r : EReal)) :
    varMoments (((n : ℕ) : ℝ) : EReal) v = varCentered (((n : ℕ) : ℝ) : EReal) v := by
  choose r hr using hv
  have hn' : ((n : ℕ) : ℝ) ≠ 0 := by exact_mod_cast hn.ne'
  funext q
  simp only [varMoments, varCentered, mean, colSum, colSumSq, Ideal.div_coe hn', hr]
  simp only [← EReal.coe_mul, ← coe_finset_sum, ← EReal.coe_sub]
  exact congrArg _ (real_var hn' fun p => r p q)

/-- The float word `0x47C35000` (sign `+`, exponent `143 = 127 + 16`, significand `1 + 0x435000 / 2²³`) is `100000`. -/
theorem count_word : Ideal.ofBits .f32 0x47C35000#32 = ((((100000 : ℕ) : ℝ)) : EReal) := by
  simp [Ideal.ofBits, Ideal.ieee, -EReal.coe_mul]; norm_num

end Cert.GcnSpec

end
-- ==== Proof.RealOps.lean ====
/-
  "Every entry is a real number" through the operations of a host program read at the extended reals.
  An extended real is REAL when it is the image of a real number, that is when it is neither `⊤` nor `⊥`.
  Sums and products of reals are real; so is a finite sum of reals. A gather only copies entries of its
  operand; a concatenation only copies entries of its pieces; an accumulating scatter adds to every entry of
  its operand a finite sum of entries of the updates; a select returns one of its two branches. The reciprocal
  square root guarded by `d > 0` and replaced by `0` elsewhere is real whatever `d` is: at `d = ⊤` it is
  `0`, at a real `d > 0` it is the real `(√d)⁻¹`, and everywhere else the guard fails.
-/
import Idealize.ShloMosaic.PureOps.Ideal.Laws
import Idealize.ShloMosaic.PureOps.ShapeOps
import Idealize.ShloMosaic.PureOps.Contract
import Idealize.ShloMosaic.Lib.ValueIdx

namespace Cert.RealOps

open Idealize.ShloMosaic

/-- The sum of two reals is real. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two reals is real. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- A finite sum of reals is real. -/
theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact add_real (h a (Finset.mem_insert_self a s)) (ih fun i hi => h i (Finset.mem_insert_of_mem hi))

/-- The f32 word of `+0.0` denotes a real. -/
theorem zero_real : ∃ r : ℝ, Ideal.ofBits .f32 0x00000000#32 = (r : EReal) :=
  ⟨0, by rw [Ideal.ofBits_zero_f32]; rfl⟩

/-- The f32 word of `1.0` denotes the real `1`. -/
theorem ofBits_one : Ideal.ofBits .f32 0x3F800000#32 = ((1 : ℝ) : EReal) := by
  simp [Ideal.ofBits, Ideal.ieee, -EReal.coe_mul]; norm_num

/-- The f32 word of `1.0` denotes a real. -/
theorem one_real : ∃ r : ℝ, Ideal.ofBits .f32 0x3F800000#32 = (r : EReal) := ⟨1, ofBits_one⟩

/-- A select between two reals is real. -/
theorem select_real (c : BitVec 1) {a b : EReal} (ha : ∃ r : ℝ, a = (r : EReal)) (hb : ∃ r : ℝ, b = (r : EReal)) :
    ∃ r : ℝ, Scalar.select c a b = (r : EReal) := by
  unfold Scalar.select
  split
  · exact ha
  · exact hb

/-- `select (d > 0) (1/√d) 0` is real whatever the extended real `d` is. -/
theorem rsqrt_guarded_real (d : EReal) :
    ∃ r : ℝ, Scalar.select (Ideal.cmp .ogt d 0) (Ideal.rsqrt d) 0 = (r : EReal) := by
  induction d using EReal.rec with
  | bot => exact ⟨0, by simp [Ideal.cmp, Scalar.select]⟩
  | top => exact ⟨0, by simp [Ideal.cmp, Scalar.select]⟩
  | coe r =>
    by_cases h : 0 < r
    · refine ⟨(Real.sqrt r)⁻¹, ?_⟩
      have h1 : ¬ r < 0 := not_lt.2 h.le
      have h2 : ¬ r = 0 := ne_of_gt h
      simp [Ideal.cmp, Scalar.select, h, h1, h2]
    · exact ⟨0, by simp [Ideal.cmp, Scalar.select, h]⟩

section Layout
variable {α : Type}

/-- Every entry of a gather is an entry of its operand. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

/-- Every entry of a concatenation is an entry of one of its pieces: what holds of every entry of every piece
    holds of every entry of the concatenation. -/
theorem concatenate_all (P : α → Prop) (t : Shape) (a : Fin t.rank) (xs : List ((s : Shape) × (s.Idx → α)))
    (h : Shape.Concatenates (xs.map (·.1)) t a) (hP : ∀ p ∈ xs, ∀ i, P (p.2 i)) (j : t.Idx) :
    P (concatenate t a xs h j) := by
  unfold concatenate
  exact hP _ (List.getElem_mem _) _

end Layout

/-- An accumulating scatter of real updates into a real operand is real: every entry is the operand's entry
    plus a finite sum of entries of the updates. -/
theorem scatterAdd_real {s si u : Shape} {w : Nat} {φ : FTy} (d : ScatterDims s si u) (x : FVec Ideal s φ)
    (idx : IVec si w) (upd : FVec Ideal u φ) (hx : ∀ i, ∃ r : ℝ, x i = (r : EReal))
    (hu : ∀ j, ∃ r : ℝ, upd j = (r : EReal)) (i : s.Idx) :
    ∃ r : ℝ, Host.scatterAdd d x idx upd i = (r : EReal) := by
  unfold Host.scatterAdd
  rw [Ideal.hostScatterAdd_def]
  unfold Ideal.hostScatterAdd
  exact add_real (hx i) (sum_real _ _ fun j _ => hu j)

end Cert.RealOps
-- ==== Proof.RefFinite.lean ====
/-
  Under the precondition every entry of the aggregated features plus bias (the value of operation %52 of the
  reference) is a REAL number. The proof walks the reference's operations bottom up with one "entries are real"
  lemma per stage:
    • the guarded reciprocal square root of the degrees (%18) is real WHATEVER the degrees are, so the scatter
      that computes the degrees is never opened;
    • the edge weights (%11) are a concatenation of a select between the constants 0 and 1 with a vector of ones;
    • the normalisation (%34) is a product of two gathered entries of %18 and an entry of %11;
    • the projected features (%36) are finite sums of products of entries of x and of W;
    • the messages (%46) are gathered rows of %36 times the normalisation;
    • the aggregate (%49) adds to zero a finite sum of messages, and %52 adds an entry of the bias.
-/
import proofs.«177960_j69157563400217_1_alg».proof.Proof.ReadP
import proofs.«177960_j69157563400217_1_alg».proof.Proof.RealOps
import Idealize.ShloMosaic.Lib.ValueIdx
import Idealize.ShloMosaic.PureOps.Ideal.Laws

namespace Cert.ReferenceIdeal.RefFinite

open Cert.ReferenceIdeal Cert.ReferenceIdeal.ReadP Idealize.ShloMosaic Cert.RealOps

/-- %18, `select (deg > 0) (1/√deg) 0`: real at every node, whatever the degree vector holds. -/
theorem v18_real (x1 : (⟨S2x1600000, .i32⟩ : BufTy).Contents (Elt Ideal)) :
    ∀ i, ∃ r : ℝ, val_main_v18 (F := Ideal) x1 i = (r : EReal) := by
  intro i
  rw [val_main_v18_apply, val_main_v16_apply, val_main_v17_apply, val_main_v15_apply, val_main_cst_3_apply,
    val_main_call1_v1_apply, val_main_call1_v0_apply, val_main_cst_4_apply]
  generalize val_main_v14 (F := Ideal) x1 i = d
  rw [Ideal.ofBits_def, Ideal.ofBits_zero_f32, Ideal.hostUnary_rsqrt_def]
  exact rsqrt_guarded_real d

/-- %6, a select between the constants 0 and 1. -/
theorem v6_real (x1 : (⟨S2x1600000, .i32⟩ : BufTy).Contents (Elt Ideal)) :
    ∀ i, ∃ r : ℝ, val_main_v6 (F := Ideal) x1 i = (r : EReal) := by
  intro i
  rw [val_main_v6_apply, val_main_v5_apply, val_main_call0_v0_apply, val_main_call0_v1_apply, val_main_cst_apply,
    val_main_cst_0_apply, Ideal.ofBits_def, Ideal.ofBits_def]
  exact select_real _ zero_real one_real

/-- %10, a vector of ones. -/
theorem v10_real : ∀ i, ∃ r : ℝ, val_main_v10 (F := Ideal) i = (r : EReal) := by
  intro i
  rw [val_main_v10_apply, val_main_cst_1_apply, Ideal.ofBits_def]
  exact one_real

/-- %11, the edge weights: the concatenation of %6 and %10. -/
theorem v11_real (x1 : (⟨S2x1600000, .i32⟩ : BufTy).Contents (Elt Ideal)) :
    ∀ i, ∃ r : ℝ, val_main_v11 (F := Ideal) x1 i = (r : EReal) := by
  intro i
  unfold val_main_v11
  refine concatenate_all (fun y : EReal => ∃ r : ℝ, y = (r : EReal)) _ _ _ _ ?_ i
  intro p hp j
  simp only [List.mem_cons, List.mem_nil_iff, or_false] at hp
  rcases hp with rfl | rfl
  · exact v6_real x1 j
  · exact v10_real j

/-- %25, entries of %18 gathered at the source nodes. -/
theorem v25_real (x1 : (⟨S2x1600000, .i32⟩ : BufTy).Contents (Elt Ideal)) :
    ∀ i, ∃ r : ℝ, val_main_v25 (F := Ideal) x1 i = (r : EReal) := by
  intro i
  unfold val_main_v25
  exact gather_real _ _ _ (v18_real x1) i

/-- %33, entries of %18 gathered at the target nodes. -/
theorem v33_real (x1 : (⟨S2x1600000, .i32⟩ : BufTy).Contents (Elt Ideal)) :
    ∀ i, ∃ r : ℝ, val_main_v33 (F := Ideal) x1 i = (r : EReal) := by
  intro i
  unfold val_main_v33
  exact gather_real _ _ _ (v18_real x1) i

/-- %34, the normalisation of every edge: a product of three reals. -/
theorem v34_real (x1 : (⟨S2x1600000, .i32⟩ : BufTy).Contents (Elt Ideal)) :
    ∀ i, ∃ r : ℝ, val_main_v34 (F := Ideal) x1 i = (r : EReal) := by
  intro i
  rw [val_main_v34_apply, val_main_v26_apply, Ideal.mulf_def, Ideal.mulf_def]
  exact mul_real (mul_real (v25_real x1 i) (v11_real x1 i)) (v33_real x1 i)

/-- %36, the projected features `x · Wᵀ`: finite sums of products of reals. -/
theorem v36_real (x0 : (⟨S100000x64, .f32⟩ : BufTy).Contents (Elt Ideal)) (x2 : (⟨S64x64, .f32⟩ : BufTy).Contents (Elt Ideal))
    (hx : ∀ i, ∃ r : ℝ, x0 i = (r : EReal)) (hw : ∀ i, ∃ r : ℝ, x2 i = (r : EReal)) :
    ∀ i, ∃ r : ℝ, val_main_v36 (F := Ideal) x0 x2 i = (r : EReal) := by
  intro i
  rw [val_main_v36_apply]
  refine sum_real _ _ fun k _ => mul_real (hx _) ?_
  rw [val_main_v35_apply]
  exact hw _

/-- %43, rows of %36 gathered at the source nodes. -/
theorem v43_real (x0 : (⟨S100000x64, .f32⟩ : BufTy).Contents (Elt Ideal)) (x1 : (⟨S2x1600000, .i32⟩ : BufTy).Contents (Elt Ideal))
    (x2 : (⟨S64x64, .f32⟩ : BufTy).Contents (Elt Ideal))
    (hx : ∀ i, ∃ r : ℝ, x0 i = (r : EReal)) (hw : ∀ i, ∃ r : ℝ, x2 i = (r : EReal)) :
    ∀ i, ∃ r : ℝ, val_main_v43 (F := Ideal) x0 x1 x2 i = (r : EReal) := by
  intro i
  unfold val_main_v43
  exact gather_real _ _ _ (v36_real x0 x2 hx hw) i

/-- %46, the messages: a gathered row times the edge's normalisation. -/
theorem v46_real (x0 : (⟨S100000x64, .f32⟩ : BufTy).Contents (Elt Ideal)) (x1 : (⟨S2x1600000, .i32⟩ : BufTy).Contents (Elt Ideal))
    (x2 : (⟨S64x64, .f32⟩ : BufTy).Contents (Elt Ideal))
    (hx : ∀ i, ∃ r : ℝ, x0 i = (r : EReal)) (hw : ∀ i, ∃ r : ℝ, x2 i = (r : EReal)) :
    ∀ i, ∃ r : ℝ, val_main_v46 (F := Ideal) x0 x1 x2 i = (r : EReal) := by
  intro i
  rw [val_main_v46_apply, val_main_v45_apply, val_main_v44_apply, Ideal.mulf_def]
  exact mul_real (v43_real x0 x1 x2 hx hw i) (v34_real x1 _)

/-- %47, the zero matrix the aggregate accumulates into. -/
theorem v47_real : ∀ i, ∃ r : ℝ, val_main_v47 (F := Ideal) i = (r : EReal) := by
  intro i
  rw [val_main_v47_apply, val_main_cst_10_apply, Ideal.ofBits_def]
  exact zero_real

/-- %49, the aggregate: zero plus a finite sum of messages. -/
theorem v49_real (x0 : (⟨S100000x64, .f32⟩ : BufTy).Contents (Elt Ideal)) (x1 : (⟨S2x1600000, .i32⟩ : BufTy).Contents (Elt Ideal))
    (x2 : (⟨S64x64, .f32⟩ : BufTy).Contents (Elt Ideal))
    (hx : ∀ i, ∃ r : ℝ, x0 i = (r : EReal)) (hw : ∀ i, ∃ r : ℝ, x2 i = (r : EReal)) :
    ∀ i, ∃ r : ℝ, val_main_v49 (F := Ideal) x0 x1 x2 i = (r : EReal) := by
  intro i
  unfold val_main_v49
  exact scatterAdd_real _ _ _ _ v47_real (v46_real x0 x1 x2 hx hw) i

/-- %52, the aggregate plus the bias: real under the precondition. -/
theorem v52_real (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal))
    (hx : ∀ i, ∃ r : ℝ, x0 i = (r : EReal)) (hw : ∀ i, ∃ r : ℝ, x2 i = (r : EReal)) (hb : ∀ i, ∃ r : ℝ, x3 i = (r : EReal)) :
    ∀ i, ∃ r : ℝ, val_main_v52 (F := Ideal) x0 x1 x2 x3 i = (r : EReal) := by
  intro i
  rw [val_main_v52_apply, val_main_v51_apply, val_main_v50_apply, Ideal.addf_def]
  exact add_real (v49_real x0 x1 x2 hx hw i) (hb _)

end Cert.ReferenceIdeal.RefFinite
-- ==== Proof.KFinal.lean ====
/-
  The final algebra: the kernel's last array against the reference's last stage.

  The kernel's last region computes, from the aggregate `S`, the bias row `b`, a mean row `m`, a variance row `vr`, the scale
  and shift rows and the slope, the entry `leaky a ((S p q + b q − m q) · rsqrt (vr q + ε) · γ q + β q)`; its mean row is the
  column mean of `S + b` and its variance row the second moment of `S + b` minus the squared mean. The reference computes
  the layer of `v = S + b` with the column mean of `v` and the mean of the squared deviations. The entries of `v` are real
  and the count is the number of rows, so the two variances are one number, and the two entries are the same expression.
-/
import proofs.«177960_j69157563400217_1_alg».proof.Proof.KA2
import proofs.«177960_j69157563400217_1_alg».proof.Proof.RefValue
import proofs.«177960_j69157563400217_1_alg».proof.Proof.SpecLaw
import proofs.«177960_j69157563400217_1_alg».proof.Proof.RefFinite
import proofs.«177960_j69157563400217_1_alg».proof.Proof.ReadP
import Idealize.ShloMosaic.Lib.ValueIdx
import Mathlib.Tactic.NormNum

noncomputable section

namespace Cert.KernelIdeal.HandValue

open Cert.KernelIdeal Idealize.ShloMosaic

/-- The bias broadcast to the table, [64] → [1,64] → [100000,64], reads the row at the column. -/
theorem idx_bias (p : Fin 100000) (q : Fin 64) :
    Cert.ReferenceIdeal.ReadP.idx_main_v50 (Cert.ReferenceIdeal.ReadP.idx_main_v51 (ValueIdx.ix2 p q)) = ValueIdx.ix1 q :=
  funext fun a => Fin.ext (by match a with | ⟨0, _⟩ => rfl)

/-- The algebra alone, over a table `v` of real entries with `v p q = S p q + b q`. -/
theorem affine_eq_layer (v : Cert.GcnSpec.Tab 100000 64) (hreal : ∀ p q, ∃ r : ℝ, v p q = (r : EReal))
    (S : S100000x64.Idx → EReal) (b m vr g bt : S1x64.Idx → EReal) (sl : S1.Idx → EReal) (γ β : Fin 64 → EReal) (a : EReal)
    (hv : ∀ (p : Fin 100000) (q : Fin 64), v p q = (S (ValueIdx.ix2 p q) + b (ValueIdx.ix2 0 q)))
    (hm : ∀ q : Fin 64, m (ValueIdx.ix2 0 q) = Ideal.div (∑ p : Fin 100000, (S (ValueIdx.ix2 p q) + b (ValueIdx.ix2 0 q))) (Ideal.ofBits .f32 0x47C35000#32))
    (hvr : ∀ q : Fin 64, vr (ValueIdx.ix2 0 q) = Ideal.div (∑ p : Fin 100000, (S (ValueIdx.ix2 p q) + b (ValueIdx.ix2 0 q)) * (S (ValueIdx.ix2 p q) + b (ValueIdx.ix2 0 q))) (Ideal.ofBits .f32 0x47C35000#32) - m (ValueIdx.ix2 0 q) * m (ValueIdx.ix2 0 q))
    (hg : ∀ q : Fin 64, g (ValueIdx.ix2 0 q) = γ q) (hbt : ∀ q : Fin 64, bt (ValueIdx.ix2 0 q) = β q) (hsl : sl (ValueIdx.ix1 0) = a)
    (p : Fin 100000) (q : Fin 64) :
    affineOf S b m vr g bt sl (ValueIdx.ix2 p q)
      = Cert.GcnSpec.layer (Ideal.ofBits .f32 0x3727C5AC#32) a v (Cert.GcnSpec.mean (Ideal.ofBits .f32 0x47C35000#32) v) (Cert.GcnSpec.varCentered (Ideal.ofBits .f32 0x47C35000#32) v) γ β p q := by
  have hmean : Cert.GcnSpec.mean (Ideal.ofBits .f32 0x47C35000#32) v q = m (ValueIdx.ix2 0 q) := by
    have h : (fun p : Fin 100000 => v p q) = fun p => (S (ValueIdx.ix2 p q) + b (ValueIdx.ix2 0 q)) := funext fun p => hv p q
    rw [hm]; unfold Cert.GcnSpec.mean Cert.GcnSpec.colSum; rw [h]
  have hvar : Cert.GcnSpec.varCentered (Ideal.ofBits .f32 0x47C35000#32) v q = vr (ValueIdx.ix2 0 q) := by
    have h : (fun p : Fin 100000 => v p q * v p q) = fun p => (S (ValueIdx.ix2 p q) + b (ValueIdx.ix2 0 q)) * (S (ValueIdx.ix2 p q) + b (ValueIdx.ix2 0 q)) := funext fun p => by rw [hv p q]
    rw [Cert.GcnSpec.count_word, ← Cert.GcnSpec.varMoments_eq_varCentered (by norm_num) v hreal, ← Cert.GcnSpec.count_word,
      hvr, ← hmean]
    unfold Cert.GcnSpec.varMoments Cert.GcnSpec.colSumSq; rw [h]
  show Cert.GcnSpec.leaky (sl (ValueIdx.ix1 0))
      ((S (ValueIdx.ix2 p q) + b (ValueIdx.ix2 0 q) - m (ValueIdx.ix2 0 q)) * Ideal.rsqrt (vr (ValueIdx.ix2 0 q) + (Ideal.ofBits .f32 0x3727C5AC#32)) * g (ValueIdx.ix2 0 q) + bt (ValueIdx.ix2 0 q))
    = Cert.GcnSpec.leaky a ((v p q - Cert.GcnSpec.mean (Ideal.ofBits .f32 0x47C35000#32) v q) * Ideal.rsqrt (Cert.GcnSpec.varCentered (Ideal.ofBits .f32 0x47C35000#32) v q + (Ideal.ofBits .f32 0x3727C5AC#32)) * γ q + β q)
  rw [hmean, hvar, hv p q, hg, hbt, hsl]

/-- The kernel's last array is the reference's last stage. -/
theorem layer_eq (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal)) (x3 x4 x5 : (⟨Cert.ReferenceIdeal.S64, .f32⟩ : BufTy).Contents (Elt Ideal)) (x6 : (⟨Cert.ReferenceIdeal.S1, .f32⟩ : BufTy).Contents (Elt Ideal))
    (hx : ∀ i, ∃ r : ℝ, x0 i = (r : EReal)) (hw : ∀ i, ∃ r : ℝ, x2 i = (r : EReal)) (hb : ∀ i, ∃ r : ℝ, x3 i = (r : EReal))
    (S : S100000x64.Idx → EReal) (bias mean var gam bet : S1x64.Idx → EReal) (slope : S1.Idx → EReal)
    (hS : S = Cert.ReferenceIdeal.ReadP.val_main_v49 (F := Ideal) x0 x1 x2)
    (hbias : ∀ q : Fin 64, bias (ValueIdx.ix2 0 q) = x3 (ValueIdx.ix1 q))
    (hmean : ∀ q : Fin 64, mean (ValueIdx.ix2 0 q) = Ideal.div (∑ p : Fin 100000, (S (ValueIdx.ix2 p q) + bias (ValueIdx.ix2 0 q))) (Ideal.ofBits .f32 0x47C35000#32))
    (hvar : ∀ q : Fin 64, var (ValueIdx.ix2 0 q) = Ideal.div (∑ p : Fin 100000, (S (ValueIdx.ix2 p q) + bias (ValueIdx.ix2 0 q)) * (S (ValueIdx.ix2 p q) + bias (ValueIdx.ix2 0 q))) (Ideal.ofBits .f32 0x47C35000#32) - mean (ValueIdx.ix2 0 q) * mean (ValueIdx.ix2 0 q))
    (hgam : ∀ q : Fin 64, gam (ValueIdx.ix2 0 q) = x4 (ValueIdx.ix1 q)) (hbet : ∀ q : Fin 64, bet (ValueIdx.ix2 0 q) = x5 (ValueIdx.ix1 q)) (hslope : slope = x6) :
    affineOf S bias mean var gam bet slope = Cert.ReferenceIdeal.ReadP.val_main_v83 (F := Ideal) x0 x1 x2 x3 x4 x5 x6 := by
  funext i
  obtain ⟨p, q, rfl⟩ : ∃ (p : Fin 100000) (q : Fin 64), i = ValueIdx.ix2 p q := ⟨i 0, i 1, ValueIdx.eq_ix2 i⟩
  rw [Cert.ReferenceIdeal.RefValue.ref_value]
  have hreal : ∀ p q, ∃ r : ℝ, Cert.ReferenceIdeal.RefValue.tab (Cert.ReferenceIdeal.ReadP.val_main_v52 (F := Ideal) x0 x1 x2 x3) p q = (r : EReal) := by
    intro p q; unfold Cert.ReferenceIdeal.RefValue.tab; exact Cert.ReferenceIdeal.RefFinite.v52_real x0 x1 x2 x3 hx hw hb _
  have hv : ∀ (p : Fin 100000) (q : Fin 64), Cert.ReferenceIdeal.RefValue.tab (Cert.ReferenceIdeal.ReadP.val_main_v52 (F := Ideal) x0 x1 x2 x3) p q
      = S (ValueIdx.ix2 p q) + bias (ValueIdx.ix2 0 q) := by
    intro p q; unfold Cert.ReferenceIdeal.RefValue.tab
    rw [Cert.ReferenceIdeal.ReadP.val_main_v52_apply, Cert.ReferenceIdeal.ReadP.val_main_v51_apply, Cert.ReferenceIdeal.ReadP.val_main_v50_apply, idx_bias, Ideal.addf_def, hS, hbias]
  exact affine_eq_layer _ hreal S bias mean var gam bet slope _ _ _ hv hmean hvar hgam hbet (by rw [hslope]) p q

end Cert.KernelIdeal.HandValue

end
-- ==== Proof.PreReal.lean ====
/-
  From the printed precondition `finite_inputs` to "every entry is a real number".
  The precondition is the conjunction of six tests `all (|a| < +∞)`, one per float argument. At the extended
  reals `|x| = max x (-x)` and the word 0x7F800000 denotes `⊤`, so `|x| < ⊤` excludes exactly `x = ⊤` and
  `x = ⊥`: what is left is a real number.
-/
import proofs.«177960_j69157563400217_1_alg».proof.Pre_finite_inputs
import Idealize.ShloMosaic.Lib.ReduceAll
import Idealize.ShloMosaic.Lib.ValueIdx
import Idealize.ShloMosaic.PureOps.Ideal.Laws

namespace Cert.Pre_finite_inputs.Real

open Idealize.ShloMosaic Cert.Pre_finite_inputs

/-- The rank-0 shape has one index. -/
instance : Subsingleton S_.Idx := ⟨fun a b => funext fun d => d.elim0⟩

/-- The f32 word 0x7F800000 denotes `+∞`. -/
theorem ofBits_inf : Ideal.ofBits .f32 0x7F800000#32 = (⊤ : EReal) := by simp [Ideal.ofBits, Ideal.ieee]

/-- An extended real whose absolute value `max x (-x)` is below `+∞` is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

variable [Facts]

/-- The precondition holds only if every entry of the node features, of the weight matrix and of the
    convolution's bias is a real number. -/
theorem reals_of_pre (a0 : FVec Ideal S100000x64 .f32) (a1 : IVec S2x1600000 32) (a2 : FVec Ideal S64x64 .f32)
    (a3 a4 a5 : FVec Ideal S64 .f32) (a6 : FVec Ideal S1 .f32)
    (h : Cert.Pre_finite_inputs.fn (F := Ideal) a0 a1 a2 a3 a4 a5 a6 = fun _ => 1#1) :
    (∀ i, ∃ r : ℝ, a0 i = (r : EReal)) ∧ (∀ i, ∃ r : ℝ, a2 i = (r : EReal)) ∧ (∀ i, ∃ r : ℝ, a3 i = (r : EReal)) := by
  have h0 := congrFun h ValueIdx.ix0
  dsimp only [fn, fn_part1] at h0
  obtain ⟨h5, _⟩ := IntOp.andi_eq_one.1 h0
  obtain ⟨h4, _⟩ := IntOp.andi_eq_one.1 h5
  obtain ⟨h3, _⟩ := IntOp.andi_eq_one.1 h4
  obtain ⟨h2, e3⟩ := IntOp.andi_eq_one.1 h3
  obtain ⟨e0, e2⟩ := IntOp.andi_eq_one.1 h2
  refine ⟨fun i => ?_, fun i => ?_, fun i => ?_⟩
  · exact real_of_abs_lt _ (Host.reduce_andi_all _ _ _ _ _ e0 i)
  · exact real_of_abs_lt _ (Host.reduce_andi_all _ _ _ _ _ e2 i)
  · exact real_of_abs_lt _ (Host.reduce_andi_all _ _ _ _ _ e3 i)

end Cert.Pre_finite_inputs.Real
-- ==== Proof.KAlg.lean ====
/-
  The kernel's result array is the reference's last stage of the same seven arguments.

  The last region leaves, index by index, the leaky rectifier of
  `(s + b − μ) · rsqrt (var + ε) · γ + β`, where `s` is the aggregated array, `b, γ, β` the bias, scale and shift as rows,
  `μ` the column sums of `s + b` over the count and `var` the column sums of `(s + b)²` over the count minus `μ²`. The
  reference computes the same with the variance as the mean squared deviation; for real entries — which the
  precondition gives — the two variances are one number.
-/
import proofs.«177960_j69157563400217_1_alg».proof.Proof.KGlue
import proofs.«177960_j69157563400217_1_alg».proof.Proof.KA2
import proofs.«177960_j69157563400217_1_alg».proof.Proof.KFinal
import proofs.«177960_j69157563400217_1_alg».proof.Proof.PreReal
import Idealize.ShloMosaic.Lib.ValueLayout

set_option maxRecDepth 16384

noncomputable section

namespace Cert.KernelIdeal.HandValue

open Cert.KernelIdeal Cert.KernelIdeal.Gen Cert.KernelIdeal.Hand Idealize.ShloMosaic Idealize.ShloMosaic.TcCoe Idealize.SL.Sem Idealize.ShloMosaic.StableHlo

/-- A vector as a 1×64 row, read at `(0, q)`. -/
theorem rowOf_apply (y : FVec Ideal S64 .f32) (q : Fin 64) : rowOf y (ValueIdx.ix2 0 q) = y (ValueIdx.ix1 q) :=
  ValueIdx.shapeCast_a_1a_apply y shapeCasts_S64_S1x64 0 q

/-- The count, broadcast to a row, is the count at every index. -/
theorem count_apply (i : S1x64.Idx) :
    (broadcastInDim S1x64 ![] bcast_S_S1x64 (constant (F := Ideal) S_ .f32 0x47C35000#32)) i = Ideal.ofBits .f32 0x47C35000#32 :=
  (broadcastInDim_apply _ bcast_S_S1x64 _ i (fun a => a.elim0) (fun a => a.elim0)).trans rfl

theorem meanK_apply (s1 : FVec Ideal S1x64 .f32) (i : S1x64.Idx) : meanK s1 i = Ideal.div (s1 i) (Ideal.ofBits .f32 0x47C35000#32) := by
  unfold meanK
  show Ideal.div (s1 i) ((broadcastInDim S1x64 ![] bcast_S_S1x64 (constant (F := Ideal) S_ .f32 0x47C35000#32)) i) = _
  rw [count_apply]

theorem varK_apply (s1 s2 : FVec Ideal S1x64 .f32) (i : S1x64.Idx) :
    varK s1 s2 i = Ideal.div (s2 i) (Ideal.ofBits .f32 0x47C35000#32) - meanK s1 i * meanK s1 i := by
  unfold varK
  show Ideal.div (s2 i) ((broadcastInDim S1x64 ![] bcast_S_S1x64 (constant (F := Ideal) S_ .f32 0x47C35000#32)) i) - meanK s1 i * meanK s1 i = _
  rw [count_apply]

/-- The last region's pointwise form, over arrays named by what they are, is the reference's last stage. -/
theorem affine_is_reference (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) (x4 : (⟨Cert.ReferenceIdeal.S64, .f32⟩ : BufTy).Contents (Elt Ideal)) (x5 : (⟨Cert.ReferenceIdeal.S64, .f32⟩ : BufTy).Contents (Elt Ideal)) (x6 : (⟨Cert.ReferenceIdeal.S1, .f32⟩ : BufTy).Contents (Elt Ideal))
    (hx : ∀ i, ∃ r : ℝ, x0 i = (r : EReal)) (hw : ∀ i, ∃ r : ℝ, x2 i = (r : EReal)) (hb : ∀ i, ∃ r : ℝ, x3 i = (r : EReal))
    (S : S100000x64.Idx → EReal) (bias mean var gam bet : S1x64.Idx → EReal) (slope : S1.Idx → EReal) (s1 s2 : S1x64.Idx → EReal)
    (hS : S = (Cert.ReferenceIdeal.ReadP.val_main_v49 (F := Ideal) x0 x1 x2)) (hbias : bias = rowOf x3) (hmean : mean = meanK s1) (hvar : var = varK s1 s2)
    (hs1 : s1 = fun i : S1x64.Idx => ∑ p : Fin 100000, ((Cert.ReferenceIdeal.ReadP.val_main_v49 (F := Ideal) x0 x1 x2) (ValueIdx.ix2 p (i 1)) + (rowOf x3) (ValueIdx.ix2 0 (i 1))))
    (hs2 : s2 = fun i : S1x64.Idx => ∑ p : Fin 100000, ((Cert.ReferenceIdeal.ReadP.val_main_v49 (F := Ideal) x0 x1 x2) (ValueIdx.ix2 p (i 1)) + (rowOf x3) (ValueIdx.ix2 0 (i 1))) * ((Cert.ReferenceIdeal.ReadP.val_main_v49 (F := Ideal) x0 x1 x2) (ValueIdx.ix2 p (i 1)) + (rowOf x3) (ValueIdx.ix2 0 (i 1))))
    (hgam : gam = rowOf x4) (hbet : bet = rowOf x5) (hslope : slope = x6) :
    affineOf S bias mean var gam bet slope = Cert.ReferenceIdeal.ReadP.val_main_v83 (F := Ideal) x0 x1 x2 x3 x4 x5 x6 := by
  subst hS hbias hmean hvar hs1 hs2 hgam hbet
  exact layer_eq x0 x1 x2 x3 x4 x5 x6 hx hw hb _ _ _ _ _ _ _ rfl (fun q => rowOf_apply _ q)
    (fun q => by rw [meanK_apply]) (fun q => by rw [varK_apply]) (fun q => rowOf_apply _ q) (fun q => rowOf_apply _ q) hslope

variable (m : (ℓ : Loc nD τ sig) → Buf (Elt Ideal) ℓ) (c : Dev nD)

/-- THE KERNEL'S VALUE: for real inputs, the result array the run leaves is the reference's last stage of the arguments. -/
theorem kernel_value (hx : ∀ i, ∃ r : ℝ, (m ((c.tc : Thread nD τ).loc main_arg0)) i = (r : EReal)) (hw : ∀ i, ∃ r : ℝ, (m ((c.tc : Thread nD τ).loc main_arg2)) i = (r : EReal)) (hb : ∀ i, ∃ r : ℝ, (m ((c.tc : Thread nD τ).loc main_arg3)) i = (r : EReal)) :
    (dat2 (E2in m) c).arrAt 7 cfg2.N
      = Cert.ReferenceIdeal.ReadP.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [affine_array (E2in m) c]
  exact affine_is_reference _ _ _ _ _ _ _ hx hw hb _ _ _ _ _ _ _ _ _
    (x9_v49 m c) (x9_v50 m c) (x9_v53 m c) (x9_v57 m c) (x8_v51_0 m c) (x8_v51_1 m c) (x9_v58 m c) (x9_v59 m c) (x9_arg6 m c)

end Cert.KernelIdeal.HandValue

end
-- ==== Proof.lean ====
/-
  The proof of `Cert.Claim`: a graph-convolution layer (linear layer, aggregation over the edges with symmetric degree
  normalisation, bias), batch normalisation with batch statistics and a leaky rectifier, computed by three kernel
  regions among host operations, against its plain reference.

  The three frames. The two kernel programs (the printed one, read at words; its idealization, read at the extended
  reals) are the same ten segments — five stretches of host operations, the linear layer's region, a stretch, the
  reduction's region (two accumulators carried across its fifty grid points), a stretch, the normalisation's region
  —, and one run of those segments, written once for any float instance (Proof/KF0, KF1a, KF1, KF2, KRun, and the same
  text over the word-level program in BF0 … BRun), leaves every argument as launched. The reference is host
  operations only: its run is Proof/RunP.

  `preserves`: the idealization rewrote nothing, so there is nothing to state.

  `algebraic`: the kernel's run ends with the result array at what the last region's blocks leave (KRun); walking the
  boundaries of the run, every buffer is the reference's stage of the same name of the seven arguments (KGlueA, KGlue,
  over the regions' arrays read whole: KA0, KA1, KA2 over the payloads at an index KV0, KV1, KV2), up to the variance,
  which the kernel takes as second moment minus squared mean and the reference as mean squared deviation; under the
  precondition every entry of the normalised table is a real number (PreReal, RefFinite) and the two variances are one
  number (SpecLaw), so the two last stages agree index by index (RefValue, KFinal, KAlg).
-/
import proofs.«177960_j69157563400217_1_alg».proof.Defs
import proofs.«177960_j69157563400217_1_alg».proof.Proof.Gen.Kernel
import proofs.«177960_j69157563400217_1_alg».proof.Proof.Gen.KernelIdeal
import proofs.«177960_j69157563400217_1_alg».proof.Proof.Gen.ReferenceIdeal
import proofs.«177960_j69157563400217_1_alg».proof.Proof.Gen.Pre_finite_inputs
import proofs.«177960_j69157563400217_1_alg».proof.Proof.BRun
import proofs.«177960_j69157563400217_1_alg».proof.Proof.KRun
import proofs.«177960_j69157563400217_1_alg».proof.Proof.RunP
import proofs.«177960_j69157563400217_1_alg».proof.Proof.KAlg
import proofs.«177960_j69157563400217_1_alg».proof.Proof.PreReal
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The kernel's run ends with its result array at the reference's last stage of the arguments, and the reference's run
    with its result at that stage of ITS arguments, which agree with the kernel's. -/
theorem algebraic : Cert.algebraic_KernelIdeal_ReferenceIdeal := by
  intro m ρ m' ρ' hpre hagree
  refine ⟨fun c => (Cert.KernelIdeal.Hand.dat2 (F := Ideal) (Cert.KernelIdeal.Hand.E2in m) c).arrAt 7 Cert.KernelIdeal.cfg2.N,
    Cert.KernelIdeal.Hand.run_values (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hw, hb⟩ := Cert.Pre_finite_inputs.Real.reals_of_pre _ _ _ _ _ _ _ (hpre c)
  rw [(hagree c).1, (hagree c).2.1, (hagree c).2.2.1, (hagree c).2.2.2.1, (hagree c).2.2.2.2.1, (hagree c).2.2.2.2.2.1, (hagree c).2.2.2.2.2.2]
  exact (Cert.KernelIdeal.HandValue.kernel_value m c hx hw hb).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
